-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x2000 : Shape := ⟨2, ![10000, 2000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg1 : FVec F S10000x2000 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_cst_6 : FVec F S_ .f32 := constant S_ .f32 0x00000000#32
  let main_v19 : FVec F S10000x2000 .f32 := broadcastInDim S10000x2000 ![] bcast_S_S10000x2000 main_cst_6
  let main_v20 : IVec S10000x2000 1 := cmpf .oge main_arg1 main_v19
  let main_c_7 : IVec S_ 1 := constantI S_ 1 1#1
  let main_v21 : IVec S_ 1 := (fun x v => Host.reduce IntOp.andi x v reducesTo_S10000x2000_S_d0_1 h_S_) main_v20 main_c_7
  let main_v22 : IVec S_ 1 := andi main_v18 main_v21
  main_v22

def fn {F : FTy → Type} [FloatOps F] (main_arg0 : FVec F S10000x256 .f32) (main_arg1 : FVec F S10000x2000 .f32) (main_arg2 : FVec F S256x256 .f32) (main_arg3 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_v13 main_v16
-- ==== Kernel.lean ====
abbrev S10000x256 : Shape := ⟨2, ![10000, 256]⟩
abbrev S10000x2000 : Shape := ⟨2, ![10000, 2000]⟩
abbrev S256x256 : Shape := ⟨2, ![256, 256]⟩
abbrev S2000x256 : Shape := ⟨2, ![2000, 256]⟩
abbrev S1x2000 : Shape := ⟨2, ![1, 2000]⟩
abbrev S2000x2000 : Shape := ⟨2, ![2000, 2000]⟩
abbrev S384x2000 : Shape := ⟨2, ![384, 2000]⟩
abbrev S2000x128 : Shape := ⟨2, ![2000, 128]⟩
abbrev S2000x384 : Shape := ⟨2, ![2000, 384]⟩
abbrev S256x2000 : Shape := ⟨2, ![256, 2000]⟩
abbrev S10000x1 : Shape := ⟨2, ![10000, 1]⟩
abbrev S2000x1 : Shape := ⟨2, ![2000, 1]⟩

abbrev nBuf : Space → Nat
  | .hbm => 12
  | .vmem => 24
  | .smem => 0
  | _ => 0

abbrev bufTy : (tb : Table) → Fin (tcTables nBuf tb) → BufTy
  | .hbm, ⟨0, _⟩ => ⟨S10000x256, .f32⟩
  | .hbm, ⟨1, _⟩ => ⟨S10000x2000, .f32⟩
  | .hbm, ⟨2, _⟩ => ⟨S256x256, .f32⟩
  | .hbm, ⟨3, _⟩ => ⟨S256x256, .f32⟩
  | .hbm, ⟨4, _⟩ => ⟨S10000x2000, .bf16⟩
  | .hbm, ⟨5, _⟩ => ⟨S256x256, .bf16⟩
  | .hbm, ⟨6, _⟩ => ⟨S256x256, .bf16⟩
  | .hbm, ⟨7, _⟩ => ⟨S2000x256, .bf16⟩
  | .hbm, ⟨8, _⟩ => ⟨S1x2000, .f32⟩
  | .hbm, ⟨9, _⟩ => ⟨S2000x256, .bf16⟩
  | .hbm, ⟨10, _⟩ => ⟨S10000x1, .f32⟩
  | .hbm, ⟨11, _⟩ => ⟨S10000x256, .f32⟩
  | .local _ .vmem, ⟨0, _⟩ => ⟨S2000x2000, .bf16⟩
  | .local _ .vmem, ⟨1, _⟩ => ⟨S2000x2000, .bf16⟩
  | .local _ .vmem, ⟨2, _⟩ => ⟨S2000x256, .f32⟩
  | .local _ .vmem, ⟨3, _⟩ => ⟨S2000x256, .f32⟩
  | .local _ .vmem, ⟨4, _⟩ => ⟨S2000x256, .bf16⟩
  | .local _ .vmem, ⟨5, _⟩ => ⟨S1x2000, .f32⟩
  | .local _ .vmem, ⟨6, _⟩ => ⟨S384x2000, .f32⟩
  | .local _ .vmem, ⟨7, _⟩ => ⟨S2000x2000, .bf16⟩
  | .local _ .vmem, ⟨8, _⟩ => ⟨S2000x2000, .bf16⟩
  | .local _ .vmem, ⟨9, _⟩ => ⟨S2000x256, .bf16⟩
  | .local _ .vmem, ⟨10, _⟩ => ⟨S256x256, .bf16⟩
  | .local _ .vmem, ⟨11, _⟩ => ⟨S1x2000, .f32⟩
  | .local _ .vmem, ⟨12, _⟩ => ⟨S2000x256, .bf16⟩
  | .local _ .vmem, ⟨13, _⟩ => ⟨S2000x1, .f32⟩
  | .local _ .vmem, ⟨14, _⟩ => ⟨S2000x1, .f32⟩
  | .local _ .vmem, ⟨15, _⟩ => ⟨S256x2000, .f32⟩
  | .local _ .vmem, ⟨16, _⟩ => ⟨S2000x2000, .bf16⟩
  | .local _ .vmem, ⟨17, _⟩ => ⟨S2000x2000, .bf16⟩
  | .local _ .vmem, ⟨18, _⟩ => ⟨S2000x256, .bf16⟩
  | .local _ .vmem, ⟨19, _⟩ => ⟨S256x256, .bf16⟩
  | .local _ .vmem, ⟨20, _⟩ => ⟨S2000x1, .f32⟩
  | .local _ .vmem, ⟨21, _⟩ => ⟨S2000x1, .f32⟩
  | .local _ .vmem, ⟨22, _⟩ => ⟨S2000x256, .f32⟩
  | .local _ .vmem, ⟨23, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x2000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![5], ![false]⟩

def k1_cond3 (i : grid1.Coords) : BitVec 1 :=
  let arg0 : BitVec 32 := BitVec.ofNat 32 (i 0).val
  let c4_i32 : BitVec 32 := 4#32
  let v32 : BitVec 1 := Scalar.cmpi .eq arg0 c4_i32
  let v33 : BitVec 32 := Scalar.extui v32
  let c0_i32_16 : BitVec 32 := 0#32
  let v34 : BitVec 1 := Scalar.cmpi .ne v33 c0_i32_16
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x2000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2000x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  inb_S2000x256_S2000x256_0_0 : ∀ a, (![0, 0] : Fin 2 → Nat) a + S2000x256.size a ≤ S2000x256.size a
  h_S2000x256 : 0 < S2000x256.numel
  concatenates_S2000x256_S2000x128_S2000x384_d1 : Shape.Concatenates [S2000x256, S2000x128] S2000x384 1
  inb_S384x2000_S384x2000_0_0 : ∀ a, (![0, 0] : Fin 2 → Nat) a + S384x2000.size a ≤ S384x2000.size a
  h_S384x2000 : 0 < S384x2000.numel
  shapeCasts_S384x2000_S384x2000 : S384x2000.ShapeCasts S384x2000
  inb_S384x2000_S1x2000_256_0 : ∀ a, (![256, 0] : Fin 2 → Nat) a + S1x2000.size a ≤ S384x2000.size a
  h_S1x2000 : 0 < S1x2000.numel
  inb_S384x2000_S256x2000_0_0 : ∀ a, (![0, 0] : Fin 2 → Nat) a + S256x2000.size a ≤ S384x2000.size a
  h_S256x2000 : 0 < S256x2000.numel
  broadcasts_S1x2000_S256x2000 : S1x2000.Broadcasts S256x2000
  transposes_S256x2000_p1_0_S2000x256 : S256x2000.Transposes [1, 0] S2000x256
  packedbf16_S2000x256_S2000x256_0_0 : (Rect.unit (s := S2000x256) ![0, 0] S2000x256.size inb_S2000x256_S2000x256_0_0).PackedRows (EltTy.packing .bf16)
  inb_S1x2000_S1x2000_0_0 : ∀ a, (![0, 0] : Fin 2 → Nat) a + S1x2000.size a ≤ S1x2000.size a
  shapeCasts_S2000x256_S2000x256 : S2000x256.ShapeCasts S2000x256
  slices_S2000x384_o0_256_S2000x1 : S2000x384.Slices ![0, 256] S2000x1
  inb_S2000x1_S2000x1_0_0 : ∀ a, (![0, 0] : Fin 2 → Nat) a + S2000x1.size a ≤ S2000x1.size a
  h_S2000x1 : 0 < S2000x1.numel
  slices_S2000x384_o0_0_S2000x256 : S2000x384.Slices ![0, 0] S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2000_S256x2000_0_0 : ∀ a, (![0, 0] : Fin 2 → Nat) a + S256x2000.size a ≤ S256x2000.size a
  shapeCasts_S256x2000_S256x2000 : S256x2000.ShapeCasts S256x2000
  shapeCasts_S1x2000_S1x2000 : S1x2000.ShapeCasts S1x2000
  shapeCasts_S2000x1_S2000x1 : S2000x1.ShapeCasts S2000x1
  dot_S2000x384_S2000x2000_S384x2000_0_0_1_1_n_n_wf : DotDims.WF S2000x384 S2000x2000 S384x2000 [0] [0] [1] [1] [] []
  dot_S2000x2000_S2000x384_S2000x384_1_0_0_1_n_n_wf : DotDims.WF S2000x2000 S2000x384 S2000x384 [1] [0] [0] [1] [] []
  dot_S2000x256_S256x256_S2000x256_1_0_0_1_n_n_wf : DotDims.WF S2000x256 S256x256 S2000x256 [1] [0] [0] [1] [] []
  dot_S2000x256_S2000x2000_S256x2000_0_0_1_1_n_n_wf : DotDims.WF S2000x256 S2000x2000 S256x2000 [0] [0] [1] [1] [] []
  dot_S2000x2000_S2000x256_S2000x256_1_0_0_1_n_n_wf : DotDims.WF S2000x2000 S2000x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2000.size a ≤ S10000x2000.size a
  hwx0_0 : ∀ i : grid0.Coords, EltTy.bits .bf16 = 32 ∨ (Rect.block (s := S10000x2000) S2000x2000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S10000x256.size a
  hwx0_1 : ∀ i : grid0.Coords, EltTy.bits .f32 = 32 ∨ (Rect.block (s := S10000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S2000x256.size a
  hwx0_2 : ∀ i : grid0.Coords, EltTy.bits .bf16 = 32 ∨ (Rect.block (s := S2000x256) S2000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2000.size a ≤ S1x2000.size a
  hwx0_3 : ∀ i : grid0.Coords, EltTy.bits .f32 = 32 ∨ (Rect.block (s := S1x2000) S1x2000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2000.size a ≤ S10000x2000.size a
  hwx1_0 : ∀ i : grid1.Coords, EltTy.bits .bf16 = 32 ∨ (Rect.block (s := S10000x2000) S2000x2000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S2000x256.size a
  hwx1_1 : ∀ i : grid1.Coords, EltTy.bits .bf16 = 32 ∨ (Rect.block (s := S2000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2000.size a ≤ S1x2000.size a
  hwx1_3 : ∀ i : grid1.Coords, EltTy.bits .f32 = 32 ∨ (Rect.block (s := S1x2000) S1x2000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S2000x256.size a
  hwx1_4 : ∀ i : grid1.Coords, EltTy.bits .bf16 = 32 ∨ (Rect.block (s := S2000x256) S2000x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S10000x1.size a
  hwx1_5 : ∀ i : grid1.Coords, EltTy.bits .f32 = 32 ∨ (Rect.block (s := S10000x1) S2000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2000.size a ≤ S10000x2000.size a
  hwx2_0 : ∀ i : grid2.Coords, EltTy.bits .bf16 = 32 ∨ (Rect.block (s := S10000x2000) S2000x2000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S2000x256.size a
  hwx2_1 : ∀ i : grid2.Coords, EltTy.bits .bf16 = 32 ∨ (Rect.block (s := S2000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S10000x1.size a
  hwx2_3 : ∀ i : grid2.Coords, EltTy.bits .f32 = 32 ∨ (Rect.block (s := S10000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S10000x256.size a
  hwx2_4 : ∀ i : grid2.Coords, EltTy.bits .f32 = 32 ∨ (Rect.block (s := S10000x256) S2000x256.size (cc2_transform_4 i) (hinb2_4 i)).WholeWords (EltTy.packing .f32)

variable [Facts₀]

def dot_S2000x384_S2000x2000_S384x2000_0_0_1_1_n_n : DotDims S2000x384 S2000x2000 S384x2000 where
  lhsContracting := [0]
  rhsContracting := [0]
  lhsNonContracting := [1]
  rhsNonContracting := [1]
  lhsBatch := []
  rhsBatch := []
  wf := dot_S2000x384_S2000x2000_S384x2000_0_0_1_1_n_n_wf
def dot_S2000x2000_S2000x384_S2000x384_1_0_0_1_n_n : DotDims S2000x2000 S2000x384 S2000x384 where
  lhsContracting := [1]
  rhsContracting := [0]
  lhsNonContracting := [0]
  rhsNonContracting := [1]
  lhsBatch := []
  rhsBatch := []
  wf := dot_S2000x2000_S2000x384_S2000x384_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S2000x2000_S256x2000_0_0_1_1_n_n : DotDims S2000x256 S2000x2000 S256x2000 where
  lhsContracting := [0]
  rhsContracting := [0]
  lhsNonContracting := [1]
  rhsNonContracting := [1]
  lhsBatch := []
  rhsBatch := []
  wf := dot_S2000x256_S2000x2000_S256x2000_0_0_1_1_n_n_wf
def dot_S2000x2000_S2000x256_S2000x256_1_0_0_1_n_n : DotDims S2000x2000 S2000x256 S2000x256 where
  lhsContracting := [1]
  rhsContracting := [0]
  lhsNonContracting := [0]
  rhsNonContracting := [1]
  lhsBatch := []
  rhsBatch := []
  wf := dot_S2000x2000_S2000x256_S2000x256_1_0_0_1_n_n_wf

abbrev win0_0 : Pipeline.Window sig grid0 :=
  Pipeline.Window.ofSpec (Memref.whole main_v0) S2000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S2000x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x2000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

abbrev win1_0 : Pipeline.Window sig grid1 :=
  Pipeline.Window.ofSpec (Memref.whole main_v0) S2000x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S2000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S1x2000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S2000x256.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond3 i == 1#1) | 5 => fun _ => false | ⟨_ + 6, h⟩ => absurd h (Nat.not_lt.2 (Nat.le_add_left _ _))

abbrev win2_0 : Pipeline.Window sig grid2 :=
  Pipeline.Window.ofSpec (Memref.whole main_v0) S2000x2000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S2000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x2000 : Shape := ⟨2, ![10000, 2000]⟩
abbrev S256x256 : Shape := ⟨2, ![256, 256]⟩
abbrev S_ : Shape := ⟨0, ![]⟩
abbrev S2000 : Shape := ⟨1, ![2000]⟩
abbrev S2000x10000 : Shape := ⟨2, ![2000, 10000]⟩
abbrev S2000x256 : Shape := ⟨2, ![2000, 256]⟩
abbrev S2000x1 : Shape := ⟨2, ![2000, 1]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x2000, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S2000, .f32⟩
  | .hbm, ⟨6, _⟩ => ⟨S2000x10000, .f32⟩
  | .hbm, ⟨7, _⟩ => ⟨S_, .f32⟩
  | .hbm, ⟨8, _⟩ => ⟨S10000x256, .f32⟩
  | .hbm, ⟨9, _⟩ => ⟨S10000x256, .f32⟩
  | .hbm, ⟨10, _⟩ => ⟨S2000x256, .f32⟩
  | .hbm, ⟨11, _⟩ => ⟨S_, .f32⟩
  | .hbm, ⟨12, _⟩ => ⟨S2000, .f32⟩
  | .hbm, ⟨13, _⟩ => ⟨S2000, .f32⟩
  | .hbm, ⟨14, _⟩ => ⟨S2000x1, .f32⟩
  | .hbm, ⟨15, _⟩ => ⟨S2000x256, .f32⟩
  | .hbm, ⟨16, _⟩ => ⟨S2000x256, .f32⟩
  | .hbm, ⟨17, _⟩ => ⟨S_, .f32⟩
  | .hbm, ⟨18, _⟩ => ⟨S2000x256, .f32⟩
  | .hbm, ⟨19, _⟩ => ⟨S2000x256, .f32⟩
  | .hbm, ⟨20, _⟩ => ⟨S_, .f32⟩
  | .hbm, ⟨21, _⟩ => ⟨S10000, .f32⟩
  | .hbm, ⟨22, _⟩ => ⟨S_, .f32⟩
  | .hbm, ⟨23, _⟩ => ⟨S2000x256, .f32⟩
  | .hbm, ⟨24, _⟩ => ⟨S2000x256, .f32⟩
  | .hbm, ⟨25, _⟩ => ⟨S10000x256, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x256, .f32⟩
  | .hbm, ⟨31, _⟩ => ⟨S10000x256, .f32⟩
  | .hbm, ⟨32, _⟩ => ⟨S_, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S_, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S2000, .f32⟩
  | .hbm, ⟨41, _⟩ => ⟨S2000x10000, .f32⟩
  | .hbm, ⟨42, _⟩ => ⟨S_, .f32⟩
  | .hbm, ⟨43, _⟩ => ⟨S10000x256, .f32⟩
  | .hbm, ⟨44, _⟩ => ⟨S10000x256, .f32⟩
  | .hbm, ⟨45, _⟩ => ⟨S2000x256, .f32⟩
  | .hbm, ⟨46, _⟩ => ⟨S_, .f32⟩
  | .hbm, ⟨47, _⟩ => ⟨S2000, .f32⟩
  | .hbm, ⟨48, _⟩ => ⟨S2000, .f32⟩
  | .hbm, ⟨49, _⟩ => ⟨S2000x1, .f32⟩
  | .hbm, ⟨50, _⟩ => ⟨S2000x256, .f32⟩
  | .hbm, ⟨51, _⟩ => ⟨S2000x256, .f32⟩
  | .hbm, ⟨52, _⟩ => ⟨S_, .f32⟩
  | .hbm, ⟨53, _⟩ => ⟨S2000x256, .f32⟩
  | .hbm, ⟨54, _⟩ => ⟨S2000x256, .f32⟩
  | .hbm, ⟨55, _⟩ => ⟨S_, .f32⟩
  | .hbm, ⟨56, _⟩ => ⟨S10000, .f32⟩
  | .hbm, ⟨57, _⟩ => ⟨S_, .f32⟩
  | .hbm, ⟨58, _⟩ => ⟨S2000x256, .f32⟩
  | .hbm, ⟨59, _⟩ => ⟨S2000x256, .f32⟩
  | .hbm, ⟨60, _⟩ => ⟨S10000x256, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x256, .f32⟩
  | .hbm, ⟨66, _⟩ => ⟨S10000x256, .f32⟩
  | .hbm, ⟨67, _⟩ => ⟨S_, .f32⟩
  | .hbm, ⟨68, _⟩ => ⟨S10000x256, .f32⟩
  | .hbm, ⟨69, _⟩ => ⟨S10000x256, .f32⟩
  | .hbm, ⟨70, _⟩ => ⟨S10000x256, .f32⟩
  | .hbm, ⟨71, _⟩ => ⟨S_, .f32⟩
  | .hbm, ⟨72, _⟩ => ⟨S10000x256, .f32⟩
  | .hbm, ⟨73, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  reducesTo_S10000x2000_S2000_d0 : S10000x2000.ReducesTo [0] S2000
  h_S_ : 0 < S_.numel
  transposes_S10000x2000_S2000x10000_1_0 : S10000x2000.Transposes [1, 0] S2000x10000
  bcast_S_S10000x256 : S_.BroadcastsInDim S10000x256 (![] : Fin 0 → Fin S10000x256.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  bcast_S_S2000x256 : S_.BroadcastsInDim S2000x256 (![] : Fin 0 → Fin S2000x256.rank)
  reducesTo_S10000x2000_S10000_d1 : S10000x2000.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  dot_S2000x10000_S10000x256_S2000x256_1_0_0_1_n_n_wf : DotDims.WF S2000x10000 S10000x256 S2000x256 [1] [0] [0] [1] [] []
  dot_S10000x2000_S2000x256_S10000x256_1_0_0_1_n_n_wf : DotDims.WF S10000x2000 S2000x256 S10000x256 [1] [0] [0] [1] [] []
  dot_S10000x256_S256x256_S10000x256_1_0_0_1_n_n_wf : DotDims.WF S10000x256 S256x256 S10000x256 [1] [0] [0] [1] [] []

variable [Facts₀]

def dot_S2000x10000_S10000x256_S2000x256_1_0_0_1_n_n : DotDims S2000x10000 S10000x256 S2000x256 where
  lhsContracting := [1]
  rhsContracting := [0]
  lhsNonContracting := [0]
  rhsNonContracting := [1]
  lhsBatch := []
  rhsBatch := []
  wf := dot_S2000x10000_S10000x256_S2000x256_1_0_0_1_n_n_wf
def dot_S10000x2000_S2000x256_S10000x256_1_0_0_1_n_n : DotDims S10000x2000 S2000x256 S10000x256 where
  lhsContracting := [1]
  rhsContracting := [0]
  lhsNonContracting := [0]
  rhsNonContracting := [1]
  lhsBatch := []
  rhsBatch := []
  wf := dot_S10000x2000_S2000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.K.Reg0Frame.lean ====
import proofs.«115026_g27496380629499_cont_9to1_1988_22_alg».proof.Proof.Gen.Kernel.Launch
import proofs.«115026_g27496380629499_cont_9to1_1988_22_alg».proof.Proof.Gen.Kernel.Skeleton
import proofs.«115026_g27496380629499_cont_9to1_1988_22_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first kernel, at the buffer contents `V` the region is entered with

The kernel walks the five node blocks. At each block it forms the partial product `part` (the transposed
squared features, with 128 rows of ones appended, times the incidence block) and adds it into a scratch
accumulator: the first point stores `part`, every later point stores scratch + `part`. At the last point it
then reads the accumulator back — row 256 holds the hyperedge sizes, rows 0..255 the incidence-weighted sums of
squares — and stores the reciprocal clamped sizes and the scaled, transposed sums to the two outputs. -/

/-! ## The body's branch conditions, from the grid coordinate -/

/-- The first conditional: the point is the first. -/
abbrev cond0_1 (i : grid0.Coords) : Prop :=
  (Scalar.cmpi .ne (Scalar.extui (Scalar.cmpi .eq (BitVec.ofNat 32 (i 0).val) 0#32)) 0#32) = 1#1
/-- The second conditional: the point is not the first. -/
abbrev cond0_2 (i : grid0.Coords) : Prop :=
  (Scalar.cmpi .ne (Scalar.extui (Scalar.cmpi .sgt (BitVec.ofNat 32 (i 0).val) 0#32)) 0#32) = 1#1
/-- The third conditional: the point is the last. -/
abbrev cond0_3 (i : grid0.Coords) : Prop := k0_cond3 i = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val ≠ 0 :=
  (by decide +kernel : ∀ t : Fin grid0.N, cond0_2 (grid0.coords t) ↔ t.val ≠ 0)
theorem hcond0_3 : ∀ t : Fin cfg0.N, cond0_3 (grid0.coords t) ↔ t.val = 4 :=
  (by decide +kernel : ∀ t : Fin grid0.N, cond0_3 (grid0.coords t) ↔ t.val = 4)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the two outputs are idle and are not written back; -/
theorem idleAt0_2 : ∀ t : Fin cfg0.N, ¬cond0_3 (grid0.coords t) → cfg0.idle 2 (grid0.coords t) = true := by decide +kernel
theorem noFlush0_2 : ∀ t : Fin cfg0.N, ¬cond0_3 (grid0.coords t) → (cfg0.win 2).flush t = false := by decide +kernel
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- at the last point they are live. -/
theorem liveAt0_2 : ∀ t : Fin cfg0.N, cond0_3 (grid0.coords t) → cfg0.idle 2 (grid0.coords t) = false := by decide +kernel
theorem liveAt0_3 : ∀ t : Fin cfg0.N, cond0_3 (grid0.coords t) → cfg0.idle 3 (grid0.coords t) = false := by decide +kernel

/-! ## The body's accesses -/

/-- The whole incidence block, the whole feature block, the whole scratch; -/
abbrev rA0 : Rect S2000x2000 := Rect.unit (s := S2000x2000) ![0, 0] S2000x2000.size inb_S2000x2000_S2000x2000_0_0
abbrev rX0 : Rect S2000x256 := Rect.unit (s := S2000x256) ![0, 0] S2000x256.size inb_S2000x256_S2000x256_0_0
abbrev rS0 : Rect S384x2000 := Rect.unit (s := S384x2000) ![0, 0] S384x2000.size inb_S384x2000_S384x2000_0_0
/-- row 256 of the scratch (the hyperedge sizes) and its rows 0..255 (the weighted sums of squares); -/
abbrev rCnt0 : Rect S384x2000 := Rect.unit (s := S384x2000) ![256, 0] S1x2000.size inb_S384x2000_S1x2000_256_0
abbrev rSum0 : Rect S384x2000 := Rect.unit (s := S384x2000) ![0, 0] S256x2000.size inb_S384x2000_S256x2000_0_0
/-- the whole of each output block. -/
abbrev rI0 : Rect S1x2000 := Rect.unit (s := S1x2000) ![0, 0] S1x2000.size inb_S1x2000_S1x2000_0_0

theorem hz2_0 : (![0, 0] : Fin 2 → Nat) = fun _ => 0 := funext fun a => by fin_cases a <;> rfl

/-- One store through the whole-shape rectangle at offset zero leaves its payload, whatever was there. -/
theorem read_store_whole0 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through a rectangle `r`, after one such store, reads the payload at `r`'s indices. -/
theorem readCov_store_whole0 {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r :=
  (View.readCov_eq_canon_ld v _ r (fun y => ⟨_, List.mem_singleton_self _, View.mem_set_unit_zero h inb y⟩)).trans
    (by rw [View.canon_unit_zero h inb w])

/-! ## What the last point stores to the outputs, from the accumulator -/

/-- The message block: rows 0..255 of the accumulator times the reciprocal clamped sizes, transposed. -/
def out0_2 (s : Vec F S384x2000 .f32) : Vec F S2000x256 .bf16 := k0_pay5 (View.ld s rCnt0) (View.ld s rSum0)
/-- The reciprocal clamped sizes: one over the maximum of row 256 of the accumulator and one. -/
def out0_3 (s : Vec F S384x2000 .f32) : Vec F S1x2000 .f32 := k0_pay4 (View.ld s rCnt0)

/-! ## The body's triple, case by case -/

set_option maxHeartbeats 1000000 in
/-- THE FIRST POINT. On whole memrefs — the inputs' at `x0`, `x1`, the idle outputs' at any `xi2`, `xi3` (handed
    back untouched), the scratch at anything — the body leaves the scratch at the partial product of the inputs. -/
theorem sound_kernel0_A (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : cond0_1 i) (hc2 : ¬cond0_2 i) (hc3 : ¬cond0_3 i)
    (x0 : Vec F S2000x2000 .bf16) (x1 : Vec F S2000x256 .f32) (xi2 : Vec F S2000x256 .bf16) (xi3 : Vec F S1x2000 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k0_pay2 x0 x1)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact H5
  ipureintro
  refine (read_store_whole0 _ _ hz2_0 _ _).trans ?_
  simp only [View.readAt_eq_ld, View.ld_unit_zero (S := S2000x2000) hz2_0, View.ld_unit_zero (S := S2000x256) hz2_0]

set_option maxHeartbeats 1000000 in
/-- A MIDDLE POINT. The scratch, at what the point before left (`xs`), is left at `xs` plus the partial product;
    the outputs idle as before. -/
theorem sound_kernel0_B (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : ¬cond0_1 i) (hc2 : cond0_2 i) (hc3 : ¬cond0_3 i)
    (x0 : Vec F S2000x2000 .bf16) (x1 : Vec F S2000x256 .f32) (xi2 : Vec F S2000x256 .bf16) (xi3 : Vec F S1x2000 .f32)
    (xs : Vec F S384x2000 .f32) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k0_pay3 x0 x1 xs)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact H5
  ipureintro
  refine (read_store_whole0 _ _ hz2_0 _ _).trans ?_
  simp only [View.readAt_eq_ld, View.ld_unit_zero (S := S2000x2000) hz2_0, View.ld_unit_zero (S := S2000x256) hz2_0,
    View.ld_unit_zero (S := S384x2000) hz2_0]

set_option maxHeartbeats 1000000 in
/-- THE LAST POINT. The scratch is left at `xs` plus the partial product as at a middle point, and the two
    outputs, at anything before, at what the epilogue computes from that sum. -/
theorem sound_kernel0_C (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : ¬cond0_1 i) (hc2 : cond0_2 i) (hc3 : cond0_3 i)
    (x0 : Vec F S2000x2000 .bf16) (x1 : Vec F S2000x256 .f32) (xs : Vec F S384x2000 .f32)
    (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare (out0_2 (k0_pay3 x0 x1 xs))
            ∗ owns (c : Thread nD τ) arg4 fullShare (out0_3 (k0_pay3 x0 x1 xs))
            ∗ owns (c : Thread nD τ) arg5 fullShare (k0_pay3 x0 x1 xs)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%d2, %f2, -, H2⟩, ⟨%d3, %f3, -, H3⟩, ⟨%f5, %hf5, H5⟩, Hk⟩
  subst hf0; subst hf1; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (read_store_whole0 _ _ hz2_0 _ _).trans ?_
    unfold out0_2
    simp only [readCov_store_whole0 (S := S384x2000) _ hz2_0, View.readAt_eq_ld, View.ld_unit_zero (S := S2000x2000) hz2_0,
      View.ld_unit_zero (S := S2000x256) hz2_0, View.ld_unit_zero (S := S384x2000) hz2_0]
  isplitl [H3]
  · iexists _; isplitr
    swap; · iexact H3
    ipureintro
    sl_unfold_run_names
    refine (read_store_whole0 _ _ hz2_0 _ _).trans ?_
    unfold out0_3
    simp only [readCov_store_whole0 (S := S384x2000) _ hz2_0, View.readAt_eq_ld, View.ld_unit_zero (S := S2000x2000) hz2_0,
      View.ld_unit_zero (S := S2000x256) hz2_0, View.ld_unit_zero (S := S384x2000) hz2_0]
  iexists _; isplitr
  swap; · iexact H5
  ipureintro
  sl_unfold_run_names
  refine (read_store_whole0 _ _ hz2_0 _ _).trans ?_
  simp only [View.readAt_eq_ld, View.ld_unit_zero (S := S2000x2000) hz2_0, View.ld_unit_zero (S := S2000x256) hz2_0,
    View.ld_unit_zero (S := S384x2000) hz2_0]

/-! ## The windows' blocks -/

section Region
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- THE ACCUMULATION. What the scratch holds after the body at position `n`: the partial product of the first
    blocks at `n = 0`; afterwards what position `n - 1` left plus the partial product of the blocks at `n`. -/
def acc0 (c : Dev nD) : (n : ℕ) → n < cfg0.N → Vec F S384x2000 .f32
  | 0, hn => k0_pay2 (iblk0 V c 0 ⟨0, hn⟩) (iblk0 V c 1 ⟨0, hn⟩)
  | n + 1, hn => k0_pay3 (iblk0 V c 0 ⟨n + 1, hn⟩) (iblk0 V c 1 ⟨n + 1, hn⟩) (acc0 c n (Nat.lt_of_succ_lt hn))

theorem acc0_first (c : Dev nD) (t : Fin cfg0.N) (h0 : t.val = 0) :
    acc0 V c t.val t.isLt = k0_pay2 (iblk0 V c 0 t) (iblk0 V c 1 t) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = k0_pay3 (iblk0 V c 0 t) (iblk0 V c 1 t)
      (acc0 V c (t.val - 1) (Nat.lt_of_le_of_lt (Nat.sub_le _ _) t.isLt)) := by
  obtain ⟨n, hn⟩ := t
  cases n with
  | zero => exact absurd rfl h0
  | succ n => rfl

/-! ## The region invariant -/

/-- The scratch, as a memref. -/
abbrev scM0 : Memref sig .tc .vmem S384x2000 .f32 := Memref.whole cc0_scratch0

/-- The core's other scoped buffers (the later kernels' staging buffers and scratch), each at some contents:
    carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The scoped rest of the region split at the kernel's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ restBut0 c) :=
  Pipeline.scopedRest_split_of_list spec0 c [cc0_scratch0] (by decide) (by decide)

/-- The class invariant with the scratch as a memref owned at some contents. -/
theorem PhiA0_eq (c : Dev nD) :
    (Pipeline.ΦA spec0 c : sProp 𝕄)
      = iprop(((∃ d, owns (c : Thread nD τ) scM0 fullShare d) ∗ restBut0 c) ∗ (∃ r, prngReg c r)) := by
  unfold Pipeline.ΦA; rw [scopedRest0_split]; simp only [scM0, owns_whole]; try rfl

/-- The invariant before position `n`: before the first point the class invariant (the scratch at anything);
    afterwards the scratch at what the point before left, the other scoped buffers and the generator register as
    they come. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ restBut0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ restBut0 c) ∗ (∃ r, prngReg c r)) := by
  cases n with
  | zero => exact absurd rfl hz
  | succ n => rfl

/-! ## The proof data -/

/-- The proof data of the region on core `c`: the arrays as the region finds them; after the body at point `t`
    each input's buffer at its block, each output's at what the epilogue computes from the accumulator after
    `t` (read at the last point only: elsewhere the outputs are idle); the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (acc0 V c t.val t.isLt)
    | ⟨3, _⟩ => out0_3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (acc0 V c t.val t.isLt) := by dsimp only [dat0]
theorem after0_3 (c : Dev nD) (t : Fin cfg0.N) : (dat0 V c).after 3 t = out0_3 (acc0 V c t.val t.isLt) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- Each window's current staging memref at point `t`, spelled as the pipeline passes it, and its wholeness. -/
abbrev ms0_0 (t : Fin cfg0.N) : Memref sig .tc .vmem S2000x2000 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2000 .f32 := win0_3.stage (cfg0.slots t 3)
abbrev hs0_3 (t : Fin cfg0.N) : (ms0_3 t).IsWhole := hstage0_3 ((cfg0.slots t 3).cast nbuf0_3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the conditions say which of
    the three cases the point is in; the invariant hands the body the scratch at what the point before left (at
    anything at the first point) and takes it back at this point's accumulator; off the last point the outputs'
    buffers go back as they came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 5 := lt_of_lt_of_eq t.isLt (show cfg0.N = 5 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first point
    have hc1 : cond0_1 (grid0.coords t) := (hcond0_1 t).mpr h0
    have hc2 : ¬cond0_2 (grid0.coords t) := fun h => (hcond0_2 t).mp h h0
    have hc3 : ¬cond0_3 (grid0.coords t) := fun h => by have := (hcond0_3 t).mp h; omega
    rw [Dat.leavesExact_idle (dat0 V c) 2 t (idleAt0_2 t hc3) (noFlush0_2 t hc3)]
    rw [Dat.leavesExact_idle (dat0 V c) 3 t (idleAt0_3 t hc3) (noFlush0_3 t hc3)]
    rw [acc0_first V c t h0]
    rw [PhiS0_castSucc V c t, PhiS0_zero V c _ _ h0, PhiA0_eq]
    iintro ⟨⟨⟨HS, Hr⟩, Hg⟩, Ho, ⟨%d0, H0⟩, ⟨%d1, H1⟩, ⟨%d2, H2⟩, ⟨%d3, H3⟩⟩
    iapply (sound_kernel0_A c Set.univ (grid0.coords t) _ _ _ _ _ _ _ _ _ _ hc1 hc2 hc3 (iblk0 V c 0 t) (iblk0 V c 1 t) _ _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexists _; iexact H2
    iexists _; iexact H3
  · have hc1 : ¬cond0_1 (grid0.coords t) := fun h => h0 ((hcond0_1 t).mp h)
    have hc2 : cond0_2 (grid0.coords t) := (hcond0_2 t).mpr h0
    rw [acc0_later V c t h0]
    rw [PhiS0_castSucc V c t, PhiS0_pos V c _ _ h0]
    by_cases h4 : t.val = 4
    · -- the last point
      have hc3 : cond0_3 (grid0.coords t) := (hcond0_3 t).mpr h4
      rw [show (dat0 V c).leavesExact 2 t = owns (c : Thread nD τ) (ms0_2 t) fullShare ((dat0 V c).after 2 t) from by
        unfold Dat.leavesExact; rw [liveAt0_2 t hc3], after0_2]
      rw [show (dat0 V c).leavesExact 3 t = owns (c : Thread nD τ) (ms0_3 t) fullShare ((dat0 V c).after 3 t) from by
        unfold Dat.leavesExact; rw [liveAt0_3 t hc3], after0_3]
      rw [acc0_later V c t h0]
      iintro ⟨⟨⟨HS, Hr⟩, Hg⟩, Ho, ⟨%d0, H0⟩, ⟨%d1, H1⟩, ⟨%d2, H2⟩, ⟨%d3, H3⟩⟩
      iapply (sound_kernel0_C c Set.univ (grid0.coords t) _ _ _ _ _ _ _ _ _ _ hc1 hc2 hc3 (iblk0 V c 0 t) (iblk0 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · -- a middle point
      have hc3 : ¬cond0_3 (grid0.coords t) := fun h => h4 ((hcond0_3 t).mp h)
      rw [Dat.leavesExact_idle (dat0 V c) 2 t (idleAt0_2 t hc3) (noFlush0_2 t hc3)]
      rw [Dat.leavesExact_idle (dat0 V c) 3 t (idleAt0_3 t hc3) (noFlush0_3 t hc3)]
      iintro ⟨⟨⟨HS, Hr⟩, Hg⟩, Ho, ⟨%d0, H0⟩, ⟨%d1, H1⟩, ⟨%d2, H2⟩, ⟨%d3, H3⟩⟩
      iapply (sound_kernel0_B c Set.univ (grid0.coords t) _ _ _ _ _ _ _ _ _ _ hc1 hc2 hc3 (iblk0 V c 0 t) (iblk0 V c 1 t) _ _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Region

end Cert.Kernel.Hand

end
-- ==== Proof.K.Reg1Body.lean ====
/-
  Region 1 (the second layer's aggregation): the kernel body's triple in each of its three control cases.

  The body loads the incidence block A_blk, the first layer's hyperedge messages M1, the weights W1 and (at the
  last point) the reciprocal hyperedge sizes; it always stores the block's reciprocal node degrees; it keeps an
  accumulator S (features by hyperedges) in a scratch buffer carried from grid point to grid point: at the
  first point S := part, at every later point S := S + part, where part = (H∘H)ᵀ·A_blk for the block's layer
  output H; at the last point it then stores the messages M2 = (S ∘ invn)ᵀ.  Which stores happen is decided by
  three conditions on the grid coordinate; a point is in exactly one of three cases: first, later but not last,
  last.  Each store is of a whole buffer, so what a buffer holds afterwards is the store's payload, written
  here as the canonical contents of a one-piece list.
-/
import proofs.«115026_g27496380629499_cont_9to1_1988_22_alg».proof.Proof.Gen.Kernel.Launch
import proofs.«115026_g27496380629499_cont_9to1_1988_22_alg».proof.Proof.Gen.Kernel.Skeleton
import proofs.«115026_g27496380629499_cont_9to1_1988_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole of its buffer -/

/-- The incidence block, 2000 nodes by 2000 hyperedges. -/
abbrev rA1 : Rect S2000x2000 := Rect.unit (s := S2000x2000) ![0, 0] S2000x2000.size inb_S2000x2000_S2000x2000_0_0
/-- A 2000 by 256 buffer: the first layer's hyperedge messages, and the second layer's. -/
abbrev rM1 : Rect S2000x256 := Rect.unit (s := S2000x256) ![0, 0] S2000x256.size inb_S2000x256_S2000x256_0_0
/-- The weights. -/
abbrev rW1 : Rect S256x256 := Rect.unit (s := S256x256) ![0, 0] S256x256.size inb_S256x256_S256x256_0_0
/-- The row of reciprocal hyperedge sizes. -/
abbrev rN1 : Rect S1x2000 := Rect.unit (s := S1x2000) ![0, 0] S1x2000.size inb_S1x2000_S1x2000_0_0
/-- The column of reciprocal node degrees of the block. -/
abbrev rE1 : Rect S2000x1 := Rect.unit (s := S2000x1) ![0, 0] S2000x1.size inb_S2000x1_S2000x1_0_0
/-- The accumulator, 256 features by 2000 hyperedges. -/
abbrev rS1 : Rect S256x2000 := Rect.unit (s := S256x2000) ![0, 0] S256x2000.size inb_S256x2000_S256x2000_0_0

/-! ## What the body's stores leave, as functions of what it loaded -/

/-- The block's reciprocal node degrees, from the incidence block and the first layer's messages. -/
def inveOf1 (x0 : Vec F S2000x2000 .bf16) (x1 : Vec F S2000x256 .bf16) : Vec F S2000x1 .f32 :=
  View.canon [⟨rE1, k1_pay4 (View.ld x0 rA1) (View.ld x1 rM1)⟩]

/-- The accumulator after the first point: the block's own contribution. -/
def accFirst1 (x0 : Vec F S2000x2000 .bf16) (x1 : Vec F S2000x256 .bf16) (x2 : Vec F S256x256 .bf16) : Vec F S256x2000 .f32 :=
  View.canon [⟨rS1, k1_pay6 (View.ld x0 rA1) (View.ld x1 rM1) (View.ld x2 rW1)⟩]

/-- The accumulator after a later point: what it held plus the block's contribution. -/
def accNext1 (x0 : Vec F S2000x2000 .bf16) (x1 : Vec F S2000x256 .bf16) (x2 : Vec F S256x256 .bf16) (s : Vec F S256x2000 .f32) : Vec F S256x2000 .f32 :=
  View.canon [⟨rS1, k1_pay7 (View.ld x0 rA1) (View.ld x1 rM1) (View.ld x2 rW1) (View.ld s rS1)⟩]

/-- The second layer's messages, from the finished accumulator and the reciprocal hyperedge sizes. -/
def m2Of1 (s : Vec F S256x2000 .f32) (x3 : Vec F S1x2000 .f32) : Vec F S2000x256 .bf16 :=
  View.canon [⟨rM1, k1_pay1 (View.ld s rS1) (View.ld x3 rN1)⟩]

/-- One whole-buffer store covers its buffer. -/
theorem coverE1 (p : Vec F S2000x1 .f32) (y : S2000x1.Idx) :
    ∃ pc ∈ ([⟨rE1, p⟩] : List (View.Piece (Elt F) S2000x1 .f32)), y ∈ pc.1.set :=
  View.cover_of_tiled [⟨rE1, p⟩] S2000x1.size (by rfl) y
theorem coverS1 (p : Vec F S256x2000 .f32) (y : S256x2000.Idx) :
    ∃ pc ∈ ([⟨rS1, p⟩] : List (View.Piece (Elt F) S256x2000 .f32)), y ∈ pc.1.set :=
  View.cover_of_tiled [⟨rS1, p⟩] S256x2000.size (by rfl) y
theorem coverM1 (p : Vec F S2000x256 .bf16) (y : S2000x256.Idx) :
    ∃ pc ∈ ([⟨rM1, p⟩] : List (View.Piece (Elt F) S2000x256 .bf16)), y ∈ pc.1.set :=
  View.cover_of_tiled [⟨rM1, p⟩] S2000x256.size (by rfl) y

/-! ## The body's three conditions, from the grid coordinate -/

/-- "This is the first point": the condition of the branch that initialises the accumulator. -/
abbrev isFirst1 (i : grid1.Coords) : Prop := (Scalar.cmpi .ne (Scalar.extui (Scalar.cmpi .eq (BitVec.ofNat 32 (i 0).val) 0#32)) 0#32) = 1#1
/-- "This is a later point": the condition of the branch that adds to the accumulator. -/
abbrev isLater1 (i : grid1.Coords) : Prop := (Scalar.cmpi .ne (Scalar.extui (Scalar.cmpi .sgt (BitVec.ofNat 32 (i 0).val) 0#32)) 0#32) = 1#1
/-- "This is the last point": the condition of the branch that writes the messages out. -/
abbrev isLast1 (i : grid1.Coords) : Prop := k1_cond3 i = 1#1

theorem isFirst1_iff : ∀ t : Fin cfg1.N, isFirst1 (grid1.coords t) ↔ t.val = 0 :=
  (by decide +kernel : ∀ t : Fin grid1.N, isFirst1 (grid1.coords t) ↔ t.val = 0)
theorem isLater1_iff : ∀ t : Fin cfg1.N, isLater1 (grid1.coords t) ↔ t.val ≠ 0 :=
  (by decide +kernel : ∀ t : Fin grid1.N, isLater1 (grid1.coords t) ↔ t.val ≠ 0)
theorem isLast1_iff : ∀ t : Fin cfg1.N, isLast1 (grid1.coords t) ↔ t.val = 4 :=
  (by decide +kernel : ∀ t : Fin grid1.N, isLast1 (grid1.coords t) ↔ t.val = 4)

/-! ## The body's triple, case by case -/

set_option maxHeartbeats 1000000 in
/-- At the first point: the inputs' buffers are left as found, the messages' buffer is not touched, the degrees'
    buffer holds the block's reciprocal degrees and the accumulator the block's contribution. -/
theorem sound_kernel1_first (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : isFirst1 i) (hc1 : ¬isLater1 i) (hc2 : ¬isLast1 i)
    (x0 : Vec F S2000x2000 .bf16) (x1 : Vec F S2000x256 .bf16) (x2 : Vec F S256x256 .bf16) (x3 : Vec F S1x2000 .f32) (xi4 : Vec F S2000x256 .bf16)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (inveOf1 x0 x1) ∗ owns (c : Thread nD τ) arg7 fullShare (accFirst1 x0 x1 x2)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

set_option maxHeartbeats 1000000 in
/-- At a later point that is not the last: as at the first, but the accumulator, found at `xs`, is left at `xs` plus
    the block's contribution. -/
theorem sound_kernel1_later (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : ¬isFirst1 i) (hc1 : isLater1 i) (hc2 : ¬isLast1 i)
    (x0 : Vec F S2000x2000 .bf16) (x1 : Vec F S2000x256 .bf16) (x2 : Vec F S256x256 .bf16) (x3 : Vec F S1x2000 .f32) (xi4 : Vec F S2000x256 .bf16)
    (xs : Vec F S256x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (inveOf1 x0 x1) ∗ owns (c : Thread nD τ) arg7 fullShare (accNext1 x0 x1 x2 xs)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

set_option maxHeartbeats 1000000 in
/-- At the last point: the accumulator is left at what it held plus the block's contribution, and the messages'
    buffer, found at anything, holds the second layer's messages computed from the finished accumulator. -/
theorem sound_kernel1_last (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : ¬isFirst1 i) (hc1 : isLater1 i) (hc2 : isLast1 i)
    (x0 : Vec F S2000x2000 .bf16) (x1 : Vec F S2000x256 .bf16) (x2 : Vec F S256x256 .bf16) (x3 : Vec F S1x2000 .f32)
    (xs : Vec F S256x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (m2Of1 (accNext1 x0 x1 x2 xs) x3) ∗ owns (c : Thread nD τ) arg6 fullShare (inveOf1 x0 x1) ∗ owns (c : Thread nD τ) arg7 fullShare (accNext1 x0 x1 x2 xs)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0 hf1 hf2 hf3 hf6
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon']
    exact View.read_writes_eq_canon _ _ _ (coverM1 _)
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

end Cert.Kernel.Hand

end
-- ==== Proof.K.Reg1Frame.lean ====
/-
  Region 1 (the second layer's aggregation): the frame half.  The proof data of the region at the contents `V` the
  core's buffers hold when the region is entered, and the body obligation at every grid point.

  The grid has five points, one per block of 2000 nodes.  Four windows are inputs (the incidence block, fetched at
  every point; the first layer's messages, the weights and the reciprocal hyperedge sizes, whole arrays fetched once);
  window 5 (reciprocal node degrees of the block) is stored and written back at every point; window 4 (the second
  layer's messages) is stored and written back at the last point only.  The accumulator is a scratch buffer carried
  between points: after point n it holds the sum of the contributions of blocks 0..n (`acc1`).
-/
import proofs.«115026_g27496380629499_cont_9to1_1988_22_alg».proof.Proof.K.Reg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (an input not fetched at a
    point has the block index it had at the point before), for any proof data whose array is the entry contents and
    whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_5 : ∀ t : Fin cfg1.N, cfg1.idle 5 (grid1.coords t) = false := by decide +kernel
/-- Before the last point nothing is stored into the messages' window, -/
theorem idleAt1_4 : ∀ t : Fin cfg1.N, ¬isLast1 (grid1.coords t) → cfg1.idle 4 (grid1.coords t) = true := by decide +kernel
/-- and its block is not written back; -/
theorem noFlush1_4 : ∀ t : Fin cfg1.N, ¬isLast1 (grid1.coords t) → (cfg1.win 4).flush t = false := by decide +kernel
/-- at the last point it is stored into. -/
theorem liveAt1_4 : ∀ t : Fin cfg1.N, isLast1 (grid1.coords t) → cfg1.idle 4 (grid1.coords t) = false := by decide +kernel

/-! ## The staging memrefs and the scratch -/

/-- Each window's current staging memref at point `t`, and its wholeness. -/
abbrev ms1_0 (t : Fin cfg1.N) : Memref sig .tc .vmem S2000x2000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .f32 := win1_5.stage (cfg1.slots t 5)
abbrev hs1_5 (t : Fin cfg1.N) : (ms1_5 t).IsWhole := hstage1_5 ((cfg1.slots t 5).cast nbuf1_5)
/-- The accumulator: a whole scoped buffer of the kernel's own, carried between the grid points. -/
abbrev scM1 : Memref sig .tc .vmem S256x2000 .f32 := Memref.whole cc1_scratch0

/-- The core's scoped buffers that are neither a staging buffer of this region nor its accumulator, each at some
    contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- The region's invariant as the launch hands it over, with the accumulator set apart: the accumulator at some
    contents, the other scoped buffers, the generator register at some state. -/
theorem PhiA1_eq (c : Dev nD) :
    (Pipeline.ΦA spec1 c : sProp 𝕄)
      = iprop((∃ d, owns (c : Thread nD τ) scM1 fullShare d) ∗ others1 c ∗ (∃ r, prngReg c r)) := by
  unfold Pipeline.ΦA others1; rw [scopedRest1_eq]; simp only [scM1, owns_whole]
  refine BI.equiv_iff.mp ⟨?_, ?_⟩
  · show (_ : sProp 𝕄) ⊢ (_ : sProp 𝕄)
    iintro ⟨⟨R0, R1, R2, R3, R4, R5, R6, HS, R8, R9, R10, R11, R12, R13, R14, R15⟩, Hg⟩
    isplitl [HS]; · iexact HS
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg
  · show (_ : sProp 𝕄) ⊢ (_ : sProp 𝕄)
    iintro ⟨HS, ⟨R0, R1, R2, R3, R4, R5, R6, R8, R9, R10, R11, R12, R13, R14, R15⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [HS]; · iexact HS
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg

/-! ## What the accumulator holds after each point -/

/-- THE ACCUMULATION. The accumulator after the body at position `n`: at the first point the block's contribution,
    afterwards what the point before left plus the block's contribution. -/
def acc1 (c : Dev nD) : (n : ℕ) → n < cfg1.N → Vec F S256x2000 .f32
  | 0, hn => accFirst1 (iblk1 V c 0 ⟨0, hn⟩) (iblk1 V c 1 ⟨0, hn⟩) (iblk1 V c 2 ⟨0, hn⟩)
  | n + 1, hn => accNext1 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h0 : t.val = 0) :
    acc1 V c t.val t.isLt = accFirst1 (iblk1 V c 0 t) (iblk1 V c 1 t) (iblk1 V c 2 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = accNext1 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl h0
  | succ n => rfl

/-- The region's invariant before position `n`: before the first point what the launch hands over (the accumulator at
    anything); afterwards the accumulator at what the point before left in it, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ others1 c ∗ (∃ r, prngReg c r)) := by
  cases n with
  | zero => exact absurd rfl hz
  | succ n => rfl

/-! ## The pipeline's proof data -/

/-- The proof data of the region on core `c`: the arrays as the region finds them; after the body at point `t` each
    input's buffer at its block, the degrees' buffer at the block's reciprocal degrees, the messages' buffer at the
    messages computed from the accumulator as point `t` leaves it (consulted at the last point only: elsewhere the window
    is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => m2Of1 (acc1 V c t.val t.isLt) (iblk1 V c 3 t)
    | ⟨5, _⟩ => inveOf1 (iblk1 V c 0 t) (iblk1 V c 1 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = m2Of1 (acc1 V c t.val t.isLt) (iblk1 V c 3 t) := by dsimp only [dat1]
theorem after1_5 (c : Dev nD) (t : Fin cfg1.N) : (dat1 V c).after 5 t = inveOf1 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's position says which of the three cases it
    is in; the invariant hands the body the accumulator — at anything at the first point, afterwards at what the point
    before left — and takes it back at this point's contents; before the last point the messages' buffer passes through
    untouched, at the last point it comes back holding the messages; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 5 t = owns (c : Thread nD τ) (ms1_5 t) fullShare ((dat1 V c).after 5 t) from by
    unfold Dat.leavesExact; rw [liveAt1_5 t], after1_5]
  by_cases h0 : t.val = 0
  · have hfirst : isFirst1 (grid1.coords t) := (isFirst1_iff t).mpr h0
    have hlater : ¬isLater1 (grid1.coords t) := fun h => (isLater1_iff t).mp h h0
    have hlast : ¬isLast1 (grid1.coords t) := fun h => by have := (isLast1_iff t).mp h; omega
    rw [Dat.leavesExact_idle (dat1 V c) 4 t (idleAt1_4 t hlast) (noFlush1_4 t hlast)]
    rw [acc1_first V c t h0]
    rw [PhiS1_castSucc V c t, PhiS1_zero V c _ _ h0, PhiA1_eq]
    iintro ⟨⟨HS, Hr, Hg⟩, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ _ _ hfirst hlater hlast (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexact H5
  · have hfirst : ¬isFirst1 (grid1.coords t) := fun h => h0 ((isFirst1_iff t).mp h)
    have hlater : isLater1 (grid1.coords t) := (isLater1_iff t).mpr h0
    rw [acc1_later V c t h0]
    rw [PhiS1_castSucc V c t, PhiS1_pos V c _ _ h0]
    by_cases h4 : t.val = 4
    · have hlast : isLast1 (grid1.coords t) := (isLast1_iff t).mpr h4
      rw [show (dat1 V c).leavesExact 4 t = owns (c : Thread nD τ) (ms1_4 t) fullShare ((dat1 V c).after 4 t) from by
        unfold Dat.leavesExact; rw [liveAt1_4 t hlast], after1_4, acc1_later V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ hfirst hlater hlast (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hlast : ¬isLast1 (grid1.coords t) := fun h => h4 ((isLast1_iff t).mp h)
      rw [Dat.leavesExact_idle (dat1 V c) 4 t (idleAt1_4 t hlast) (noFlush1_4 t hlast)]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel1_later c Set.univ (grid1.coords t) _ _ _ _ _ _ _ _ _ _ _ _ _ _ hfirst hlater hlast (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hr, Hg⟩
  isplitl [HS]
  · iexists _; iexact HS
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Cert.Kernel.Hand

end
-- ==== Proof.K.Reg2Frame.lean ====
/-
  Region 2 of the kernel program (its third kernel call: out = relu(sqrt((A_blk · M2) * inve) · W2)), as a pipeline
  of five windows over a grid of five node blocks, at a PARAMETER V: the core's buffer contents when the region is
  entered.

  The body keeps nothing from point to point: it loads its four input windows' staging buffers whole, computes one
  value from them and stores it over the whole of the output window's staging buffer.  So what the body leaves in the
  output buffer at a point is a closed function of the four input blocks at that point, and the invariant carried
  between points is the one that owns nothing of the body's: the scoped buffers no window stages through and the
  generator register, untouched.

  The file gives: each window's block at a point read off its array (iblk2); the fact that an input window's current
  staging buffer holds its block at every point, whether or not the pipeline fetched it there (windows 1 and 2 are
  fetched at the first point only: their block index never moves); the body's triple on whole staging memrefs; the
  proof data (dat2); and the body obligation at every point.
-/
import proofs.«115026_g27496380629499_cont_9to1_1988_22_alg».proof.Proof.Gen.Kernel.Launch
import proofs.«115026_g27496380629499_cont_9to1_1988_22_alg».proof.Proof.Gen.Kernel.Skeleton
import proofs.«115026_g27496380629499_cont_9to1_1988_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 256 indices: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window whose body leaves its block in place holds, at every point, what a fetch there would put in its
    buffer: its block.  Fetched at the point, that is the fetch; not fetched, the block index has not moved since the
    point before, and the buffer still holds that point's block, which is this point's.  Stated for ANY proof data
    whose array is V's and whose body leaves the block in place, window by window. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev rA2 : Rect S2000x2000 := Rect.unit (s := S2000x2000) ![0, 0] S2000x2000.size inb_S2000x2000_S2000x2000_0_0
abbrev rM : Rect S2000x256 := Rect.unit (s := S2000x256) ![0, 0] S2000x256.size inb_S2000x256_S2000x256_0_0
abbrev rW : Rect S256x256 := Rect.unit (s := S256x256) ![0, 0] S256x256.size inb_S256x256_S256x256_0_0
abbrev rE : Rect S2000x1 := Rect.unit (s := S2000x1) ![0, 0] S2000x1.size inb_S2000x1_S2000x1_0_0

/-! ## What the body leaves in the output window's buffer -/

/-- The output window's staging buffer after the body, from the four input blocks: its one store, over the whole
    buffer, of the payload computed from the four loads (incidence block, messages, weights, reciprocal degrees). -/
def out2_4 (xA : Vec F S2000x2000 .bf16) (xM : Vec F S2000x256 .bf16) (xW : Vec F S256x256 .bf16) (xE : Vec F S2000x1 .f32) :
    Vec F S2000x256 .f32 :=
  View.canon [⟨rM, k2_pay1 (View.ld xA rA2) (View.ld xM rM) (View.ld xE rE) (View.ld xW rW)⟩]

/-- The one store's rectangle is the whole buffer, so it covers it. -/
theorem cover2_4 (p0 : Vec F S2000x256 .f32) (y : S2000x256.Idx) :
    ∃ pc ∈ ([⟨rM, p0⟩] : List (View.Piece (Elt F) S2000x256 .f32)), y ∈ pc.1.set :=
  View.cover_of_tiled [⟨rM, p0⟩] S2000x256.size (by rfl) y

/-! ## The body's triple -/

set_option maxHeartbeats 1000000 in
/-- The kernel body on whole staging memrefs, the four inputs' at read contents xA, xM, xW, xE and the output's at
    anything, runs to the continuation holding the inputs' as they were and the output's at out2_4 of the inputs'. -/
theorem sound_kernel2 (c : Dev nD) (E : Set ℕ) (i : grid2.Coords)
    (arg1 : Memref sig .tc .vmem S2000x2000 .bf16) (harg1 : arg1.IsWhole)
    (arg2 : Memref sig .tc .vmem S2000x256 .bf16) (harg2 : arg2.IsWhole)
    (arg3 : Memref sig .tc .vmem S256x256 .bf16) (harg3 : arg3.IsWhole)
    (arg4 : Memref sig .tc .vmem S2000x1 .f32) (harg4 : arg4.IsWhole)
    (arg5 : Memref sig .tc .vmem S2000x256 .f32) (harg5 : arg5.IsWhole)
    (xA : Vec F S2000x2000 .bf16) (xM : Vec F S2000x256 .bf16) (xW : Vec F S256x256 .bf16) (xE : Vec F S2000x1 .f32)
    (K : PUnit → sProp 𝕄) :
    iprop(owns (c : Thread nD τ) arg1 fullShare xA ∗ owns (c : Thread nD τ) arg2 fullShare xM
        ∗ owns (c : Thread nD τ) arg3 fullShare xW ∗ owns (c : Thread nD τ) arg4 fullShare xE
        ∗ (∃ d, owns (c : Thread nD τ) arg5 fullShare d)
        ∗ (iprop(owns (c : Thread nD τ) arg1 fullShare xA ∗ owns (c : Thread nD τ) arg2 fullShare xM
            ∗ owns (c : Thread nD τ) arg3 fullShare xW ∗ owns (c : Thread nD τ) arg4 fullShare xE
            ∗ owns (c : Thread nD τ) arg5 fullShare (out2_4 xA xM xW xE)) -∗ K ⟨⟩))
      ⊢ wp frame (wpE (defs₀ (F := F)) Variants.none c none) E (cc2__p3_kernel i arg1 harg1 arg2 harg2 arg3 harg3 arg4 harg4 arg5 harg5) K := by
  simp only [cc2__p3_kernel_eq_skeleton]; unfold cc2__p3_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_4 _)

/-! ## The pipeline's proof data -/

/-- The proof data of the region on core c: the arrays as the region finds them (V); after the body at point t each
    input's buffer still at its block and the output's at out2_4 of the four input blocks; the invariant the one that
    owns nothing the body names (the scoped buffers no window stages through, the generator register); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window: each input's block where it was, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
/-- and in the output's buffer the payload of the four blocks at the point. -/
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant is the same at every point: entering the region gives it, -/
theorem hin2 (c : Dev nD) : Pipeline.ΦA spec2 c ⊢ (dat2 V c).Φ 0 := by
  dsimp only [dat2]; exact .rfl
/-- and leaving the region takes it back. -/
theorem hout2 (c : Dev nD) : (dat2 V c).Φ (Fin.last cfg2.N) ⊢ Pipeline.ΦA spec2 c := by
  dsimp only [dat2]; exact .rfl

/-! ## The body obligation, at a generic point -/

/-- What the body is called with at point t: the invariant, what the core owes, and the five windows' current
    staging buffers, one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the kernel program: a stretch of three host conversions, then the three kernel regions one after
  the other.  The buffer contents at each boundary are a fold from the launch memory: after the host stretch the
  conversions' results; after a region its arrays at what the pipeline's write-backs leave (the inputs as entered,
  each output's flushed blocks written in point order), every other buffer as entered.  Each region is a segment
  over the thread state "every unscoped buffer at the boundary's contents, the generator register at some state,
  nothing owed", built from that region's proof data, body obligation and the two entailments between the
  launch's invariant and the region's.  The run's post names every unscoped buffer at the last boundary's
  contents, from which the result array and the unchanged arguments are read.
-/
import proofs.«115026_g27496380629499_cont_9to1_1988_22_alg».proof.Proof.K.Reg0Frame
import proofs.«115026_g27496380629499_cont_9to1_1988_22_alg».proof.Proof.K.Reg1Frame
import proofs.«115026_g27496380629499_cont_9to1_1988_22_alg».proof.Proof.K.Reg2Frame
import proofs.«115026_g27496380629499_cont_9to1_1988_22_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2: its arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- Argument 0 ends as launched: the host stretch does not write it and no region's write-back touches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

/-- Argument 1 ends as launched: the host stretch does not write it and no region's write-back touches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: the host stretch does not write it and no region's write-back touches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as launched: the host stretch does not write it and no region's write-back touches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with the
    region's arrays at what its write-backs leave and every other buffer as entered; the generator register rides
    along inside the region's invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register rides
    along inside the region's invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered; the generator register rides
    along inside the region's invariant; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans (show Pipeline.ΦA spec2 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, faults nowhere, and ends
    with the result array at the last boundary's contents and every argument array as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Hand

end
-- ==== Proof.KI.Reg0Frame.lean ====
import proofs.«115026_g27496380629499_cont_9to1_1988_22_alg».proof.Proof.Gen.KernelIdeal.Launch
import proofs.«115026_g27496380629499_cont_9to1_1988_22_alg».proof.Proof.Gen.KernelIdeal.Skeleton
import proofs.«115026_g27496380629499_cont_9to1_1988_22_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first kernel, at the buffer contents `V` the region is entered with

The kernel walks the five node blocks. At each block it forms the partial product `part` (the transposed
squared features, with 128 rows of ones appended, times the incidence block) and adds it into a scratch
accumulator: the first point stores `part`, every later point stores scratch + `part`. At the last point it
then reads the accumulator back — row 256 holds the hyperedge sizes, rows 0..255 the incidence-weighted sums of
squares — and stores the reciprocal clamped sizes and the scaled, transposed sums to the two outputs. -/

/-! ## The body's branch conditions, from the grid coordinate -/

/-- The first conditional: the point is the first. -/
abbrev cond0_1 (i : grid0.Coords) : Prop :=
  (Scalar.cmpi .ne (Scalar.extui (Scalar.cmpi .eq (BitVec.ofNat 32 (i 0).val) 0#32)) 0#32) = 1#1
/-- The second conditional: the point is not the first. -/
abbrev cond0_2 (i : grid0.Coords) : Prop :=
  (Scalar.cmpi .ne (Scalar.extui (Scalar.cmpi .sgt (BitVec.ofNat 32 (i 0).val) 0#32)) 0#32) = 1#1
/-- The third conditional: the point is the last. -/
abbrev cond0_3 (i : grid0.Coords) : Prop := k0_cond3 i = 1#1

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, cond0_2 (grid0.coords t) ↔ t.val ≠ 0 :=
  (by decide +kernel : ∀ t : Fin grid0.N, cond0_2 (grid0.coords t) ↔ t.val ≠ 0)
theorem hcond0_3 : ∀ t : Fin cfg0.N, cond0_3 (grid0.coords t) ↔ t.val = 4 :=
  (by decide +kernel : ∀ t : Fin grid0.N, cond0_3 (grid0.coords t) ↔ t.val = 4)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Off the last point the two outputs are idle and are not written back; -/
theorem idleAt0_2 : ∀ t : Fin cfg0.N, ¬cond0_3 (grid0.coords t) → cfg0.idle 2 (grid0.coords t) = true := by decide +kernel
theorem noFlush0_2 : ∀ t : Fin cfg0.N, ¬cond0_3 (grid0.coords t) → (cfg0.win 2).flush t = false := by decide +kernel
theorem idleAt0_3 : ∀ t : Fin cfg0.N, ¬cond0_3 (grid0.coords t) → cfg0.idle 3 (grid0.coords t) = true := by decide +kernel
theorem noFlush0_3 : ∀ t : Fin cfg0.N, ¬cond0_3 (grid0.coords t) → (cfg0.win 3).flush t = false := by decide +kernel
/-- at the last point they are live. -/
theorem liveAt0_2 : ∀ t : Fin cfg0.N, cond0_3 (grid0.coords t) → cfg0.idle 2 (grid0.coords t) = false := by decide +kernel
theorem liveAt0_3 : ∀ t : Fin cfg0.N, cond0_3 (grid0.coords t) → cfg0.idle 3 (grid0.coords t) = false := by decide +kernel

/-! ## The body's accesses -/

/-- The whole incidence block, the whole feature block, the whole scratch; -/
abbrev rA0 : Rect S2000x2000 := Rect.unit (s := S2000x2000) ![0, 0] S2000x2000.size inb_S2000x2000_S2000x2000_0_0
abbrev rX0 : Rect S2000x256 := Rect.unit (s := S2000x256) ![0, 0] S2000x256.size inb_S2000x256_S2000x256_0_0
abbrev rS0 : Rect S384x2000 := Rect.unit (s := S384x2000) ![0, 0] S384x2000.size inb_S384x2000_S384x2000_0_0
/-- row 256 of the scratch (the hyperedge sizes) and its rows 0..255 (the weighted sums of squares); -/
abbrev rCnt0 : Rect S384x2000 := Rect.unit (s := S384x2000) ![256, 0] S1x2000.size inb_S384x2000_S1x2000_256_0
abbrev rSum0 : Rect S384x2000 := Rect.unit (s := S384x2000) ![0, 0] S256x2000.size inb_S384x2000_S256x2000_0_0
/-- the whole of each output block. -/
abbrev rI0 : Rect S1x2000 := Rect.unit (s := S1x2000) ![0, 0] S1x2000.size inb_S1x2000_S1x2000_0_0

theorem hz2_0 : (![0, 0] : Fin 2 → Nat) = fun _ => 0 := funext fun a => by fin_cases a <;> rfl

/-- One store through the whole-shape rectangle at offset zero leaves its payload, whatever was there. -/
theorem read_store_whole0 {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through a rectangle `r`, after one such store, reads the payload at `r`'s indices. -/
theorem readCov_store_whole0 {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r :=
  (View.readCov_eq_canon_ld v _ r (fun y => ⟨_, List.mem_singleton_self _, View.mem_set_unit_zero h inb y⟩)).trans
    (by rw [View.canon_unit_zero h inb w])

/-! ## What the last point stores to the outputs, from the accumulator -/

/-- The message block: rows 0..255 of the accumulator times the reciprocal clamped sizes, transposed. -/
def out0_2 (s : Vec F S384x2000 .f32) : Vec F S2000x256 .bf16 := k0_pay5 (View.ld s rCnt0) (View.ld s rSum0)
/-- The reciprocal clamped sizes: one over the maximum of row 256 of the accumulator and one. -/
def out0_3 (s : Vec F S384x2000 .f32) : Vec F S1x2000 .f32 := k0_pay4 (View.ld s rCnt0)

/-! ## The body's triple, case by case -/

set_option maxHeartbeats 1000000 in
/-- THE FIRST POINT. On whole memrefs — the inputs' at `x0`, `x1`, the idle outputs' at any `xi2`, `xi3` (handed
    back untouched), the scratch at anything — the body leaves the scratch at the partial product of the inputs. -/
theorem sound_kernel0_A (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : cond0_1 i) (hc2 : ¬cond0_2 i) (hc3 : ¬cond0_3 i)
    (x0 : Vec F S2000x2000 .bf16) (x1 : Vec F S2000x256 .f32) (xi2 : Vec F S2000x256 .bf16) (xi3 : Vec F S1x2000 .f32)
    (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k0_pay2 x0 x1)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact H5
  ipureintro
  refine (read_store_whole0 _ _ hz2_0 _ _).trans ?_
  simp only [View.readAt_eq_ld, View.ld_unit_zero (S := S2000x2000) hz2_0, View.ld_unit_zero (S := S2000x256) hz2_0]

set_option maxHeartbeats 1000000 in
/-- A MIDDLE POINT. The scratch, at what the point before left (`xs`), is left at `xs` plus the partial product;
    the outputs idle as before. -/
theorem sound_kernel0_B (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : ¬cond0_1 i) (hc2 : cond0_2 i) (hc3 : ¬cond0_3 i)
    (x0 : Vec F S2000x2000 .bf16) (x1 : Vec F S2000x256 .f32) (xi2 : Vec F S2000x256 .bf16) (xi3 : Vec F S1x2000 .f32)
    (xs : Vec F S384x2000 .f32) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k0_pay3 x0 x1 xs)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; exact hf2
    iexact H2
  isplitl [H3]
  · iexists f3; isplitr; · ipureintro; exact hf3
    iexact H3
  iexists _; isplitr
  swap; · iexact H5
  ipureintro
  refine (read_store_whole0 _ _ hz2_0 _ _).trans ?_
  simp only [View.readAt_eq_ld, View.ld_unit_zero (S := S2000x2000) hz2_0, View.ld_unit_zero (S := S2000x256) hz2_0,
    View.ld_unit_zero (S := S384x2000) hz2_0]

set_option maxHeartbeats 1000000 in
/-- THE LAST POINT. The scratch is left at `xs` plus the partial product as at a middle point, and the two
    outputs, at anything before, at what the epilogue computes from that sum. -/
theorem sound_kernel0_C (c : Dev nD) (E : Set ℕ) (i : grid0.Coords)
    (arg1 : Memref sig .tc .vmem S2000x2000 .bf16) (harg1 : arg1.IsWhole) (arg2 : Memref sig .tc .vmem S2000x256 .f32) (harg2 : arg2.IsWhole)
    (arg3 : Memref sig .tc .vmem S2000x256 .bf16) (harg3 : arg3.IsWhole) (arg4 : Memref sig .tc .vmem S1x2000 .f32) (harg4 : arg4.IsWhole)
    (arg5 : Memref sig .tc .vmem S384x2000 .f32) (harg5 : arg5.IsWhole)
    (hc1 : ¬cond0_1 i) (hc2 : cond0_2 i) (hc3 : cond0_3 i)
    (x0 : Vec F S2000x2000 .bf16) (x1 : Vec F S2000x256 .f32) (xs : Vec F S384x2000 .f32)
    (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs
        ∗ (iprop(owns (c : Thread nD τ) arg1 fullShare x0 ∗ owns (c : Thread nD τ) arg2 fullShare x1
            ∗ owns (c : Thread nD τ) arg3 fullShare (out0_2 (k0_pay3 x0 x1 xs))
            ∗ owns (c : Thread nD τ) arg4 fullShare (out0_3 (k0_pay3 x0 x1 xs))
            ∗ owns (c : Thread nD τ) arg5 fullShare (k0_pay3 x0 x1 xs)) -∗ K ⟨⟩))
      ⊢ wp frame (wpE (defs₀ (F := F)) Variants.none c none) E (cc0__p1_kernel i arg1 harg1 arg2 harg2 arg3 harg3 arg4 harg4 arg5 harg5) K := by
  simp only [cc0__p1_kernel_eq_skeleton]; unfold cc0__p1_kernel_skel
  unfold owns
  iintro ⟨⟨%f0, %hf0, H0⟩, ⟨%f1, %hf1, H1⟩, ⟨%d2, %f2, -, H2⟩, ⟨%d3, %f3, -, H3⟩, ⟨%f5, %hf5, H5⟩, Hk⟩
  subst hf0; subst hf1; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    refine (read_store_whole0 _ _ hz2_0 _ _).trans ?_
    unfold out0_2
    simp only [readCov_store_whole0 (S := S384x2000) _ hz2_0, View.readAt_eq_ld, View.ld_unit_zero (S := S2000x2000) hz2_0,
      View.ld_unit_zero (S := S2000x256) hz2_0, View.ld_unit_zero (S := S384x2000) hz2_0]
  isplitl [H3]
  · iexists _; isplitr
    swap; · iexact H3
    ipureintro
    sl_unfold_run_names
    refine (read_store_whole0 _ _ hz2_0 _ _).trans ?_
    unfold out0_3
    simp only [readCov_store_whole0 (S := S384x2000) _ hz2_0, View.readAt_eq_ld, View.ld_unit_zero (S := S2000x2000) hz2_0,
      View.ld_unit_zero (S := S2000x256) hz2_0, View.ld_unit_zero (S := S384x2000) hz2_0]
  iexists _; isplitr
  swap; · iexact H5
  ipureintro
  sl_unfold_run_names
  refine (read_store_whole0 _ _ hz2_0 _ _).trans ?_
  simp only [View.readAt_eq_ld, View.ld_unit_zero (S := S2000x2000) hz2_0, View.ld_unit_zero (S := S2000x256) hz2_0,
    View.ld_unit_zero (S := S384x2000) hz2_0]

/-! ## The windows' blocks -/

section Region
-- the core's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- THE ACCUMULATION. What the scratch holds after the body at position `n`: the partial product of the first
    blocks at `n = 0`; afterwards what position `n - 1` left plus the partial product of the blocks at `n`. -/
def acc0 (c : Dev nD) : (n : ℕ) → n < cfg0.N → Vec F S384x2000 .f32
  | 0, hn => k0_pay2 (iblk0 V c 0 ⟨0, hn⟩) (iblk0 V c 1 ⟨0, hn⟩)
  | n + 1, hn => k0_pay3 (iblk0 V c 0 ⟨n + 1, hn⟩) (iblk0 V c 1 ⟨n + 1, hn⟩) (acc0 c n (Nat.lt_of_succ_lt hn))

theorem acc0_first (c : Dev nD) (t : Fin cfg0.N) (h0 : t.val = 0) :
    acc0 V c t.val t.isLt = k0_pay2 (iblk0 V c 0 t) (iblk0 V c 1 t) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt = k0_pay3 (iblk0 V c 0 t) (iblk0 V c 1 t)
      (acc0 V c (t.val - 1) (Nat.lt_of_le_of_lt (Nat.sub_le _ _) t.isLt)) := by
  obtain ⟨n, hn⟩ := t
  cases n with
  | zero => exact absurd rfl h0
  | succ n => rfl

/-! ## The region invariant -/

/-- The scratch, as a memref. -/
abbrev scM0 : Memref sig .tc .vmem S384x2000 .f32 := Memref.whole cc0_scratch0

/-- The core's other scoped buffers (the later kernels' staging buffers and scratch), each at some contents:
    carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The scoped rest of the region split at the kernel's own scratch. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ restBut0 c) :=
  Pipeline.scopedRest_split_of_list spec0 c [cc0_scratch0] (by decide) (by decide)

/-- The class invariant with the scratch as a memref owned at some contents. -/
theorem PhiA0_eq (c : Dev nD) :
    (Pipeline.ΦA spec0 c : sProp 𝕄)
      = iprop(((∃ d, owns (c : Thread nD τ) scM0 fullShare d) ∗ restBut0 c) ∗ (∃ r, prngReg c r)) := by
  unfold Pipeline.ΦA; rw [scopedRest0_split]; simp only [scM0, owns_whole]; try rfl

/-- The invariant before position `n`: before the first point the class invariant (the scratch at anything);
    afterwards the scratch at what the point before left, the other scoped buffers and the generator register as
    they come. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ restBut0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ restBut0 c) ∗ (∃ r, prngReg c r)) := by
  cases n with
  | zero => exact absurd rfl hz
  | succ n => rfl

/-! ## The proof data -/

/-- The proof data of the region on core `c`: the arrays as the region finds them; after the body at point `t`
    each input's buffer at its block, each output's at what the epilogue computes from the accumulator after
    `t` (read at the last point only: elsewhere the outputs are idle); the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (acc0 V c t.val t.isLt)
    | ⟨3, _⟩ => out0_3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (acc0 V c t.val t.isLt) := by dsimp only [dat0]
theorem after0_3 (c : Dev nD) (t : Fin cfg0.N) : (dat0 V c).after 3 t = out0_3 (acc0 V c t.val t.isLt) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- Each window's current staging memref at point `t`, spelled as the pipeline passes it, and its wholeness. -/
abbrev ms0_0 (t : Fin cfg0.N) : Memref sig .tc .vmem S2000x2000 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2000 .f32 := win0_3.stage (cfg0.slots t 3)
abbrev hs0_3 (t : Fin cfg0.N) : (ms0_3 t).IsWhole := hstage0_3 ((cfg0.slots t 3).cast nbuf0_3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the conditions say which of
    the three cases the point is in; the invariant hands the body the scratch at what the point before left (at
    anything at the first point) and takes it back at this point's accumulator; off the last point the outputs'
    buffers go back as they came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 5 := lt_of_lt_of_eq t.isLt (show cfg0.N = 5 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · -- the first point
    have hc1 : cond0_1 (grid0.coords t) := (hcond0_1 t).mpr h0
    have hc2 : ¬cond0_2 (grid0.coords t) := fun h => (hcond0_2 t).mp h h0
    have hc3 : ¬cond0_3 (grid0.coords t) := fun h => by have := (hcond0_3 t).mp h; omega
    rw [Dat.leavesExact_idle (dat0 V c) 2 t (idleAt0_2 t hc3) (noFlush0_2 t hc3)]
    rw [Dat.leavesExact_idle (dat0 V c) 3 t (idleAt0_3 t hc3) (noFlush0_3 t hc3)]
    rw [acc0_first V c t h0]
    rw [PhiS0_castSucc V c t, PhiS0_zero V c _ _ h0, PhiA0_eq]
    iintro ⟨⟨⟨HS, Hr⟩, Hg⟩, Ho, ⟨%d0, H0⟩, ⟨%d1, H1⟩, ⟨%d2, H2⟩, ⟨%d3, H3⟩⟩
    iapply (sound_kernel0_A c Set.univ (grid0.coords t) _ _ _ _ _ _ _ _ _ _ hc1 hc2 hc3 (iblk0 V c 0 t) (iblk0 V c 1 t) _ _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexists _; iexact H2
    iexists _; iexact H3
  · have hc1 : ¬cond0_1 (grid0.coords t) := fun h => h0 ((hcond0_1 t).mp h)
    have hc2 : cond0_2 (grid0.coords t) := (hcond0_2 t).mpr h0
    rw [acc0_later V c t h0]
    rw [PhiS0_castSucc V c t, PhiS0_pos V c _ _ h0]
    by_cases h4 : t.val = 4
    · -- the last point
      have hc3 : cond0_3 (grid0.coords t) := (hcond0_3 t).mpr h4
      rw [show (dat0 V c).leavesExact 2 t = owns (c : Thread nD τ) (ms0_2 t) fullShare ((dat0 V c).after 2 t) from by
        unfold Dat.leavesExact; rw [liveAt0_2 t hc3], after0_2]
      rw [show (dat0 V c).leavesExact 3 t = owns (c : Thread nD τ) (ms0_3 t) fullShare ((dat0 V c).after 3 t) from by
        unfold Dat.leavesExact; rw [liveAt0_3 t hc3], after0_3]
      rw [acc0_later V c t h0]
      iintro ⟨⟨⟨HS, Hr⟩, Hg⟩, Ho, ⟨%d0, H0⟩, ⟨%d1, H1⟩, ⟨%d2, H2⟩, ⟨%d3, H3⟩⟩
      iapply (sound_kernel0_C c Set.univ (grid0.coords t) _ _ _ _ _ _ _ _ _ _ hc1 hc2 hc3 (iblk0 V c 0 t) (iblk0 V c 1 t) _ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · -- a middle point
      have hc3 : ¬cond0_3 (grid0.coords t) := fun h => h4 ((hcond0_3 t).mp h)
      rw [Dat.leavesExact_idle (dat0 V c) 2 t (idleAt0_2 t hc3) (noFlush0_2 t hc3)]
      rw [Dat.leavesExact_idle (dat0 V c) 3 t (idleAt0_3 t hc3) (noFlush0_3 t hc3)]
      iintro ⟨⟨⟨HS, Hr⟩, Hg⟩, Ho, ⟨%d0, H0⟩, ⟨%d1, H1⟩, ⟨%d2, H2⟩, ⟨%d3, H3⟩⟩
      iapply (sound_kernel0_B c Set.univ (grid0.coords t) _ _ _ _ _ _ _ _ _ _ hc1 hc2 hc3 (iblk0 V c 0 t) (iblk0 V c 1 t) _ _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 5 := N_0; omega)

end Region

end Cert.KernelIdeal.Hand

end
-- ==== Proof.KI.Reg1Body.lean ====
/-
  Region 1 (the second layer's aggregation): the kernel body's triple in each of its three control cases.

  The body loads the incidence block A_blk, the first layer's hyperedge messages M1, the weights W1 and (at the
  last point) the reciprocal hyperedge sizes; it always stores the block's reciprocal node degrees; it keeps an
  accumulator S (features by hyperedges) in a scratch buffer carried from grid point to grid point: at the
  first point S := part, at every later point S := S + part, where part = (H∘H)ᵀ·A_blk for the block's layer
  output H; at the last point it then stores the messages M2 = (S ∘ invn)ᵀ.  Which stores happen is decided by
  three conditions on the grid coordinate; a point is in exactly one of three cases: first, later but not last,
  last.  Each store is of a whole buffer, so what a buffer holds afterwards is the store's payload, written
  here as the canonical contents of a one-piece list.
-/
import proofs.«115026_g27496380629499_cont_9to1_1988_22_alg».proof.Proof.Gen.KernelIdeal.Launch
import proofs.«115026_g27496380629499_cont_9to1_1988_22_alg».proof.Proof.Gen.KernelIdeal.Skeleton
import proofs.«115026_g27496380629499_cont_9to1_1988_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole of its buffer -/

/-- The incidence block, 2000 nodes by 2000 hyperedges. -/
abbrev rA1 : Rect S2000x2000 := Rect.unit (s := S2000x2000) ![0, 0] S2000x2000.size inb_S2000x2000_S2000x2000_0_0
/-- A 2000 by 256 buffer: the first layer's hyperedge messages, and the second layer's. -/
abbrev rM1 : Rect S2000x256 := Rect.unit (s := S2000x256) ![0, 0] S2000x256.size inb_S2000x256_S2000x256_0_0
/-- The weights. -/
abbrev rW1 : Rect S256x256 := Rect.unit (s := S256x256) ![0, 0] S256x256.size inb_S256x256_S256x256_0_0
/-- The row of reciprocal hyperedge sizes. -/
abbrev rN1 : Rect S1x2000 := Rect.unit (s := S1x2000) ![0, 0] S1x2000.size inb_S1x2000_S1x2000_0_0
/-- The column of reciprocal node degrees of the block. -/
abbrev rE1 : Rect S2000x1 := Rect.unit (s := S2000x1) ![0, 0] S2000x1.size inb_S2000x1_S2000x1_0_0
/-- The accumulator, 256 features by 2000 hyperedges. -/
abbrev rS1 : Rect S256x2000 := Rect.unit (s := S256x2000) ![0, 0] S256x2000.size inb_S256x2000_S256x2000_0_0

/-! ## What the body's stores leave, as functions of what it loaded -/

/-- The block's reciprocal node degrees, from the incidence block and the first layer's messages. -/
def inveOf1 (x0 : Vec F S2000x2000 .bf16) (x1 : Vec F S2000x256 .bf16) : Vec F S2000x1 .f32 :=
  View.canon [⟨rE1, k1_pay4 (View.ld x0 rA1) (View.ld x1 rM1)⟩]

/-- The accumulator after the first point: the block's own contribution. -/
def accFirst1 (x0 : Vec F S2000x2000 .bf16) (x1 : Vec F S2000x256 .bf16) (x2 : Vec F S256x256 .bf16) : Vec F S256x2000 .f32 :=
  View.canon [⟨rS1, k1_pay6 (View.ld x0 rA1) (View.ld x1 rM1) (View.ld x2 rW1)⟩]

/-- The accumulator after a later point: what it held plus the block's contribution. -/
def accNext1 (x0 : Vec F S2000x2000 .bf16) (x1 : Vec F S2000x256 .bf16) (x2 : Vec F S256x256 .bf16) (s : Vec F S256x2000 .f32) : Vec F S256x2000 .f32 :=
  View.canon [⟨rS1, k1_pay7 (View.ld x0 rA1) (View.ld x1 rM1) (View.ld x2 rW1) (View.ld s rS1)⟩]

/-- The second layer's messages, from the finished accumulator and the reciprocal hyperedge sizes. -/
def m2Of1 (s : Vec F S256x2000 .f32) (x3 : Vec F S1x2000 .f32) : Vec F S2000x256 .bf16 :=
  View.canon [⟨rM1, k1_pay1 (View.ld s rS1) (View.ld x3 rN1)⟩]

/-- One whole-buffer store covers its buffer. -/
theorem coverE1 (p : Vec F S2000x1 .f32) (y : S2000x1.Idx) :
    ∃ pc ∈ ([⟨rE1, p⟩] : List (View.Piece (Elt F) S2000x1 .f32)), y ∈ pc.1.set :=
  View.cover_of_tiled [⟨rE1, p⟩] S2000x1.size (by rfl) y
theorem coverS1 (p : Vec F S256x2000 .f32) (y : S256x2000.Idx) :
    ∃ pc ∈ ([⟨rS1, p⟩] : List (View.Piece (Elt F) S256x2000 .f32)), y ∈ pc.1.set :=
  View.cover_of_tiled [⟨rS1, p⟩] S256x2000.size (by rfl) y
theorem coverM1 (p : Vec F S2000x256 .bf16) (y : S2000x256.Idx) :
    ∃ pc ∈ ([⟨rM1, p⟩] : List (View.Piece (Elt F) S2000x256 .bf16)), y ∈ pc.1.set :=
  View.cover_of_tiled [⟨rM1, p⟩] S2000x256.size (by rfl) y

/-! ## The body's three conditions, from the grid coordinate -/

/-- "This is the first point": the condition of the branch that initialises the accumulator. -/
abbrev isFirst1 (i : grid1.Coords) : Prop := (Scalar.cmpi .ne (Scalar.extui (Scalar.cmpi .eq (BitVec.ofNat 32 (i 0).val) 0#32)) 0#32) = 1#1
/-- "This is a later point": the condition of the branch that adds to the accumulator. -/
abbrev isLater1 (i : grid1.Coords) : Prop := (Scalar.cmpi .ne (Scalar.extui (Scalar.cmpi .sgt (BitVec.ofNat 32 (i 0).val) 0#32)) 0#32) = 1#1
/-- "This is the last point": the condition of the branch that writes the messages out. -/
abbrev isLast1 (i : grid1.Coords) : Prop := k1_cond3 i = 1#1

theorem isFirst1_iff : ∀ t : Fin cfg1.N, isFirst1 (grid1.coords t) ↔ t.val = 0 :=
  (by decide +kernel : ∀ t : Fin grid1.N, isFirst1 (grid1.coords t) ↔ t.val = 0)
theorem isLater1_iff : ∀ t : Fin cfg1.N, isLater1 (grid1.coords t) ↔ t.val ≠ 0 :=
  (by decide +kernel : ∀ t : Fin grid1.N, isLater1 (grid1.coords t) ↔ t.val ≠ 0)
theorem isLast1_iff : ∀ t : Fin cfg1.N, isLast1 (grid1.coords t) ↔ t.val = 4 :=
  (by decide +kernel : ∀ t : Fin grid1.N, isLast1 (grid1.coords t) ↔ t.val = 4)

/-! ## The body's triple, case by case -/

set_option maxHeartbeats 1000000 in
/-- At the first point: the inputs' buffers are left as found, the messages' buffer is not touched, the degrees'
    buffer holds the block's reciprocal degrees and the accumulator the block's contribution. -/
theorem sound_kernel1_first (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : isFirst1 i) (hc1 : ¬isLater1 i) (hc2 : ¬isLast1 i)
    (x0 : Vec F S2000x2000 .bf16) (x1 : Vec F S2000x256 .bf16) (x2 : Vec F S256x256 .bf16) (x3 : Vec F S1x2000 .f32) (xi4 : Vec F S2000x256 .bf16)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (inveOf1 x0 x1) ∗ owns (c : Thread nD τ) arg7 fullShare (accFirst1 x0 x1 x2)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

set_option maxHeartbeats 1000000 in
/-- At a later point that is not the last: as at the first, but the accumulator, found at `xs`, is left at `xs` plus
    the block's contribution. -/
theorem sound_kernel1_later (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : ¬isFirst1 i) (hc1 : isLater1 i) (hc2 : ¬isLast1 i)
    (x0 : Vec F S2000x2000 .bf16) (x1 : Vec F S2000x256 .bf16) (x2 : Vec F S256x256 .bf16) (x3 : Vec F S1x2000 .f32) (xi4 : Vec F S2000x256 .bf16)
    (xs : Vec F S256x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare xi4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare (inveOf1 x0 x1) ∗ owns (c : Thread nD τ) arg7 fullShare (accNext1 x0 x1 x2 xs)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

set_option maxHeartbeats 1000000 in
/-- At the last point: the accumulator is left at what it held plus the block's contribution, and the messages'
    buffer, found at anything, holds the second layer's messages computed from the finished accumulator. -/
theorem sound_kernel1_last (c : Dev nD) (E : Set ℕ) (i : grid1.Coords) (arg1 : Memref sig .tc .vmem S2000x2000 .bf16) (harg1 : arg1.IsWhole) (arg2 : Memref sig .tc .vmem S2000x256 .bf16) (harg2 : arg2.IsWhole) (arg3 : Memref sig .tc .vmem S256x256 .bf16) (harg3 : arg3.IsWhole) (arg4 : Memref sig .tc .vmem S1x2000 .f32) (harg4 : arg4.IsWhole) (arg5 : Memref sig .tc .vmem S2000x256 .bf16) (harg5 : arg5.IsWhole) (arg6 : Memref sig .tc .vmem S2000x1 .f32) (harg6 : arg6.IsWhole) (arg7 : Memref sig .tc .vmem S256x2000 .f32) (harg7 : arg7.IsWhole)
    (hc0 : ¬isFirst1 i) (hc1 : isLater1 i) (hc2 : isLast1 i)
    (x0 : Vec F S2000x2000 .bf16) (x1 : Vec F S2000x256 .bf16) (x2 : Vec F S256x256 .bf16) (x3 : Vec F S1x2000 .f32)
    (xs : Vec F S256x2000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (m2Of1 (accNext1 x0 x1 x2 xs) x3) ∗ owns (c : Thread nD τ) arg6 fullShare (inveOf1 x0 x1) ∗ owns (c : Thread nD τ) arg7 fullShare (accNext1 x0 x1 x2 xs)) -∗ K ⟨⟩))
      ⊢ wp frame (wpE (defs₀ (F := F)) Variants.none c none) E (cc1__p2_kernel i arg1 harg1 arg2 harg2 arg3 harg3 arg4 harg4 arg5 harg5 arg6 harg6 arg7 harg7) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0 hf1 hf2 hf3 hf6
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon']
    exact View.read_writes_eq_canon _ _ _ (coverM1 _)
  isplitl [H5]
  · iexists _; isplitr
    swap; · iexact H5
    ipureintro
    exact View.read_writes_eq_canon _ _ _ (coverE1 _)
  iexists _; isplitr
  swap; · iexact H6
  ipureintro
  exact View.read_writes_eq_canon _ _ _ (coverS1 _)

end Cert.KernelIdeal.Hand

end
-- ==== Proof.KI.Reg1Frame.lean ====
/-
  Region 1 (the second layer's aggregation): the frame half.  The proof data of the region at the contents `V` the
  core's buffers hold when the region is entered, and the body obligation at every grid point.

  The grid has five points, one per block of 2000 nodes.  Four windows are inputs (the incidence block, fetched at
  every point; the first layer's messages, the weights and the reciprocal hyperedge sizes, whole arrays fetched once);
  window 5 (reciprocal node degrees of the block) is stored and written back at every point; window 4 (the second
  layer's messages) is stored and written back at the last point only.  The accumulator is a scratch buffer carried
  between points: after point n it holds the sum of the contributions of blocks 0..n (`acc1`).
-/
import proofs.«115026_g27496380629499_cont_9to1_1988_22_alg».proof.Proof.KI.Reg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not (an input not fetched at a
    point has the block index it had at the point before), for any proof data whose array is the entry contents and
    whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_5 : ∀ t : Fin cfg1.N, cfg1.idle 5 (grid1.coords t) = false := by decide +kernel
/-- Before the last point nothing is stored into the messages' window, -/
theorem idleAt1_4 : ∀ t : Fin cfg1.N, ¬isLast1 (grid1.coords t) → cfg1.idle 4 (grid1.coords t) = true := by decide +kernel
/-- and its block is not written back; -/
theorem noFlush1_4 : ∀ t : Fin cfg1.N, ¬isLast1 (grid1.coords t) → (cfg1.win 4).flush t = false := by decide +kernel
/-- at the last point it is stored into. -/
theorem liveAt1_4 : ∀ t : Fin cfg1.N, isLast1 (grid1.coords t) → cfg1.idle 4 (grid1.coords t) = false := by decide +kernel

/-! ## The staging memrefs and the scratch -/

/-- Each window's current staging memref at point `t`, and its wholeness. -/
abbrev ms1_0 (t : Fin cfg1.N) : Memref sig .tc .vmem S2000x2000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .f32 := win1_5.stage (cfg1.slots t 5)
abbrev hs1_5 (t : Fin cfg1.N) : (ms1_5 t).IsWhole := hstage1_5 ((cfg1.slots t 5).cast nbuf1_5)
/-- The accumulator: a whole scoped buffer of the kernel's own, carried between the grid points. -/
abbrev scM1 : Memref sig .tc .vmem S256x2000 .f32 := Memref.whole cc1_scratch0

/-- The core's scoped buffers that are neither a staging buffer of this region nor its accumulator, each at some
    contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- The region's invariant as the launch hands it over, with the accumulator set apart: the accumulator at some
    contents, the other scoped buffers, the generator register at some state. -/
theorem PhiA1_eq (c : Dev nD) :
    (Pipeline.ΦA spec1 c : sProp 𝕄)
      = iprop((∃ d, owns (c : Thread nD τ) scM1 fullShare d) ∗ others1 c ∗ (∃ r, prngReg c r)) := by
  unfold Pipeline.ΦA others1; rw [scopedRest1_eq]; simp only [scM1, owns_whole]
  refine BI.equiv_iff.mp ⟨?_, ?_⟩
  · show (_ : sProp 𝕄) ⊢ (_ : sProp 𝕄)
    iintro ⟨⟨R0, R1, R2, R3, R4, R5, R6, HS, R8, R9, R10, R11, R12, R13, R14, R15⟩, Hg⟩
    isplitl [HS]; · iexact HS
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg
  · show (_ : sProp 𝕄) ⊢ (_ : sProp 𝕄)
    iintro ⟨HS, ⟨R0, R1, R2, R3, R4, R5, R6, R8, R9, R10, R11, R12, R13, R14, R15⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [HS]; · iexact HS
      isplitl [R8]; · iexact R8
      isplitl [R9]; · iexact R9
      isplitl [R10]; · iexact R10
      isplitl [R11]; · iexact R11
      isplitl [R12]; · iexact R12
      isplitl [R13]; · iexact R13
      isplitl [R14]; · iexact R14
      iexact R15
    iexact Hg

/-! ## What the accumulator holds after each point -/

/-- THE ACCUMULATION. The accumulator after the body at position `n`: at the first point the block's contribution,
    afterwards what the point before left plus the block's contribution. -/
def acc1 (c : Dev nD) : (n : ℕ) → n < cfg1.N → Vec F S256x2000 .f32
  | 0, hn => accFirst1 (iblk1 V c 0 ⟨0, hn⟩) (iblk1 V c 1 ⟨0, hn⟩) (iblk1 V c 2 ⟨0, hn⟩)
  | n + 1, hn => accNext1 (iblk1 V c 0 ⟨n + 1, hn⟩) (iblk1 V c 1 ⟨n + 1, hn⟩) (iblk1 V c 2 ⟨n + 1, hn⟩) (acc1 c n (Nat.lt_of_succ_lt hn))

theorem acc1_first (c : Dev nD) (t : Fin cfg1.N) (h0 : t.val = 0) :
    acc1 V c t.val t.isLt = accFirst1 (iblk1 V c 0 t) (iblk1 V c 1 t) (iblk1 V c 2 t) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = accNext1 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd rfl h0
  | succ n => rfl

/-- The region's invariant before position `n`: before the first point what the launch hands over (the accumulator at
    anything); afterwards the accumulator at what the point before left in it, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ others1 c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ others1 c ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega)) ∗ others1 c ∗ (∃ r, prngReg c r)) := by
  cases n with
  | zero => exact absurd rfl hz
  | succ n => rfl

/-! ## The pipeline's proof data -/

/-- The proof data of the region on core `c`: the arrays as the region finds them; after the body at point `t` each
    input's buffer at its block, the degrees' buffer at the block's reciprocal degrees, the messages' buffer at the
    messages computed from the accumulator as point `t` leaves it (consulted at the last point only: elsewhere the window
    is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => m2Of1 (acc1 V c t.val t.isLt) (iblk1 V c 3 t)
    | ⟨5, _⟩ => inveOf1 (iblk1 V c 0 t) (iblk1 V c 1 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = m2Of1 (acc1 V c t.val t.isLt) (iblk1 V c 3 t) := by dsimp only [dat1]
theorem after1_5 (c : Dev nD) (t : Fin cfg1.N) : (dat1 V c).after 5 t = inveOf1 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's position says which of the three cases it
    is in; the invariant hands the body the accumulator — at anything at the first point, afterwards at what the point
    before left — and takes it back at this point's contents; before the last point the messages' buffer passes through
    untouched, at the last point it comes back holding the messages; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 5 t = owns (c : Thread nD τ) (ms1_5 t) fullShare ((dat1 V c).after 5 t) from by
    unfold Dat.leavesExact; rw [liveAt1_5 t], after1_5]
  by_cases h0 : t.val = 0
  · have hfirst : isFirst1 (grid1.coords t) := (isFirst1_iff t).mpr h0
    have hlater : ¬isLater1 (grid1.coords t) := fun h => (isLater1_iff t).mp h h0
    have hlast : ¬isLast1 (grid1.coords t) := fun h => by have := (isLast1_iff t).mp h; omega
    rw [Dat.leavesExact_idle (dat1 V c) 4 t (idleAt1_4 t hlast) (noFlush1_4 t hlast)]
    rw [acc1_first V c t h0]
    rw [PhiS1_castSucc V c t, PhiS1_zero V c _ _ h0, PhiA1_eq]
    iintro ⟨⟨HS, Hr, Hg⟩, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ _ _ hfirst hlater hlast (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hr Hg]
    · isplitl [HS]; · iexact HS
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    iexact H5
  · have hfirst : ¬isFirst1 (grid1.coords t) := fun h => h0 ((isFirst1_iff t).mp h)
    have hlater : isLater1 (grid1.coords t) := (isLater1_iff t).mpr h0
    rw [acc1_later V c t h0]
    rw [PhiS1_castSucc V c t, PhiS1_pos V c _ _ h0]
    by_cases h4 : t.val = 4
    · have hlast : isLast1 (grid1.coords t) := (isLast1_iff t).mpr h4
      rw [show (dat1 V c).leavesExact 4 t = owns (c : Thread nD τ) (ms1_4 t) fullShare ((dat1 V c).after 4 t) from by
        unfold Dat.leavesExact; rw [liveAt1_4 t hlast], after1_4, acc1_later V c t h0]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel1_last c Set.univ (grid1.coords t) _ _ _ _ _ _ _ _ _ _ _ _ _ _ hfirst hlater hlast (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hlast : ¬isLast1 (grid1.coords t) := fun h => h4 ((isLast1_iff t).mp h)
      rw [Dat.leavesExact_idle (dat1 V c) 4 t (idleAt1_4 t hlast) (noFlush1_4 t hlast)]
      iintro ⟨⟨HS, Hr, Hg⟩, Ho, ⟨%d0, H0⟩, ⟨%d1, H1⟩, ⟨%d2, H2⟩, ⟨%d3, H3⟩, ⟨%d4, H4⟩, ⟨%d5, H5⟩⟩
      iapply (sound_kernel1_later c Set.univ (grid1.coords t) _ _ _ _ _ _ _ _ _ _ _ _ _ _ hfirst hlater hlast (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hr, Hg⟩
  isplitl [HS]
  · iexists _; iexact HS
  isplitl [Hr]; · iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 5 := N_1; omega)

end Cert.KernelIdeal.Hand

end
-- ==== Proof.KI.Reg2Frame.lean ====
/-
  Region 2 of the kernel program (its third kernel call: out = relu(sqrt((A_blk · M2) * inve) · W2)), as a pipeline
  of five windows over a grid of five node blocks, at a PARAMETER V: the core's buffer contents when the region is
  entered.

  The body keeps nothing from point to point: it loads its four input windows' staging buffers whole, computes one
  value from them and stores it over the whole of the output window's staging buffer.  So what the body leaves in the
  output buffer at a point is a closed function of the four input blocks at that point, and the invariant carried
  between points is the one that owns nothing of the body's: the scoped buffers no window stages through and the
  generator register, untouched.

  The file gives: each window's block at a point read off its array (iblk2); the fact that an input window's current
  staging buffer holds its block at every point, whether or not the pipeline fetched it there (windows 1 and 2 are
  fetched at the first point only: their block index never moves); the body's triple on whole staging memrefs; the
  proof data (dat2); and the body obligation at every point.
-/
import proofs.«115026_g27496380629499_cont_9to1_1988_22_alg».proof.Proof.Gen.KernelIdeal.Launch
import proofs.«115026_g27496380629499_cont_9to1_1988_22_alg».proof.Proof.Gen.KernelIdeal.Skeleton
import proofs.«115026_g27496380629499_cont_9to1_1988_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 256 indices: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window whose body leaves its block in place holds, at every point, what a fetch there would put in its
    buffer: its block.  Fetched at the point, that is the fetch; not fetched, the block index has not moved since the
    point before, and the buffer still holds that point's block, which is this point's.  Stated for ANY proof data
    whose array is V's and whose body leaves the block in place, window by window. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev rA2 : Rect S2000x2000 := Rect.unit (s := S2000x2000) ![0, 0] S2000x2000.size inb_S2000x2000_S2000x2000_0_0
abbrev rM : Rect S2000x256 := Rect.unit (s := S2000x256) ![0, 0] S2000x256.size inb_S2000x256_S2000x256_0_0
abbrev rW : Rect S256x256 := Rect.unit (s := S256x256) ![0, 0] S256x256.size inb_S256x256_S256x256_0_0
abbrev rE : Rect S2000x1 := Rect.unit (s := S2000x1) ![0, 0] S2000x1.size inb_S2000x1_S2000x1_0_0

/-! ## What the body leaves in the output window's buffer -/

/-- The output window's staging buffer after the body, from the four input blocks: its one store, over the whole
    buffer, of the payload computed from the four loads (incidence block, messages, weights, reciprocal degrees). -/
def out2_4 (xA : Vec F S2000x2000 .bf16) (xM : Vec F S2000x256 .bf16) (xW : Vec F S256x256 .bf16) (xE : Vec F S2000x1 .f32) :
    Vec F S2000x256 .f32 :=
  View.canon [⟨rM, k2_pay1 (View.ld xA rA2) (View.ld xM rM) (View.ld xE rE) (View.ld xW rW)⟩]

/-- The one store's rectangle is the whole buffer, so it covers it. -/
theorem cover2_4 (p0 : Vec F S2000x256 .f32) (y : S2000x256.Idx) :
    ∃ pc ∈ ([⟨rM, p0⟩] : List (View.Piece (Elt F) S2000x256 .f32)), y ∈ pc.1.set :=
  View.cover_of_tiled [⟨rM, p0⟩] S2000x256.size (by rfl) y

/-! ## The body's triple -/

set_option maxHeartbeats 1000000 in
/-- The kernel body on whole staging memrefs, the four inputs' at read contents xA, xM, xW, xE and the output's at
    anything, runs to the continuation holding the inputs' as they were and the output's at out2_4 of the inputs'. -/
theorem sound_kernel2 (c : Dev nD) (E : Set ℕ) (i : grid2.Coords)
    (arg1 : Memref sig .tc .vmem S2000x2000 .bf16) (harg1 : arg1.IsWhole)
    (arg2 : Memref sig .tc .vmem S2000x256 .bf16) (harg2 : arg2.IsWhole)
    (arg3 : Memref sig .tc .vmem S256x256 .bf16) (harg3 : arg3.IsWhole)
    (arg4 : Memref sig .tc .vmem S2000x1 .f32) (harg4 : arg4.IsWhole)
    (arg5 : Memref sig .tc .vmem S2000x256 .f32) (harg5 : arg5.IsWhole)
    (xA : Vec F S2000x2000 .bf16) (xM : Vec F S2000x256 .bf16) (xW : Vec F S256x256 .bf16) (xE : Vec F S2000x1 .f32)
    (K : PUnit → sProp 𝕄) :
    iprop(owns (c : Thread nD τ) arg1 fullShare xA ∗ owns (c : Thread nD τ) arg2 fullShare xM
        ∗ owns (c : Thread nD τ) arg3 fullShare xW ∗ owns (c : Thread nD τ) arg4 fullShare xE
        ∗ (∃ d, owns (c : Thread nD τ) arg5 fullShare d)
        ∗ (iprop(owns (c : Thread nD τ) arg1 fullShare xA ∗ owns (c : Thread nD τ) arg2 fullShare xM
            ∗ owns (c : Thread nD τ) arg3 fullShare xW ∗ owns (c : Thread nD τ) arg4 fullShare xE
            ∗ owns (c : Thread nD τ) arg5 fullShare (out2_4 xA xM xW xE)) -∗ K ⟨⟩))
      ⊢ wp frame (wpE (defs₀ (F := F)) Variants.none c none) E (cc2__p3_kernel i arg1 harg1 arg2 harg2 arg3 harg3 arg4 harg4 arg5 harg5) K := by
  simp only [cc2__p3_kernel_eq_skeleton]; unfold cc2__p3_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_4 _)

/-! ## The pipeline's proof data -/

/-- The proof data of the region on core c: the arrays as the region finds them (V); after the body at point t each
    input's buffer still at its block and the output's at out2_4 of the four input blocks; the invariant the one that
    owns nothing the body names (the scoped buffers no window stages through, the generator register); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window: each input's block where it was, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
/-- and in the output's buffer the payload of the four blocks at the point. -/
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant is the same at every point: entering the region gives it, -/
theorem hin2 (c : Dev nD) : Pipeline.ΦA spec2 c ⊢ (dat2 V c).Φ 0 := by
  dsimp only [dat2]; exact .rfl
/-- and leaving the region takes it back. -/
theorem hout2 (c : Dev nD) : (dat2 V c).Φ (Fin.last cfg2.N) ⊢ Pipeline.ΦA spec2 c := by
  dsimp only [dat2]; exact .rfl

/-! ## The body obligation, at a generic point -/

/-- What the body is called with at point t: the invariant, what the core owes, and the five windows' current
    staging buffers, one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the kernel program: a stretch of three host conversions, then the three kernel regions one after
  the other.  The buffer contents at each boundary are a fold from the launch memory: after the host stretch the
  conversions' results; after a region its arrays at what the pipeline's write-backs leave (the inputs as entered,
  each output's flushed blocks written in point order), every other buffer as entered.  Each region is a segment
  over the thread state "every unscoped buffer at the boundary's contents, the generator register at some state,
  nothing owed", built from that region's proof data, body obligation and the two entailments between the
  launch's invariant and the region's.  The run's post names every unscoped buffer at the last boundary's
  contents, from which the result array and the unchanged arguments are read.
-/
import proofs.«115026_g27496380629499_cont_9to1_1988_22_alg».proof.Proof.KI.Reg0Frame
import proofs.«115026_g27496380629499_cont_9to1_1988_22_alg».proof.Proof.KI.Reg1Frame
import proofs.«115026_g27496380629499_cont_9to1_1988_22_alg».proof.Proof.KI.Reg2Frame
import proofs.«115026_g27496380629499_cont_9to1_1988_22_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After region 0: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what the pipeline's write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2: its arrays at what the pipeline's write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- Argument 0 ends as launched: the host stretch does not write it and no region's write-back touches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := StableHlo.after_of_writes_sub hostOps0 _ hostOps0_writes (by decide)
    _ = m ((c : Thread nD τ).loc main_arg0) := rfl

/-- Argument 1 ends as launched: the host stretch does not write it and no region's write-back touches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- Argument 2 ends as launched: the host stretch does not write it and no region's write-back touches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- Argument 3 ends as launched: the host stretch does not write it and no region's write-back touches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with the
    region's arrays at what its write-backs leave and every other buffer as entered; the generator register rides
    along inside the region's invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans (show Pipeline.ΦA spec0 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; the generator register rides
    along inside the region's invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered; the generator register rides
    along inside the region's invariant; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans (show Pipeline.ΦA spec2 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, faults nowhere, and ends
    with the result array at the last boundary's contents and every argument array as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Hand

end
-- ==== Proof.KI.Boundary.lean ====
/-
  The buffer contents at the region boundaries, buffer by buffer: the host stretch's three conversions of the
  incidence matrix and the two weight matrices; after a region, an input array is as entered, a buffer the region
  does not window is as entered, and an output array is what the pipeline's write-backs leave.
-/
import proofs.«115026_g27496380629499_cont_9to1_1988_22_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-! ## After the host stretch -/

theorem V1_v0 (c : Dev nD) : V1 m ρ c main_v0 = truncf .bf16 (m ((c : Thread nD τ).loc main_arg1)) bitsLt_bf16_f32 := by
  show StableHlo.after hostOps0 (W0 m ρ c) (Proc.devRef .tc main_v0) = _
  after_results
theorem V1_v1 (c : Dev nD) : V1 m ρ c main_v1 = truncf .bf16 (m ((c : Thread nD τ).loc main_arg2)) bitsLt_bf16_f32 := by
  show StableHlo.after hostOps0 (W0 m ρ c) (Proc.devRef .tc main_v1) = _
  after_results
theorem V1_v2 (c : Dev nD) : V1 m ρ c main_v2 = truncf .bf16 (m ((c : Thread nD τ).loc main_arg3)) bitsLt_bf16_f32 := by
  show StableHlo.after hostOps0 (W0 m ρ c) (Proc.devRef .tc main_v2) = _
  after_results
theorem V1_arg0 (c : Dev nD) : V1 m ρ c main_arg0 = m ((c : Thread nD τ).loc main_arg0) :=
  StableHlo.after_of_writes_sub hostOps0 _ hostOps0_writes (by decide)

/-! ## After region 0 -/

theorem V2_v0 (c : Dev nD) : V2 m ρ c main_v0 = V1 m ρ c main_v0 :=
  (W2_arr m ρ c 0).trans (((dat0 (V1 m ρ) c).arrAt_in 0 rfl _).trans (A_eq0 (V1 m ρ) c 0))
theorem V2_v1 (c : Dev nD) : V2 m ρ c main_v1 = V1 m ρ c main_v1 := W2_of_ne m ρ c main_v1 (by decide)
theorem V2_v2 (c : Dev nD) : V2 m ρ c main_v2 = V1 m ρ c main_v2 := W2_of_ne m ρ c main_v2 (by decide)
theorem V2_v3_0 (c : Dev nD) : V2 m ρ c main_v3_0 = (dat0 (V1 m ρ) c).arrAt 2 cfg0.N := W2_arr m ρ c 2
theorem V2_v3_1 (c : Dev nD) : V2 m ρ c main_v3_1 = (dat0 (V1 m ρ) c).arrAt 3 cfg0.N := W2_arr m ρ c 3

/-! ## After region 1 -/

theorem V3_v0 (c : Dev nD) : V3 m ρ c main_v0 = V2 m ρ c main_v0 :=
  (W3_arr m ρ c 0).trans (((dat1 (V2 m ρ) c).arrAt_in 0 rfl _).trans (A_eq1 (V2 m ρ) c 0))
theorem V3_v2 (c : Dev nD) : V3 m ρ c main_v2 = V2 m ρ c main_v2 := W3_of_ne m ρ c main_v2 (by decide)
theorem V3_v4_0 (c : Dev nD) : V3 m ρ c main_v4_0 = (dat1 (V2 m ρ) c).arrAt 4 cfg1.N := W3_arr m ρ c 4
theorem V3_v4_1 (c : Dev nD) : V3 m ρ c main_v4_1 = (dat1 (V2 m ρ) c).arrAt 5 cfg1.N := W3_arr m ρ c 5

/-! ## After region 2 -/

theorem W4_v5 (c : Dev nD) : W4 m ρ c (Proc.devRef .tc main_v5) = (dat2 (V3 m ρ) c).arrAt 4 cfg2.N := W4_arr m ρ c 4

end Cert.KernelIdeal.Hand

end
-- ==== Proof.Spec.lean ====
/-
  The mathematics both programs compute, as plain functions over index types, on the extended reals.

  A is the incidence matrix (nodes × hyperedges), Y a feature matrix (nodes × features), W a weight matrix.
  One layer: the hyperedge message is the incidence-weighted sum of squared features divided by the
  clamped hyperedge size; a node's aggregate is the incidence-weighted sum of messages divided by the clamped
  node degree, under a square root; the output is the rectified product with the weights.  The two-layer
  network feeds the first layer's output to the second with the same incidence matrix.

  Division by a clamped count is written as multiplication by its reciprocal, `Ideal.div 1 (max s 1)`.
-/
import Idealize.ShloMosaic.PureOps.Ideal
import Mathlib.Algebra.BigOperators.Group.Finset.Basic

noncomputable section

namespace Cert.Spec

open Idealize.ShloMosaic

/-- Number of nodes in hyperedge `e`: the column sum of the incidence matrix. -/
def cnt (A : Fin 10000 → Fin 2000 → EReal) (e : Fin 2000) : EReal := ∑ n, A n e

/-- Reciprocal of the hyperedge size clamped below by one. -/
def invN (A : Fin 10000 → Fin 2000 → EReal) (e : Fin 2000) : EReal := Ideal.div 1 (max (cnt A e) 1)

/-- The hyperedge message: mean of squared features over the hyperedge's nodes. -/
def edgeMean (A : Fin 10000 → Fin 2000 → EReal) (Y : Fin 10000 → Fin 256 → EReal) (e : Fin 2000) (d : Fin 256) : EReal :=
  (∑ n, (Y n d * Y n d) * A n e) * invN A e

/-- Number of hyperedges containing node `n`: the row sum of the incidence matrix. -/
def deg (A : Fin 10000 → Fin 2000 → EReal) (n : Fin 10000) : EReal := ∑ e, A n e

/-- Reciprocal of the node degree clamped below by one. -/
def invE (A : Fin 10000 → Fin 2000 → EReal) (n : Fin 10000) : EReal := Ideal.div 1 (max (deg A n) 1)

/-- A node's aggregate: square root of the mean message over the node's hyperedges. -/
def nodeRoot (A : Fin 10000 → Fin 2000 → EReal) (M : Fin 2000 → Fin 256 → EReal) (n : Fin 10000) (d : Fin 256) : EReal :=
  Ideal.sqrt ((∑ e, A n e * M e d) * invE A n)

/-- The layer's output: rectified product of the aggregate with the weights. -/
def layerOut (A : Fin 10000 → Fin 2000 → EReal) (M : Fin 2000 → Fin 256 → EReal) (W : Fin 256 → Fin 256 → EReal)
    (n : Fin 10000) (j : Fin 256) : EReal :=
  max (∑ k, nodeRoot A M n k * W k j) 0

/-- The two-layer network. -/
def net (A : Fin 10000 → Fin 2000 → EReal) (X : Fin 10000 → Fin 256 → EReal) (W1 W2 : Fin 256 → Fin 256 → EReal) :
    Fin 10000 → Fin 256 → EReal :=
  layerOut A (edgeMean A (layerOut A (edgeMean A X) W1)) W2

end Cert.Spec

end
-- ==== Proof.KI.Reg0Value.lean ====
import proofs.«115026_g27496380629499_cont_9to1_1988_22_alg».proof.Proof.KI.Reg0Frame
import proofs.«115026_g27496380629499_cont_9to1_1988_22_alg».proof.Proof.Spec
import Idealize.ShloMosaic.Lib.ValueIdx
import Idealize.ShloMosaic.PureOps.Ideal.Laws

set_option maxRecDepth 16384

noncomputable section

namespace Cert.KernelIdeal.Hand.R0

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! # Region 0, read: what the first kernel leaves in its two output arrays, index by index

At the exact values every rounding is the identity, so the kernel's partial product at a block is a plain sum of
products over the block's 2000 rows, the accumulator after the last point is the sum over all 10000 rows, and the
epilogue divides by the clamped hyperedge size. -/

/-! ## Constants -/

theorem one_bf16 : Ideal.ofBits .bf16 0x3F80#16 = 1 := by
  simp [Ideal.ofBits, Ideal.ieee, -EReal.coe_mul]; norm_num
theorem one_f32 : Ideal.ofBits .f32 0x3F800000#32 = 1 := by
  simp [Ideal.ofBits, Ideal.ieee, -EReal.coe_mul]; norm_num

/-! ## The partial product at an index -/

/-- The left operand of the partial product, transposed: row `r` of the augmented features at node `k` of the
    block — the squared feature for `r < 256`, one on the 128 rows appended. -/
def aug (x1 : FVec Ideal S2000x256 .f32) (k : Fin 2000) (r : Fin 384) : EReal :=
  if h : r.val < 256 then x1 (ix2 k ⟨r.val, h⟩) * x1 (ix2 k ⟨r.val, h⟩) else 1

local notation "D0" => dot_S2000x384_S2000x2000_S384x2000_0_0_1_1_n_n

theorem lhs0 (j : S384x2000.Idx) (q : dot_S2000x384_S2000x2000_S384x2000_0_0_1_1_n_n.contr.Idx) :
    (dot_S2000x384_S2000x2000_S384x2000_0_0_1_1_n_n.lhsIdx j q 0).val = (q ⟨0, by decide⟩).val :=
  dot_S2000x384_S2000x2000_S384x2000_0_0_1_1_n_n.lhsIdx_val_of_single rfl j q
theorem lhs1 (j : S384x2000.Idx) (q : dot_S2000x384_S2000x2000_S384x2000_0_0_1_1_n_n.contr.Idx) :
    (dot_S2000x384_S2000x2000_S384x2000_0_0_1_1_n_n.lhsIdx j q 1).val = (j 0).val := by
  unfold DotDims.lhsIdx
  rw [dif_neg (show ¬(1 : Fin S2000x384.rank) ∈ dot_S2000x384_S2000x2000_S384x2000_0_0_1_1_n_n.lhsBatch by decide), dif_pos (show (1 : Fin S2000x384.rank) ∈ dot_S2000x384_S2000x2000_S384x2000_0_0_1_1_n_n.lhsNonContracting by decide)]
  rfl
theorem rhs0 (j : S384x2000.Idx) (q : dot_S2000x384_S2000x2000_S384x2000_0_0_1_1_n_n.contr.Idx) :
    (dot_S2000x384_S2000x2000_S384x2000_0_0_1_1_n_n.rhsIdx j q 0).val = (q ⟨0, by decide⟩).val :=
  dot_S2000x384_S2000x2000_S384x2000_0_0_1_1_n_n.rhsIdx_val_of_single rfl j q
theorem rhs1 (j : S384x2000.Idx) (q : dot_S2000x384_S2000x2000_S384x2000_0_0_1_1_n_n.contr.Idx) :
    (dot_S2000x384_S2000x2000_S384x2000_0_0_1_1_n_n.rhsIdx j q 1).val = (j 1).val := by
  unfold DotDims.rhsIdx
  rw [dif_neg (show ¬(1 : Fin S2000x2000.rank) ∈ dot_S2000x384_S2000x2000_S384x2000_0_0_1_1_n_n.rhsBatch by decide), dif_pos (show (1 : Fin S2000x2000.rank) ∈ dot_S2000x384_S2000x2000_S384x2000_0_0_1_1_n_n.rhsNonContracting by decide)]
  rfl

/-- The augmented features at an index: the concatenation read on either side of column 256. -/
theorem aug_apply (x1 : FVec Ideal S2000x256 .f32) (k : Fin 2000) (r : Fin 384) :
    (concatenate S2000x384 1
        [⟨S2000x256, (truncf (F := Ideal) FTy.bf16 (mulf x1 x1) bitsLt_bf16_f32 : FVec Ideal S2000x256 .bf16)⟩,
          ⟨S2000x128, (broadcast S2000x128 (FloatOps.ofBits (F := Ideal) FTy.bf16 0x3F80#16) : FVec Ideal S2000x128 .bf16)⟩]
        concatenates_S2000x256_S2000x128_S2000x384_d1 : FVec Ideal S2000x384 .bf16) (ix2 k r) = aug x1 k r := by
  unfold aug
  by_cases h : r.val < 256
  · rw [dif_pos h]
    exact concatenate_pair_apply_left (1 : Fin S2000x384.rank) _ _ concatenates_S2000x256_S2000x128_S2000x384_d1 (ix2 k r) rfl
      (ix2 k ⟨r.val, h⟩) (fun b => by match b with | ⟨0, _⟩ => rfl | ⟨1, _⟩ => rfl)
  · rw [dif_neg h]
    have hr : r.val < 384 := r.isLt
    refine (concatenate_pair_apply_right (1 : Fin S2000x384.rank) _ _ concatenates_S2000x256_S2000x128_S2000x384_d1 (ix2 k r) rfl rfl
      (ix2 k ⟨r.val - 256, by omega⟩) (fun b hb => by
        match b with
        | ⟨0, _⟩ => rfl
        | ⟨1, _⟩ => exact absurd rfl hb) (by show r.val - 256 + 256 = r.val; omega)).trans ?_
    exact one_bf16

/-- THE PARTIAL PRODUCT at row `r`, hyperedge `e`: the sum over the block's nodes of the augmented feature times
    the incidence. -/
theorem pay1_apply (x0 : FVec Ideal S2000x2000 .bf16) (x1 : FVec Ideal S2000x256 .f32) (r : Fin 384) (e : Fin 2000) :
    k0_pay1 (F := Ideal) x0 x1 (ix2 r e) = ∑ k : Fin 2000, aug x1 k r * x0 (ix2 k e) := by
  unfold k0_pay1
  rw [shapeCast_self]
  refine (Ideal.matmul_constant_zero_apply (φ₁ := .bf16) (φ₂ := .bf16) dot_S2000x384_S2000x2000_S384x2000_0_0_1_1_n_n none _ _ _).trans ?_
  rw [← Equiv.sum_comp (contrEquiv1 dot_S2000x384_S2000x2000_S384x2000_0_0_1_1_n_n 2000 rfl rfl).symm]
  refine Finset.sum_congr rfl fun k _ => ?_
  have hk := contrEquiv1_symm_val dot_S2000x384_S2000x2000_S384x2000_0_0_1_1_n_n 2000 rfl rfl k
  have el : dot_S2000x384_S2000x2000_S384x2000_0_0_1_1_n_n.lhsIdx (ix2 r e) ((contrEquiv1 dot_S2000x384_S2000x2000_S384x2000_0_0_1_1_n_n 2000 rfl rfl).symm k) = ix2 k r := funext fun a => Fin.ext (by
    match a with
    | ⟨0, _⟩ => exact (lhs0 _ _).trans hk
    | ⟨1, _⟩ => exact lhs1 _ _)
  have er : dot_S2000x384_S2000x2000_S384x2000_0_0_1_1_n_n.rhsIdx (ix2 r e) ((contrEquiv1 dot_S2000x384_S2000x2000_S384x2000_0_0_1_1_n_n 2000 rfl rfl).symm k) = ix2 k e := funext fun a => Fin.ext (by
    match a with
    | ⟨0, _⟩ => exact (rhs0 _ _).trans hk
    | ⟨1, _⟩ => exact rhs1 _ _)
  rw [el, er, aug_apply]

theorem pay2_apply (x0 : FVec Ideal S2000x2000 .bf16) (x1 : FVec Ideal S2000x256 .f32) (j : S384x2000.Idx) :
    k0_pay2 (F := Ideal) x0 x1 j = k0_pay1 (F := Ideal) x0 x1 j := by
  unfold k0_pay2; rw [shapeCast_self]

theorem pay3_apply (x0 : FVec Ideal S2000x2000 .bf16) (x1 : FVec Ideal S2000x256 .f32) (s : FVec Ideal S384x2000 .f32)
    (j : S384x2000.Idx) : k0_pay3 (F := Ideal) x0 x1 s j = s j + k0_pay1 (F := Ideal) x0 x1 j := by
  unfold k0_pay3; rw [shapeCast_self]; rfl

/-! ## The epilogue at an index -/

/-- Row 256 of the accumulator, and its rows 0..255, as the last point's loads read them. -/
theorem cnt_idx (e : Fin 2000) : rCnt0.idx (ix2 (0 : Fin 1) e) = ix2 (256 : Fin 384) e :=
  funext fun a => Fin.ext (by
    match a with
    | ⟨0, _⟩ => rfl
    | ⟨1, _⟩ => show 0 + 1 * e.val = e.val; omega)
theorem sum_idx (d : Fin 256) (e : Fin 2000) : rSum0.idx (ix2 d e) = ix2 (⟨d.val, by omega⟩ : Fin 384) e :=
  funext fun a => Fin.ext (by
    match a with
    | ⟨0, _⟩ => show 0 + 1 * d.val = d.val; omega
    | ⟨1, _⟩ => show 0 + 1 * e.val = e.val; omega)

/-- The reciprocal clamped size of hyperedge `e`, from the accumulator's row 256. -/
theorem out3_apply (s : FVec Ideal S384x2000 .f32) (e : Fin 2000) :
    out0_3 (F := Ideal) s (ix2 (0 : Fin 1) e) = Ideal.div 1 (max (s (ix2 (256 : Fin 384) e)) 1) := by
  unfold out0_3 k0_pay4
  show Ideal.div (Ideal.ofBits .f32 0x3F800000#32) (max (s (rCnt0.idx (ix2 (0 : Fin 1) e))) (Ideal.ofBits .f32 0x3F800000#32)) = _
  rw [one_f32, cnt_idx]

/-- The message of hyperedge `e`, feature `d`: the accumulator's row `d` times the reciprocal clamped size. -/
theorem out2_apply (s : FVec Ideal S384x2000 .f32) (e : Fin 2000) (d : Fin 256) :
    out0_2 (F := Ideal) s (ix2 e d) = s (ix2 (⟨d.val, by omega⟩ : Fin 384) e) * Ideal.div 1 (max (s (ix2 (256 : Fin 384) e)) 1) := by
  rw [← out3_apply]
  unfold out0_2 out0_3 k0_pay5
  refine (transpose_apply [1, 0] _ transposes_S256x2000_p1_0_S2000x256 (ix2 e d) (ix2 d e) (fun b => by
    match b with
    | ⟨0, _⟩ => rfl
    | ⟨1, _⟩ => rfl)).trans ?_
  show s (rSum0.idx (ix2 d e)) * (broadcastTo S256x2000 (k0_pay4 (F := Ideal) (View.ld (Val := Elt Ideal) (e' := .f32) s rCnt0)) broadcasts_S1x2000_S256x2000) (ix2 d e) = _
  rw [broadcastTo_apply _ broadcasts_S1x2000_S256x2000 (ix2 d e) (ix2 (0 : Fin 1) e) (fun a => by
    match a with
    | ⟨0, _⟩ => rfl
    | ⟨1, _⟩ => rfl)]
  rw [sum_idx]

/-! ## From blocks to arrays -/

/-- The five blocks of 2000 nodes are the 10000 nodes. -/
theorem sum_nodes {M : Type*} [AddCommMonoid M] (f : Fin 10000 → M) :
    ∑ p : Fin 5, ∑ k : Fin 2000, f ⟨2000 * p.val + k.val, by omega⟩ = ∑ n : Fin 10000, f n := by
  rw [← Equiv.sum_comp (finProdFinEquiv (m := 5) (n := 2000)) f, Fintype.sum_prod_type]
  refine Finset.sum_congr rfl fun p _ => Finset.sum_congr rfl fun k _ => ?_
  exact congrArg f (Fin.ext (by show 2000 * p.val + k.val = k.val + 2000 * p.val; omega))

/-- The printed index maps, decided over the grid: the inputs' block index is the point on the node axis; the
    outputs' is zero. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

section Region
variable (V : (c : Dev nD) → (b : Ref sig .tc) → Buf (Elt Ideal) ((c : Thread nD τ).loc b))

/-- The incidence matrix and the features, as the region finds them. -/
def incid (c : Dev nD) : Fin 10000 → Fin 2000 → EReal := fun n e => V c main_v0 (ix2 n e)
def feats (c : Dev nD) : Fin 10000 → Fin 256 → EReal := fun n d => V c main_arg0 (ix2 n d)

/-- Node `k` of block `t`. -/
def node (t : Fin cfg0.N) (k : Fin 2000) : Fin 10000 :=
  ⟨2000 * t.val + k.val, by have := lt_of_lt_of_eq t.isLt (show cfg0.N = 5 from N_0); omega⟩

/-- An incidence block's element is the array's at the block's node. -/
theorem blkA_apply (c : Dev nD) (t : Fin cfg0.N) (k : Fin 2000) (e : Fin 2000) :
    iblk0 V c 0 t (ix2 k e) = incid V c (node t k) e := by
  obtain ⟨e0, e1, -⟩ := idx_facts0 t
  show V c main_v0 (((cfg0.win 0).blk t).view.emb (ix2 k e)) = V c main_v0 (ix2 (node t k) e)
  refine congrArg (V c main_v0) (funext fun a => Fin.ext ?_)
  match a with
  | ⟨0, _⟩ => show win0_0.index t (0 : Fin 2) * 2000 + 1 * k.val = 2000 * t.val + k.val; omega
  | ⟨1, _⟩ => show win0_0.index t (1 : Fin 2) * 2000 + 1 * e.val = e.val; omega

/-- A feature block's element likewise. -/
theorem blkX_apply (c : Dev nD) (t : Fin cfg0.N) (k : Fin 2000) (d : Fin 256) :
    iblk0 V c 1 t (ix2 k d) = feats V c (node t k) d := by
  obtain ⟨-, -, e0, e1, -⟩ := idx_facts0 t
  show V c main_arg0 (((cfg0.win 1).blk t).view.emb (ix2 k d)) = V c main_arg0 (ix2 (node t k) d)
  refine congrArg (V c main_arg0) (funext fun a => Fin.ext ?_)
  match a with
  | ⟨0, _⟩ => show win0_1.index t (0 : Fin 2) * 2000 + 1 * k.val = 2000 * t.val + k.val; omega
  | ⟨1, _⟩ => show win0_1.index t (1 : Fin 2) * 256 + 1 * d.val = d.val; omega

/-! ## The accumulator after the last point -/

/-- The augmented feature of node `n` at row `r`: the squared feature for `r < 256`, one on the appended rows. -/
def augN (c : Dev nD) (n : Fin 10000) (r : Fin 384) : EReal :=
  if h : r.val < 256 then feats V c n ⟨r.val, h⟩ * feats V c n ⟨r.val, h⟩ else 1

/-- The partial product of point `p`, at an index: the sum over the block's nodes. -/
theorem part_apply (c : Dev nD) (p : Fin cfg0.N) (r : Fin 384) (e : Fin 2000) :
    k0_pay1 (F := Ideal) (iblk0 V c 0 p) (iblk0 V c 1 p) (ix2 r e)
      = ∑ k : Fin 2000, augN V c (node p k) r * incid V c (node p k) e := by
  rw [pay1_apply]
  refine Finset.sum_congr rfl fun k _ => ?_
  rw [blkA_apply]
  refine congrArg (· * _) ?_
  unfold aug augN
  by_cases h : r.val < 256
  · rw [dif_pos h, dif_pos h, blkX_apply]
  · rw [dif_neg h, dif_neg h]

/-- The accumulator after position `n` is the sum of the partial products of the points up to `n`. -/
theorem acc0_sum (c : Dev nD) (r : Fin 384) (e : Fin 2000) : ∀ (n : ℕ) (hn : n < cfg0.N),
    acc0 V c n hn (ix2 r e) = ∑ p : Fin (n + 1), ∑ k : Fin 2000,
      augN V c (node ⟨p.val, lt_of_lt_of_le p.isLt hn⟩ k) r * incid V c (node ⟨p.val, lt_of_lt_of_le p.isLt hn⟩ k) e
  | 0, hn => by
    rw [Fin.sum_univ_castSucc, Fin.sum_univ_zero, zero_add]
    show k0_pay2 (F := Ideal) (iblk0 V c 0 ⟨0, hn⟩) (iblk0 V c 1 ⟨0, hn⟩) (ix2 r e) = _
    rw [pay2_apply, part_apply]; rfl
  | n + 1, hn => by
    rw [Fin.sum_univ_castSucc]
    show k0_pay3 (F := Ideal) (iblk0 V c 0 ⟨n + 1, hn⟩) (iblk0 V c 1 ⟨n + 1, hn⟩) (acc0 V c n (Nat.lt_of_succ_lt hn)) (ix2 r e) = _
    rw [pay3_apply, part_apply, acc0_sum c r e n (Nat.lt_of_succ_lt hn)]; rfl

/-- After the last point: the sum over all nodes. -/
theorem acc0_last (c : Dev nD) (r : Fin 384) (e : Fin 2000) :
    acc0 V c t0_4.val t0_4.isLt (ix2 r e) = ∑ n : Fin 10000, augN V c n r * incid V c n e := by
  rw [← sum_nodes]
  exact acc0_sum V c r e 4 t0_4.isLt

/-! ## The output arrays after the run -/

/-- Only the last point writes the outputs back. -/
theorem flush_last2 (t : Fin cfg0.N) (h : (cfg0.win 2).flush t = true) : t = t0_4 := by
  have h4 := (flush0_2 t).mp h
  have hN : t.val < 5 := lt_of_lt_of_eq t.isLt (show cfg0.N = 5 from N_0)
  exact Fin.ext (by show t.val = 4; omega)
theorem flush_last3 (t : Fin cfg0.N) (h : (cfg0.win 3).flush t = true) : t = t0_4 := by
  have h4 := (flush0_3 t).mp h
  have hN : t.val < 5 := lt_of_lt_of_eq t.isLt (show cfg0.N = 5 from N_0)
  exact Fin.ext (by show t.val = 4; omega)

/-- The message array after the run is what the last point stored: the epilogue of the final accumulator. -/
theorem arr2_apply (c : Dev nD) (e : Fin 2000) (d : Fin 256) :
    (dat0 V c).arrAt 2 cfg0.N (ix2 e d) = out0_2 (acc0 V c t0_4.val t0_4.isLt) (ix2 e d) := by
  obtain ⟨-, -, -, -, e0, e1, -⟩ := idx_facts0 t0_4
  have hf : (cfg0.win 2).flush t0_4 = true := (flush0_2 t0_4).mpr rfl
  have h := (dat0 V c).arrAt_emb_eq_flushed 2
    (fun t t' h h' hne => absurd ((flush_last2 t h).trans (flush_last2 t' h').symm) hne) t0_4 hf (ix2 e d)
  have he : ((cfg0.win 2).blk t0_4).view.emb (ix2 e d) = ix2 e d := funext fun a => Fin.ext (by
    match a with
    | ⟨0, _⟩ => show win0_2.index t0_4 (0 : Fin 2) * 2000 + 1 * e.val = e.val; omega
    | ⟨1, _⟩ => show win0_2.index t0_4 (1 : Fin 2) * 256 + 1 * d.val = d.val; omega)
  rw [he] at h
  refine h.trans ?_
  show (dat0 V c).after 2 t0_4 (ix2 e d) = _
  rw [after0_2]

/-- The reciprocal-size array likewise. -/
theorem arr3_apply (c : Dev nD) (e : Fin 2000) :
    (dat0 V c).arrAt 3 cfg0.N (ix2 (0 : Fin 1) e) = out0_3 (acc0 V c t0_4.val t0_4.isLt) (ix2 (0 : Fin 1) e) := by
  obtain ⟨-, -, -, -, -, -, e0, e1⟩ := idx_facts0 t0_4
  have hf : (cfg0.win 3).flush t0_4 = true := (flush0_3 t0_4).mpr rfl
  have h := (dat0 V c).arrAt_emb_eq_flushed 3
    (fun t t' h h' hne => absurd ((flush_last3 t h).trans (flush_last3 t' h').symm) hne) t0_4 hf (ix2 (0 : Fin 1) e)
  have he : ((cfg0.win 3).blk t0_4).view.emb (ix2 (0 : Fin 1) e) = ix2 (0 : Fin 1) e := funext fun a => Fin.ext (by
    match a with
    | ⟨0, _⟩ => show win0_3.index t0_4 (0 : Fin 2) * 1 + 1 * 0 = 0; omega
    | ⟨1, _⟩ => show win0_3.index t0_4 (1 : Fin 2) * 2000 + 1 * e.val = e.val; omega)
  rw [he] at h
  refine h.trans ?_
  show (dat0 V c).after 3 t0_4 (ix2 (0 : Fin 1) e) = _
  rw [after0_3]

/-! ## The region's results -/

/-- Row 256 of the final accumulator is the hyperedge's size. -/
theorem acc_cnt (c : Dev nD) (e : Fin 2000) :
    acc0 V c t0_4.val t0_4.isLt (ix2 (256 : Fin 384) e) = Cert.Spec.cnt (incid V c) e := by
  rw [acc0_last]
  unfold Cert.Spec.cnt
  refine Finset.sum_congr rfl fun n _ => ?_
  unfold augN
  rw [dif_neg (by decide), one_mul]

/-- THE RECIPROCAL CLAMPED SIZES the region leaves. -/
theorem invn_apply (c : Dev nD) (e : Fin 2000) :
    (dat0 (F := Ideal) V c).arrAt 3 cfg0.N (ix2 (0 : Fin 1) e) = Cert.Spec.invN (incid V c) e := by
  rw [arr3_apply, out3_apply, acc_cnt]
  rfl

/-- THE MESSAGES the region leaves: the mean of squared features over each hyperedge's nodes. -/
theorem m1_apply (c : Dev nD) (e : Fin 2000) (d : Fin 256) :
    (dat0 (F := Ideal) V c).arrAt 2 cfg0.N (ix2 e d) = Cert.Spec.edgeMean (incid V c) (feats V c) e d := by
  rw [arr2_apply, out2_apply, acc_cnt, acc0_last]
  unfold Cert.Spec.edgeMean
  refine congrArg (· * Cert.Spec.invN (incid V c) e) (Finset.sum_congr rfl fun n _ => ?_)
  unfold augN
  rw [dif_pos (show ((⟨d.val, by omega⟩ : Fin 384)).val < 256 from d.isLt)]

end Region

end Cert.KernelIdeal.Hand.R0

end
-- ==== Proof.KI.Reg2Pay.lean ====
/-
  The value the body of region 2 stores, read at one index, on the extended reals.

  From the four blocks it loads — a block xA of 2000 rows of the incidence matrix (rows: nodes of the block,
  columns: the 2000 hyperedges), the message matrix xM (hyperedges × 256 features), the column xE of the block's
  reciprocal clamped node degrees, the weights xW (256 × 256) — the body computes, at row p and column q,

      max ( Σ_k  sqrt( (Σ_e xA[p,e] · xM[e,k]) · xE[p,0] ) · xW[k,q] ,  0 ).

  The two products are matrix products accumulated into a zero accumulator, which on the extended reals are plain sums
  over the contracted axis; the changes of float format between them are the identity there; the column of reciprocal
  degrees is broadcast along the feature axis; the shape casts are to the same shape.
-/
import proofs.«115026_g27496380629499_cont_9to1_1988_22_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The dimension numbers of the aggregation product: rows of the incidence block against rows of the messages. -/
abbrev dAgg : DotDims S2000x2000 S2000x256 S2000x256 := dot_S2000x2000_S2000x256_S2000x256_1_0_0_1_n_n
/-- The dimension numbers of the product with the weights. -/
abbrev dWgt : DotDims S2000x256 S256x256 S2000x256 := dot_S2000x256_S256x256_S2000x256_1_0_0_1_n_n

/-- The aggregation product's operand indices, coordinate by coordinate: at output index i and contraction index r, the
    left operand is read at (i 0, r) and the right at (r, i 1). -/
theorem agg_lhs_0 (i : S2000x256.Idx) (r : dAgg.contr.Idx) : (dAgg.lhsIdx i r 0).val = (i 0).val := by
  unfold DotDims.lhsIdx
  rw [dif_neg (show ¬(0 : Fin S2000x2000.rank) ∈ dAgg.lhsBatch by decide), dif_pos (show (0 : Fin S2000x2000.rank) ∈ dAgg.lhsNonContracting by decide)]
  rfl
theorem agg_lhs_1 (i : S2000x256.Idx) (r : dAgg.contr.Idx) : (dAgg.lhsIdx i r 1).val = (r ⟨0, by decide⟩).val :=
  dAgg.lhsIdx_val_of_single rfl i r
theorem agg_rhs_0 (i : S2000x256.Idx) (r : dAgg.contr.Idx) : (dAgg.rhsIdx i r 0).val = (r ⟨0, by decide⟩).val :=
  dAgg.rhsIdx_val_of_single rfl i r
theorem agg_rhs_1 (i : S2000x256.Idx) (r : dAgg.contr.Idx) : (dAgg.rhsIdx i r 1).val = (i 1).val := by
  unfold DotDims.rhsIdx
  rw [dif_neg (show ¬(1 : Fin S2000x256.rank) ∈ dAgg.rhsBatch by decide), dif_pos (show (1 : Fin S2000x256.rank) ∈ dAgg.rhsNonContracting by decide)]
  rfl

/-- The aggregation product at row p and feature k: the sum over the 2000 hyperedges e of xA[p,e] · xM[e,k]. -/
theorem agg_apply (xA : FVec Ideal S2000x2000 .bf16) (xM : FVec Ideal S2000x256 .bf16) (p : Fin 2000) (k : Fin 256) :
    matmul dAgg none xA xM (constant (F := Ideal) S2000x256 .f32 0x00000000#32) (ix2 p k)
      = ∑ e : Fin 2000, xA (ix2 p e) * xM (ix2 e k) := by
  simp only [matmul]
  rw [Ideal.matmul_constant_zero_apply, ← Equiv.sum_comp (contrEquiv1 dAgg 2000 rfl rfl).symm]
  refine Finset.sum_congr rfl fun e _ => ?_
  have he := contrEquiv1_symm_val dAgg 2000 rfl rfl e
  have el : dAgg.lhsIdx (ix2 p k) ((contrEquiv1 dAgg 2000 rfl rfl).symm e) = ix2 p e := funext fun a => Fin.ext (by
    match a with
    | ⟨0, _⟩ => exact agg_lhs_0 _ _
    | ⟨1, _⟩ => exact (agg_lhs_1 _ _).trans he)
  have er : dAgg.rhsIdx (ix2 p k) ((contrEquiv1 dAgg 2000 rfl rfl).symm e) = ix2 e k := funext fun a => Fin.ext (by
    match a with
    | ⟨0, _⟩ => exact (agg_rhs_0 _ _).trans he
    | ⟨1, _⟩ => exact agg_rhs_1 _ _)
  rw [el, er]

/-- The weight product's operand indices: the left operand at (i 0, r), the right at (r, i 1). -/
theorem wgt_lhs_0 (i : S2000x256.Idx) (r : dWgt.contr.Idx) : (dWgt.lhsIdx i r 0).val = (i 0).val := by
  unfold DotDims.lhsIdx
  rw [dif_neg (show ¬(0 : Fin S2000x256.rank) ∈ dWgt.lhsBatch by decide), dif_pos (show (0 : Fin S2000x256.rank) ∈ dWgt.lhsNonContracting by decide)]
  rfl
theorem wgt_lhs_1 (i : S2000x256.Idx) (r : dWgt.contr.Idx) : (dWgt.lhsIdx i r 1).val = (r ⟨0, by decide⟩).val :=
  dWgt.lhsIdx_val_of_single rfl i r
theorem wgt_rhs_0 (i : S2000x256.Idx) (r : dWgt.contr.Idx) : (dWgt.rhsIdx i r 0).val = (r ⟨0, by decide⟩).val :=
  dWgt.rhsIdx_val_of_single rfl i r
theorem wgt_rhs_1 (i : S2000x256.Idx) (r : dWgt.contr.Idx) : (dWgt.rhsIdx i r 1).val = (i 1).val := by
  unfold DotDims.rhsIdx
  rw [dif_neg (show ¬(1 : Fin S256x256.rank) ∈ dWgt.rhsBatch by decide), dif_pos (show (1 : Fin S256x256.rank) ∈ dWgt.rhsNonContracting by decide)]
  rfl

/-- The product with the weights at row p and column q: the sum over the 256 features k of u[p,k] · xW[k,q]. -/
theorem wgt_apply (u : FVec Ideal S2000x256 .bf16) (xW : FVec Ideal S256x256 .bf16) (p : Fin 2000) (q : Fin 256) :
    matmul dWgt none u xW (constant (F := Ideal) S2000x256 .f32 0x00000000#32) (ix2 p q)
      = ∑ k : Fin 256, u (ix2 p k) * xW (ix2 k q) := by
  simp only [matmul]
  rw [Ideal.matmul_constant_zero_apply, ← Equiv.sum_comp (contrEquiv1 dWgt 256 rfl rfl).symm]
  refine Finset.sum_congr rfl fun k _ => ?_
  have hk := contrEquiv1_symm_val dWgt 256 rfl rfl k
  have el : dWgt.lhsIdx (ix2 p q) ((contrEquiv1 dWgt 256 rfl rfl).symm k) = ix2 p k := funext fun a => Fin.ext (by
    match a with
    | ⟨0, _⟩ => exact wgt_lhs_0 _ _
    | ⟨1, _⟩ => exact (wgt_lhs_1 _ _).trans hk)
  have er : dWgt.rhsIdx (ix2 p q) ((contrEquiv1 dWgt 256 rfl rfl).symm k) = ix2 k q := funext fun a => Fin.ext (by
    match a with
    | ⟨0, _⟩ => exact (wgt_rhs_0 _ _).trans hk
    | ⟨1, _⟩ => exact wgt_rhs_1 _ _)
  rw [el, er]

/-- A column broadcast along the feature axis reads, at (p, k), the column's entry of row p. -/
theorem col_apply {α : Type} (xE : S2000x1.Idx → α) (h : S2000x1.Broadcasts S2000x256) (p : Fin 2000) (k : Fin 256) :
    broadcastTo S2000x256 xE h (ix2 p k) = xE (ix2 p 0) :=
  broadcastTo_apply xE h (ix2 p k) (ix2 p 0) fun a => by
    match a with
    | ⟨0, _⟩ => rfl
    | ⟨1, _⟩ => rfl

/-- THE PAYLOAD AT AN INDEX. -/
theorem pay_apply (xA : FVec Ideal S2000x2000 .bf16) (xM : FVec Ideal S2000x256 .bf16) (xE : FVec Ideal S2000x1 .f32)
    (xW : FVec Ideal S256x256 .bf16) (p : Fin 2000) (q : Fin 256) :
    k2_pay1 (F := Ideal) xA xM xE xW (ix2 p q)
      = max (∑ k : Fin 256, Ideal.sqrt ((∑ e : Fin 2000, xA (ix2 p e) * xM (ix2 e k)) * xE (ix2 p 0)) * xW (ix2 k q)) 0 := by
  unfold k2_pay1
  simp only [shapeCast_self]
  show max (matmul dWgt none _ xW (constant (F := Ideal) S2000x256 .f32 0x00000000#32) (ix2 p q)) (Ideal.ofBits .f32 0x00000000#32) = _
  rw [Ideal.ofBits_zero_f32]
  refine congrArg (max · 0) ?_
  refine (wgt_apply _ xW p q).trans ?_
  refine Finset.sum_congr rfl fun k _ => ?_
  refine congrArg (· * xW (ix2 k q)) ?_
  show Ideal.sqrt (matmul dAgg none xA xM (constant (F := Ideal) S2000x256 .f32 0x00000000#32) (ix2 p k)
      * broadcastTo S2000x256 xE broadcasts_S2000x1_S2000x256 (ix2 p k)) = _
  rw [agg_apply, col_apply]

end Cert.KernelIdeal.Hand

end
-- ==== Proof.KI.Reg2Value.lean ====
/-
  What region 2 leaves in its output array, as one function of its input arrays.

  The region's arrays, read as plain functions on the extended reals: A the incidence matrix (10000 nodes × 2000
  hyperedges), M the messages (2000 hyperedges × 256 features), W the weights (256 × 256), E the column of reciprocal
  clamped node degrees.  The grid has five points; point t works on the node rows 2000·t … 2000·t + 1999: it is
  handed rows 2000·t … of A and of E, the whole of M and of W, and writes rows 2000·t … of the output.  What it writes
  at local row p and column q is the body's value of its four blocks (the payload, read at an index elsewhere), and
  each block entry is an entry of its array: a block's element sits, on each axis, at block index × block size + its
  own coordinate.  So every point writes ITS rows of ONE whole-array function,

      out[n, j] = max ( Σ_k sqrt( (Σ_e A[n,e] · M[e,k]) · E[n] ) · W[k,j] , 0 ),

  and since the five row blocks cover the 10000 rows, that function is the array after the last point.  When E is the
  reciprocal clamped degree of A, it is the layer's output of the specification.
-/
import proofs.«115026_g27496380629499_cont_9to1_1988_22_alg».proof.Proof.KI.Reg2Frame
import proofs.«115026_g27496380629499_cont_9to1_1988_22_alg».proof.Proof.KI.Reg2Pay
import proofs.«115026_g27496380629499_cont_9to1_1988_22_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- the core's buffer contents when the region is entered, on the extended reals
variable (V : (c : Dev nD) → (b : Ref sig .tc) → Buf (Elt Ideal) ((c : Thread nD τ).loc b))

/-! ## The region's arrays as plain functions -/

/-- The incidence matrix: nodes × hyperedges. -/
abbrev incid (c : Dev nD) : Fin 10000 → Fin 2000 → EReal := fun n e => (V c main_v0 : S10000x2000.Idx → EReal) (ix2 n e)
/-- The messages: hyperedges × features. -/
abbrev msgs (c : Dev nD) : Fin 2000 → Fin 256 → EReal := fun e d => (V c main_v4_0 : S2000x256.Idx → EReal) (ix2 e d)
/-- The weights. -/
abbrev wgts (c : Dev nD) : Fin 256 → Fin 256 → EReal := fun k j => (V c main_v2 : S256x256.Idx → EReal) (ix2 k j)
/-- The column of reciprocal clamped node degrees. -/
abbrev rdeg (c : Dev nD) : Fin 10000 → EReal := fun n => (V c main_v4_1 : S10000x1.Idx → EReal) (ix2 n 0)

/-- The output at node n and column j, from the four arrays. -/
def outAt (A : Fin 10000 → Fin 2000 → EReal) (M : Fin 2000 → Fin 256 → EReal) (W : Fin 256 → Fin 256 → EReal)
    (E : Fin 10000 → EReal) (n : Fin 10000) (j : Fin 256) : EReal :=
  max (∑ k, Ideal.sqrt ((∑ e, A n e * M e k) * E n) * W k j) 0

/-- The same as the contents of the whole output array. -/
def outArr (A : Fin 10000 → Fin 2000 → EReal) (M : Fin 2000 → Fin 256 → EReal) (W : Fin 256 → Fin 256 → EReal)
    (E : Fin 10000 → EReal) : S10000x256.Idx → EReal := fun i => outAt A M W E (i 0) (i 1)

/-- With E the reciprocal clamped degree of A, it is the specification's layer output. -/
theorem outAt_spec (A : Fin 10000 → Fin 2000 → EReal) (M : Fin 2000 → Fin 256 → EReal) (W : Fin 256 → Fin 256 → EReal)
    (n : Fin 10000) (j : Fin 256) : outAt A M W (Cert.Spec.invE A) n j = Cert.Spec.layerOut A M W n j := rfl

/-! ## Where each window's block sits in its array -/

theorem hz : (![0, 0] : Fin 2 → Nat) = fun _ => 0 := funext fun a => by fin_cases a <;> rfl

/-- The block indices at point t, decided over the five points: the incidence block, the reciprocal-degree block and
    the output block are the t-th along the node axis; the messages and the weights are their one whole block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The incidence block at point t, local row p: row 2000·t + p of the incidence matrix. -/
theorem blkA_apply (c : Dev nD) (t : Fin cfg2.N) (p e : Fin 2000) (n : Fin 10000) (hn : n.val = t.val * 2000 + p.val) :
    (iblk2 V c 0 t : Vec Ideal S2000x2000 .bf16) (ix2 p e) = incid V c n e := by
  obtain ⟨h0, h1, -⟩ := idx_facts t
  unfold iblk2
  rw [View.read_apply]
  show V c main_v0 _ = V c main_v0 _
  congr 1
  funext a
  apply Fin.ext
  match a with
  | ⟨0, _⟩ => show win2_0.index t 0 * 2000 + 1 * p.val = n.val; rw [h0, hn]; omega
  | ⟨1, _⟩ => show win2_0.index t 1 * 2000 + 1 * e.val = e.val; rw [h1]; omega

/-- The messages' block at every point is the whole matrix. -/
theorem blkM_apply (c : Dev nD) (t : Fin cfg2.N) (e : Fin 2000) (k : Fin 256) :
    (iblk2 V c 1 t : Vec Ideal S2000x256 .bf16) (ix2 e k) = msgs V c e k := by
  obtain ⟨-, -, h0, h1, -⟩ := idx_facts t
  unfold iblk2
  rw [View.read_apply]
  show V c main_v4_0 _ = V c main_v4_0 _
  congr 1
  funext a
  apply Fin.ext
  match a with
  | ⟨0, _⟩ => show win2_1.index t 0 * 2000 + 1 * e.val = e.val; rw [h0]; omega
  | ⟨1, _⟩ => show win2_1.index t 1 * 256 + 1 * k.val = k.val; rw [h1]; omega

/-- The weights' block at every point is the whole matrix. -/
theorem blkW_apply (c : Dev nD) (t : Fin cfg2.N) (k q : Fin 256) :
    (iblk2 V c 2 t : Vec Ideal S256x256 .bf16) (ix2 k q) = wgts V c k q := by
  obtain ⟨-, -, -, -, h0, h1, -⟩ := idx_facts t
  unfold iblk2
  rw [View.read_apply]
  show V c main_v2 _ = V c main_v2 _
  congr 1
  funext a
  apply Fin.ext
  match a with
  | ⟨0, _⟩ => show win2_2.index t 0 * 256 + 1 * k.val = k.val; rw [h0]; omega
  | ⟨1, _⟩ => show win2_2.index t 1 * 256 + 1 * q.val = q.val; rw [h1]; omega

/-- The reciprocal-degree block at point t, local row p: entry 2000·t + p of the column. -/
theorem blkE_apply (c : Dev nD) (t : Fin cfg2.N) (p : Fin 2000) (n : Fin 10000) (hn : n.val = t.val * 2000 + p.val) :
    (iblk2 V c 3 t : Vec Ideal S2000x1 .f32) (ix2 p 0) = rdeg V c n := by
  obtain ⟨-, -, -, -, -, -, h0, h1, -⟩ := idx_facts t
  unfold iblk2
  rw [View.read_apply]
  show V c main_v4_1 _ = V c main_v4_1 _
  congr 1
  funext a
  apply Fin.ext
  match a with
  | ⟨0, _⟩ => show win2_3.index t 0 * 2000 + 1 * p.val = n.val; rw [h0, hn]; omega
  | ⟨1, _⟩ => show win2_3.index t 1 * 1 + 1 * 0 = 0; rw [h1]

/-! ## What a point writes back -/

/-- The body's value of the four blocks at point t, at a block index j, is the whole-array function at node
    2000·t + (j's row) and j's column: the payload at the index, then each block entry as its array's entry. -/
theorem body_at (c : Dev nD) (t : Fin cfg2.N) (j : S2000x256.Idx) (n : Fin 10000) (q : Fin 256)
    (hn : n.val = t.val * 2000 + (j 0).val) (hq : q.val = (j 1).val) :
    k2_pay1 (F := Ideal) (iblk2 V c 0 t) (iblk2 V c 1 t) (iblk2 V c 3 t) (iblk2 V c 2 t) j
      = outAt (incid V c) (msgs V c) (wgts V c) (rdeg V c) n q := by
  obtain ⟨p, q', rfl⟩ : ∃ (p : Fin 2000) (q' : Fin 256), j = ix2 p q' := ⟨j 0, j 1, eq_ix2 j⟩
  obtain rfl : q = q' := Fin.ext hq
  refine (pay_apply (iblk2 V c 0 t) (iblk2 V c 1 t) (iblk2 V c 3 t) (iblk2 V c 2 t) p q).trans ?_
  unfold outAt
  refine congrArg (max · 0) ?_
  refine Finset.sum_congr rfl fun k _ => ?_
  rw [blkE_apply V c t p n hn, blkW_apply V c t k q]
  refine congrArg (fun s => Ideal.sqrt (s * rdeg V c n) * wgts V c k q) ?_
  refine Finset.sum_congr rfl fun e _ => ?_
  rw [blkA_apply V c t p e n hn, blkM_apply V c t e k]

/-- WHAT POINT t WRITES BACK is block t of the whole-array function of the region's input arrays. -/
theorem flushed_eq (c : Dev nD) (t : Fin cfg2.N) :
    (dat2 V c).flushed 4 t
      = ((cfg2.win 4).blk t).view.read (Elt Ideal) (outArr (incid V c) (msgs V c) (wgts V c) (rdeg V c)) := by
  obtain ⟨-, -, -, -, -, -, -, -, h0, h1⟩ := idx_facts t
  show (cfg2.win 4).cut (grid2.coords t) ((dat2 V c).after 4 t) = _
  rw [after2_4]
  unfold out2_4
  rw [View.canon_unit_zero hz]
  simp only [View.ld_unit_zero (S := S2000x2000) hz, View.ld_unit_zero (S := S2000x256) hz,
    View.ld_unit_zero (S := S256x256) hz, View.ld_unit_zero (S := S2000x1) hz]
  funext j
  rw [View.read_apply]
  show k2_pay1 (F := Ideal) (iblk2 V c 0 t) (iblk2 V c 1 t) (iblk2 V c 3 t) (iblk2 V c 2 t) j
    = outAt (incid V c) (msgs V c) (wgts V c) (rdeg V c) ((((cfg2.win 4).blk t).view.emb j) 0) ((((cfg2.win 4).blk t).view.emb j) 1)
  refine body_at V c t j _ _ ?_ ?_
  · show win2_4.index t 0 * 2000 + 1 * (j 0).val = t.val * 2000 + (j 0).val; rw [h0]; omega
  · show win2_4.index t 1 * 256 + 1 * (j 1).val = (j 1).val; rw [h1]; omega

/-! ## From the blocks to the array -/

/-- An index of the output array is in point t's block iff each coordinate is in the block's range on its axis. -/
theorem mem_blk (t : Fin cfg2.N) (i : S10000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v5).slice (win2_4.rect t)).set ↔ _
  rw [View.set_slice_whole, Rect.mem_set_unit]
  exact Iff.rfl

/-- Every index of the output array is in the block of the point its row falls in: row r is in block r / 2000. -/
theorem covered (i : S10000x256.Idx) :
    ∃ t : Fin cfg2.N, (cfg2.win 4).flush t = true ∧ i ∈ ((cfg2.win 4).blk t).view.set := by
  have hi0 : (i 0).val < 10000 := idx2_lt0 i
  have hi1 : (i 1).val < 256 := idx2_lt1 i
  have hN : cfg2.N = 5 := N_2
  have ht : (i 0).val / 2000 < cfg2.N := by rw [hN]; omega
  obtain ⟨-, -, -, -, -, -, -, -, h0, h1⟩ := idx_facts ⟨(i 0).val / 2000, ht⟩
  refine ⟨⟨(i 0).val / 2000, ht⟩, flush2_4 _, ?_⟩
  rw [mem_blk]
  intro a
  match a with
  | ⟨0, _⟩ =>
    show win2_4.index ⟨(i 0).val / 2000, ht⟩ 0 * 2000 ≤ (i 0).val ∧ (i 0).val < win2_4.index ⟨(i 0).val / 2000, ht⟩ 0 * 2000 + 2000
    rw [h0]; show (i 0).val / 2000 * 2000 ≤ (i 0).val ∧ (i 0).val < (i 0).val / 2000 * 2000 + 2000; omega
  | ⟨1, _⟩ =>
    show win2_4.index ⟨(i 0).val / 2000, ht⟩ 1 * 256 ≤ (i 1).val ∧ (i 1).val < win2_4.index ⟨(i 0).val / 2000, ht⟩ 1 * 256 + 256
    rw [h1]; omega

/-- THE OUTPUT ARRAY after the last point: the whole-array function of the region's input arrays. -/
theorem arr_eq (c : Dev nD) :
    (dat2 V c).arrAt 4 cfg2.N = outArr (incid V c) (msgs V c) (wgts V c) (rdeg V c) :=
  (dat2 V c).arrAt_eq_of_cover 4 _ (fun t _ => flushed_eq V c t) covered

/-- Read at node n and column j; with the reciprocal-degree column equal to the reciprocal clamped degree of the
    incidence matrix, the specification's layer output. -/
theorem out_apply (c : Dev nD) (hinve : ∀ n : Fin 10000, rdeg V c n = Cert.Spec.invE (incid V c) n) (n : Fin 10000) (j : Fin 256) :
    (dat2 V c).arrAt 4 cfg2.N (ix2 n j) = Cert.Spec.layerOut (incid V c) (msgs V c) (wgts V c) n j := by
  rw [arr_eq]
  show outAt (incid V c) (msgs V c) (wgts V c) (rdeg V c) n j = _
  rw [show rdeg V c = Cert.Spec.invE (incid V c) from funext hinve]
  rfl

end Cert.KernelIdeal.Hand

end
-- ==== Proof.KI.Reg1Pay.lean ====
/-
  Region 1 (the second layer's aggregation): the body's payloads read at an index, on the extended reals.

  On a block of 2000 nodes with incidence block A_blk, first-layer messages M1 and weights W1:
    z_aug = A_blk · [M1 | 1]          column 256 of z_aug is the row sum of A_blk, the node's degree
    inve  = 1 / max(deg, 1)
    u     = sqrt(z · inve)            z the first 256 columns of z_aug
    h     = max(u · W1, 0)
    part  = (h∘h)ᵀ · A_blk            the block's contribution to the accumulator
  and at the last point  m2 = (S ∘ invn)ᵀ  for the finished accumulator S.
  Rounding to bf16 is the identity here; a product into the zero accumulator is the plain sum over the contracted axis.
-/
import proofs.«115026_g27496380629499_cont_9to1_1988_22_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand.R1

open Cert.KernelIdeal Cert.KernelIdeal.Gen
open Idealize.ShloMosaic Idealize.ShloMosaic.ValueIdx
open scoped BigOperators

/-! ## Constants -/

/-- The bf16 word of one is the extended real one. -/
theorem one_bf16 : Ideal.ofBits .bf16 0x3F80#16 = 1 := by
  simp [Ideal.ofBits, Ideal.ieee, -EReal.coe_mul]; norm_num
/-- The f32 word of one is the extended real one. -/
theorem one_f32 : Ideal.ofBits .f32 0x3F800000#32 = 1 := by
  simp [Ideal.ofBits, Ideal.ieee, -EReal.coe_mul]; norm_num

/-! ## The three products -/

/-- incidence block times augmented messages: contracts the hyperedge axis. -/
abbrev DZ := dot_S2000x2000_S2000x384_S2000x384_1_0_0_1_n_n
/-- aggregate times weights: contracts the feature axis. -/
abbrev DH := dot_S2000x256_S256x256_S2000x256_1_0_0_1_n_n
/-- squared layer output, transposed, times incidence block: contracts the node axis. -/
abbrev DP := dot_S2000x256_S2000x2000_S256x2000_0_0_1_1_n_n

theorem DZ_lhs0 (j : S2000x384.Idx) (k : DZ.contr.Idx) : (DZ.lhsIdx j k 0).val = (j 0).val := by
  unfold DotDims.lhsIdx
  rw [dif_neg (show ¬(0 : Fin S2000x2000.rank) ∈ DZ.lhsBatch by decide), dif_pos (show (0 : Fin S2000x2000.rank) ∈ DZ.lhsNonContracting by decide)]
  rfl
theorem DZ_lhs1 (j : S2000x384.Idx) (k : DZ.contr.Idx) : (DZ.lhsIdx j k 1).val = (k ⟨0, by decide⟩).val :=
  DZ.lhsIdx_val_of_single rfl j k
theorem DZ_rhs0 (j : S2000x384.Idx) (k : DZ.contr.Idx) : (DZ.rhsIdx j k 0).val = (k ⟨0, by decide⟩).val :=
  DZ.rhsIdx_val_of_single rfl j k
theorem DZ_rhs1 (j : S2000x384.Idx) (k : DZ.contr.Idx) : (DZ.rhsIdx j k 1).val = (j 1).val := by
  unfold DotDims.rhsIdx
  rw [dif_neg (show ¬(1 : Fin S2000x384.rank) ∈ DZ.rhsBatch by decide), dif_pos (show (1 : Fin S2000x384.rank) ∈ DZ.rhsNonContracting by decide)]
  rfl

/-- The first product at an index: row `p` of the left factor against column `q` of the right. -/
theorem DZ_apply (l : FVec Ideal S2000x2000 .bf16) (r : FVec Ideal S2000x384 .bf16) (p : Fin 2000) (q : Fin 384) :
    FloatOps.matmul DZ none l r (constant S2000x384 .f32 0x00000000#32) (ix2 p q) = ∑ e : Fin 2000, l (ix2 p e) * r (ix2 e q) := by
  rw [Ideal.matmul_constant_zero_apply, ← Equiv.sum_comp (contrEquiv1 DZ 2000 rfl rfl).symm]
  refine Finset.sum_congr rfl fun k _ => ?_
  have hk := contrEquiv1_symm_val DZ 2000 rfl rfl k
  have el : DZ.lhsIdx (ix2 p q) ((contrEquiv1 DZ 2000 rfl rfl).symm k) = ix2 p k := funext fun a => Fin.ext (by
    match a with
    | ⟨0, _⟩ => exact DZ_lhs0 _ _
    | ⟨1, _⟩ => exact (DZ_lhs1 _ _).trans hk)
  have er : DZ.rhsIdx (ix2 p q) ((contrEquiv1 DZ 2000 rfl rfl).symm k) = ix2 k q := funext fun a => Fin.ext (by
    match a with
    | ⟨0, _⟩ => exact (DZ_rhs0 _ _).trans hk
    | ⟨1, _⟩ => exact DZ_rhs1 _ _)
  rw [el, er]

theorem DH_lhs0 (j : S2000x256.Idx) (k : DH.contr.Idx) : (DH.lhsIdx j k 0).val = (j 0).val := by
  unfold DotDims.lhsIdx
  rw [dif_neg (show ¬(0 : Fin S2000x256.rank) ∈ DH.lhsBatch by decide), dif_pos (show (0 : Fin S2000x256.rank) ∈ DH.lhsNonContracting by decide)]
  rfl
theorem DH_lhs1 (j : S2000x256.Idx) (k : DH.contr.Idx) : (DH.lhsIdx j k 1).val = (k ⟨0, by decide⟩).val :=
  DH.lhsIdx_val_of_single rfl j k
theorem DH_rhs0 (j : S2000x256.Idx) (k : DH.contr.Idx) : (DH.rhsIdx j k 0).val = (k ⟨0, by decide⟩).val :=
  DH.rhsIdx_val_of_single rfl j k
theorem DH_rhs1 (j : S2000x256.Idx) (k : DH.contr.Idx) : (DH.rhsIdx j k 1).val = (j 1).val := by
  unfold DotDims.rhsIdx
  rw [dif_neg (show ¬(1 : Fin S256x256.rank) ∈ DH.rhsBatch by decide), dif_pos (show (1 : Fin S256x256.rank) ∈ DH.rhsNonContracting by decide)]
  rfl

/-- The second product at an index. -/
theorem DH_apply (l : FVec Ideal S2000x256 .bf16) (r : FVec Ideal S256x256 .bf16) (p : Fin 2000) (j : Fin 256) :
    FloatOps.matmul DH none l r (constant S2000x256 .f32 0x00000000#32) (ix2 p j) = ∑ k : Fin 256, l (ix2 p k) * r (ix2 k j) := by
  rw [Ideal.matmul_constant_zero_apply, ← Equiv.sum_comp (contrEquiv1 DH 256 rfl rfl).symm]
  refine Finset.sum_congr rfl fun k _ => ?_
  have hk := contrEquiv1_symm_val DH 256 rfl rfl k
  have el : DH.lhsIdx (ix2 p j) ((contrEquiv1 DH 256 rfl rfl).symm k) = ix2 p k := funext fun a => Fin.ext (by
    match a with
    | ⟨0, _⟩ => exact DH_lhs0 _ _
    | ⟨1, _⟩ => exact (DH_lhs1 _ _).trans hk)
  have er : DH.rhsIdx (ix2 p j) ((contrEquiv1 DH 256 rfl rfl).symm k) = ix2 k j := funext fun a => Fin.ext (by
    match a with
    | ⟨0, _⟩ => exact (DH_rhs0 _ _).trans hk
    | ⟨1, _⟩ => exact DH_rhs1 _ _)
  rw [el, er]

theorem DP_lhs0 (j : S256x2000.Idx) (k : DP.contr.Idx) : (DP.lhsIdx j k 0).val = (k ⟨0, by decide⟩).val :=
  DP.lhsIdx_val_of_single rfl j k
theorem DP_lhs1 (j : S256x2000.Idx) (k : DP.contr.Idx) : (DP.lhsIdx j k 1).val = (j 0).val := by
  unfold DotDims.lhsIdx
  rw [dif_neg (show ¬(1 : Fin S2000x256.rank) ∈ DP.lhsBatch by decide), dif_pos (show (1 : Fin S2000x256.rank) ∈ DP.lhsNonContracting by decide)]
  rfl
theorem DP_rhs0 (j : S256x2000.Idx) (k : DP.contr.Idx) : (DP.rhsIdx j k 0).val = (k ⟨0, by decide⟩).val :=
  DP.rhsIdx_val_of_single rfl j k
theorem DP_rhs1 (j : S256x2000.Idx) (k : DP.contr.Idx) : (DP.rhsIdx j k 1).val = (j 1).val := by
  unfold DotDims.rhsIdx
  rw [dif_neg (show ¬(1 : Fin S2000x2000.rank) ∈ DP.rhsBatch by decide), dif_pos (show (1 : Fin S2000x2000.rank) ∈ DP.rhsNonContracting by decide)]
  rfl

/-- The third product at an index: column `d` of the left factor against column `e` of the right. -/
theorem DP_apply (l : FVec Ideal S2000x256 .bf16) (r : FVec Ideal S2000x2000 .bf16) (d : Fin 256) (e : Fin 2000) :
    FloatOps.matmul DP none l r (constant S256x2000 .f32 0x00000000#32) (ix2 d e) = ∑ p : Fin 2000, l (ix2 p d) * r (ix2 p e) := by
  rw [Ideal.matmul_constant_zero_apply, ← Equiv.sum_comp (contrEquiv1 DP 2000 rfl rfl).symm]
  refine Finset.sum_congr rfl fun k _ => ?_
  have hk := contrEquiv1_symm_val DP 2000 rfl rfl k
  have el : DP.lhsIdx (ix2 d e) ((contrEquiv1 DP 2000 rfl rfl).symm k) = ix2 k d := funext fun a => Fin.ext (by
    match a with
    | ⟨0, _⟩ => exact (DP_lhs0 _ _).trans hk
    | ⟨1, _⟩ => exact DP_lhs1 _ _)
  have er : DP.rhsIdx (ix2 d e) ((contrEquiv1 DP 2000 rfl rfl).symm k) = ix2 k e := funext fun a => Fin.ext (by
    match a with
    | ⟨0, _⟩ => exact (DP_rhs0 _ _).trans hk
    | ⟨1, _⟩ => exact DP_rhs1 _ _)
  rw [el, er]

/-! ## The block's quantities, as plain functions of the loaded blocks

`x0` is the incidence block (2000 nodes by 2000 hyperedges), `x1` the first layer's messages (hyperedges by
features), `x2` the weights. -/

/-- The node's degree within the block's rows: the row sum of the incidence block. -/
def degB (x0 : FVec Ideal S2000x2000 .bf16) (p : Fin 2000) : EReal := ∑ e : Fin 2000, x0 (ix2 p e)
/-- Its clamped reciprocal. -/
def inveB (x0 : FVec Ideal S2000x2000 .bf16) (p : Fin 2000) : EReal := Ideal.div 1 (max (degB x0 p) 1)
/-- The node's aggregate: square root of the mean message over its hyperedges. -/
def rootB (x0 : FVec Ideal S2000x2000 .bf16) (x1 : FVec Ideal S2000x256 .bf16) (p : Fin 2000) (k : Fin 256) : EReal :=
  Ideal.sqrt ((∑ e : Fin 2000, x0 (ix2 p e) * x1 (ix2 e k)) * inveB x0 p)
/-- The layer's output on the block: the rectified product with the weights. -/
def outB (x0 : FVec Ideal S2000x2000 .bf16) (x1 : FVec Ideal S2000x256 .bf16) (x2 : FVec Ideal S256x256 .bf16) (p : Fin 2000) (j : Fin 256) : EReal :=
  max (∑ k : Fin 256, rootB x0 x1 p k * x2 (ix2 k j)) 0
/-- The block's contribution to the accumulator: squared outputs summed over the block's nodes, by hyperedge. -/
def partB (x0 : FVec Ideal S2000x2000 .bf16) (x1 : FVec Ideal S2000x256 .bf16) (x2 : FVec Ideal S256x256 .bf16) (d : Fin 256) (e : Fin 2000) : EReal :=
  ∑ p : Fin 2000, (outB x0 x1 x2 p d * outB x0 x1 x2 p d) * x0 (ix2 p e)

/-! ## The augmented messages: the messages with columns of ones appended -/

/-- Left of column 256 the augmented messages are the messages. -/
theorem aug_lo (x1 : FVec Ideal S2000x256 .bf16) (e : Fin 2000) (q : Fin 384) (hq : q.val < 256) :
    concatenate S2000x384 1 [⟨S2000x256, shapeCast S2000x256 x1 shapeCasts_S2000x256_S2000x256⟩,
      ⟨S2000x128, broadcast S2000x128 (Scalar.ofBits (F := Ideal) .bf16 0x3F80#16)⟩] concatenates_S2000x256_S2000x128_S2000x384_d1 (ix2 e q)
      = x1 (ix2 e ⟨q.val, hq⟩) := by
  rw [shapeCast_self]
  exact concatenate_pair_apply_left (1 : Fin S2000x384.rank) x1 _ concatenates_S2000x256_S2000x128_S2000x384_d1 (ix2 e q) rfl (ix2 e ⟨q.val, hq⟩)
    (fun b => by match b with | ⟨0, _⟩ => rfl | ⟨1, _⟩ => rfl)

/-- Column 256 of the augmented messages is a column of ones. -/
theorem aug_one (x1 : FVec Ideal S2000x256 .bf16) (e : Fin 2000) :
    concatenate S2000x384 1 [⟨S2000x256, shapeCast S2000x256 x1 shapeCasts_S2000x256_S2000x256⟩,
      ⟨S2000x128, broadcast S2000x128 (Scalar.ofBits (F := Ideal) .bf16 0x3F80#16)⟩] concatenates_S2000x256_S2000x128_S2000x384_d1 (ix2 e (⟨256, by decide⟩ : Fin 384))
      = 1 := by
  refine (concatenate_pair_apply_right (1 : Fin S2000x384.rank) _ _ concatenates_S2000x256_S2000x128_S2000x384_d1 (ix2 e (⟨256, by decide⟩ : Fin 384)) rfl rfl
    (ix2 e (⟨0, by decide⟩ : Fin 128)) (fun b hb => by match b with | ⟨0, _⟩ => rfl | ⟨1, _⟩ => exact absurd rfl hb) (by rfl)).trans ?_
  exact one_bf16

/-! ## The payloads at an index -/

/-- The first product's payload left of column 256: the incidence block times the messages. -/
theorem pay3_lo (x0 : FVec Ideal S2000x2000 .bf16) (x1 : FVec Ideal S2000x256 .bf16) (p : Fin 2000) (q : Fin 384) (hq : q.val < 256) :
    k1_pay3 (F := Ideal) x0 x1 (ix2 p q) = ∑ e : Fin 2000, x0 (ix2 p e) * x1 (ix2 e ⟨q.val, hq⟩) := by
  unfold k1_pay3 k1_pay2
  simp only [matmul]
  rw [DZ_apply, shapeCast_self]
  exact Finset.sum_congr rfl fun e _ => by rw [aug_lo x1 e q hq]

/-- Its column 256: the row sums of the incidence block. -/
theorem pay3_deg (x0 : FVec Ideal S2000x2000 .bf16) (x1 : FVec Ideal S2000x256 .bf16) (p : Fin 2000) :
    k1_pay3 (F := Ideal) x0 x1 (ix2 p (⟨256, by decide⟩ : Fin 384)) = degB x0 p := by
  unfold k1_pay3 k1_pay2 degB
  simp only [matmul]
  rw [DZ_apply, shapeCast_self]
  exact Finset.sum_congr rfl fun e _ => by rw [aug_one x1 e, mul_one]

/-- The stored reciprocal degrees. -/
theorem pay4_apply (x0 : FVec Ideal S2000x2000 .bf16) (x1 : FVec Ideal S2000x256 .bf16) (p : Fin 2000) :
    k1_pay4 (F := Ideal) x0 x1 (ix2 p (0 : Fin 1)) = inveB x0 p := by
  unfold k1_pay4 inveB
  rw [divf_apply, maximumf_apply, broadcast_apply]
  rw [extractStridedSlice_apply ![0, 256] (k1_pay3 (F := Ideal) x0 x1) slices_S2000x384_o0_256_S2000x1 (ix2 p (0 : Fin 1)) (ix2 p (⟨256, by decide⟩ : Fin 384))
    (fun a => by match a with | ⟨0, _⟩ => simp | ⟨1, _⟩ => rfl)]
  rw [pay3_deg]
  show Ideal.div (Ideal.ofBits .f32 0x3F800000#32) (max (degB x0 p) (Ideal.ofBits .f32 0x3F800000#32)) = _
  rw [one_f32]

/-- A square root at an index is the square root of the element. -/
theorem sqrt_apply {s : Shape} {φ : FTy} (a : FVec Ideal s φ) (i : s.Idx) : sqrt a i = Ideal.sqrt (a i) := rfl

/-- The aggregate as the vector the second product takes. -/
def rootV (x0 : FVec Ideal S2000x2000 .bf16) (x1 : FVec Ideal S2000x256 .bf16) : FVec Ideal S2000x256 .bf16 :=
  truncf .bf16 (sqrt (mulf (extractStridedSlice S2000x256 ![0, 0] (k1_pay3 (F := Ideal) x0 x1) slices_S2000x384_o0_0_S2000x256)
    (broadcastTo S2000x256 (k1_pay4 (F := Ideal) x0 x1) broadcasts_S2000x1_S2000x256))) bitsLt_bf16_f32

theorem rootV_apply (x0 : FVec Ideal S2000x2000 .bf16) (x1 : FVec Ideal S2000x256 .bf16) (p : Fin 2000) (k : Fin 256) :
    rootV x0 x1 (ix2 p k) = rootB x0 x1 p k := by
  unfold rootV rootB
  rw [truncf_apply, sqrt_apply, mulf_apply,
    extractStridedSlice_apply ![0, 0] (k1_pay3 (F := Ideal) x0 x1) slices_S2000x384_o0_0_S2000x256 (ix2 p k) (ix2 p (⟨k.val, by omega⟩ : Fin 384))
      (fun a => by match a with | ⟨0, _⟩ => simp | ⟨1, _⟩ => simp),
    broadcastTo_apply (k1_pay4 (F := Ideal) x0 x1) broadcasts_S2000x1_S2000x256 (ix2 p k) (ix2 p (0 : Fin 1))
      (fun a => by match a with | ⟨0, _⟩ => rfl | ⟨1, _⟩ => rfl),
    pay3_lo x0 x1 p _ k.isLt, pay4_apply]

/-- The layer's output on the block as a vector. -/
def outV (x0 : FVec Ideal S2000x2000 .bf16) (x1 : FVec Ideal S2000x256 .bf16) (x2 : FVec Ideal S256x256 .bf16) : FVec Ideal S2000x256 .f32 :=
  maximumf (matmul DH none (rootV x0 x1) (shapeCast S256x256 x2 shapeCasts_S256x256_S256x256) (constant S2000x256 .f32 0x00000000#32))
    (broadcast S2000x256 (Scalar.ofBits (F := Ideal) .f32 0x00000000#32))

theorem outV_apply (x0 : FVec Ideal S2000x2000 .bf16) (x1 : FVec Ideal S2000x256 .bf16) (x2 : FVec Ideal S256x256 .bf16) (p : Fin 2000) (j : Fin 256) :
    outV x0 x1 x2 (ix2 p j) = outB x0 x1 x2 p j := by
  unfold outV outB
  rw [maximumf_apply, broadcast_apply]
  simp only [matmul]
  rw [DH_apply, shapeCast_self]
  show max (∑ k : Fin 256, rootV x0 x1 (ix2 p k) * x2 (ix2 k j)) (Ideal.ofBits .f32 0x00000000#32) = _
  rw [Ideal.ofBits_zero_f32]
  exact congrArg (max · 0) (Finset.sum_congr rfl fun k _ => by rw [rootV_apply])

/-- The block's contribution, the third product's payload. -/
theorem pay5_apply (x0 : FVec Ideal S2000x2000 .bf16) (x1 : FVec Ideal S2000x256 .bf16) (x2 : FVec Ideal S256x256 .bf16) (d : Fin 256) (e : Fin 2000) :
    k1_pay5 (F := Ideal) x0 x1 x2 (ix2 d e) = partB x0 x1 x2 d e := by
  show FloatOps.matmul DP none (truncf .bf16 (mulf (outV x0 x1 x2) (outV x0 x1 x2)) bitsLt_bf16_f32)
    (shapeCast S2000x2000 x0 shapeCasts_S2000x2000_S2000x2000) (constant S256x2000 .f32 0x00000000#32) (ix2 d e) = _
  rw [DP_apply, shapeCast_self]
  unfold partB
  exact Finset.sum_congr rfl fun p _ => by rw [truncf_apply, mulf_apply, outV_apply]

/-- What the first point stores in the accumulator. -/
theorem pay6_apply (x0 : FVec Ideal S2000x2000 .bf16) (x1 : FVec Ideal S2000x256 .bf16) (x2 : FVec Ideal S256x256 .bf16) (d : Fin 256) (e : Fin 2000) :
    k1_pay6 (F := Ideal) x0 x1 x2 (ix2 d e) = partB x0 x1 x2 d e := by
  unfold k1_pay6
  rw [shapeCast_self]
  exact pay5_apply x0 x1 x2 d e

/-- What a later point stores in the accumulator: what it held plus the block's contribution. -/
theorem pay7_apply (x0 : FVec Ideal S2000x2000 .bf16) (x1 : FVec Ideal S2000x256 .bf16) (x2 : FVec Ideal S256x256 .bf16) (s : FVec Ideal S256x2000 .f32)
    (d : Fin 256) (e : Fin 2000) :
    k1_pay7 (F := Ideal) x0 x1 x2 s (ix2 d e) = s (ix2 d e) + partB x0 x1 x2 d e := by
  unfold k1_pay7
  rw [shapeCast_self, addf_apply, pay5_apply]

/-- The stored messages: the accumulator scaled by the reciprocal hyperedge sizes, transposed. -/
theorem pay1_apply (s : FVec Ideal S256x2000 .f32) (x3 : FVec Ideal S1x2000 .f32) (e : Fin 2000) (d : Fin 256) :
    k1_pay1 (F := Ideal) s x3 (ix2 e d) = s (ix2 d e) * x3 (ix2 (0 : Fin 1) e) := by
  unfold k1_pay1
  rw [transpose_apply [1, 0] _ transposes_S256x2000_p1_0_S2000x256 (ix2 e d) (ix2 d e)
      (fun b => by match b with | ⟨0, _⟩ => rfl | ⟨1, _⟩ => rfl),
    truncf_apply, mulf_apply,
    broadcastTo_apply _ broadcasts_S1x2000_S256x2000 (ix2 d e) (ix2 (0 : Fin 1) e)
      (fun a => by match a with | ⟨0, _⟩ => rfl | ⟨1, _⟩ => rfl),
    shapeCast_self]

end Cert.KernelIdeal.Hand.R1

end
-- ==== Proof.KI.Reg1Value.lean ====
/-
  Region 1 (the second layer's aggregation): the value half, on the extended reals.  What the region leaves in its two
  output arrays after the last grid point, index by index, as the specification's functions of its input arrays.

  With A the incidence matrix (nodes by hyperedges), M1 the first layer's hyperedge messages and W1 its weights, as the
  region finds them:
    the degrees' array holds        invE A n = 1 / max(Σ_e A n e, 1)                           at node n;
    the messages' array holds       edgeMean A Y e d = (Σ_n (Y n d)² · A n e) · invN A e        at hyperedge e, feature d,
  where Y = layerOut A M1 W1 is the first layer's output, provided the row of reciprocal hyperedge sizes the region
  finds is invN A.  The road: each block's stored quantities are the specification's at the block's nodes (node p of
  block t is node 2000·t + p); the accumulator after point n is the sum of the contributions of blocks 0..n, so after
  the last point the sum over all 10000 nodes; an output array's element is what the point whose block holds it wrote.
-/
import proofs.«115026_g27496380629499_cont_9to1_1988_22_alg».proof.Proof.KI.Reg1Frame
import proofs.«115026_g27496380629499_cont_9to1_1988_22_alg».proof.Proof.KI.Reg1Pay
import proofs.«115026_g27496380629499_cont_9to1_1988_22_alg».proof.Proof.Spec
import Idealize.ShloMosaic.Lib.Pipeline.Value

set_option maxRecDepth 16384

noncomputable section

namespace Cert.KernelIdeal.Hand.R1

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

-- the core's buffer contents when the region is entered
variable (V : (c : Dev nD) → (b : Ref sig .tc) → Buf (Elt Ideal) ((c : Thread nD τ).loc b))

/-! ## The region's input arrays as plain functions -/

/-- The incidence matrix, nodes by hyperedges. -/
def incA (c : Dev nD) : Fin 10000 → Fin 2000 → EReal := fun n e => V c main_v0 (ix2 n e)
/-- The first layer's hyperedge messages, hyperedges by features. -/
def msgM (c : Dev nD) : Fin 2000 → Fin 256 → EReal := fun e d => V c main_v3_0 (ix2 e d)
/-- The first layer's weights. -/
def wgtW (c : Dev nD) : Fin 256 → Fin 256 → EReal := fun k j => V c main_v1 (ix2 k j)

/-- Node `p` of block `t` is node `2000·t + p` of the graph. -/
def row (t : Fin cfg1.N) (p : Fin 2000) : Fin 10000 :=
  ⟨t.val * 2000 + p.val, by have := t.isLt; have hN : cfg1.N = 5 := N_1; have := p.isLt; omega⟩

/-! ## Sums over the nodes, block by block -/

/-- A node is a block and a position in the block. -/
def blockEquiv : Fin 5 × Fin 2000 ≃ Fin 10000 where
  toFun bp := ⟨bp.1.val * 2000 + bp.2.val, by have := bp.1.isLt; have := bp.2.isLt; omega⟩
  invFun n := (⟨n.val / 2000, by have := n.isLt; omega⟩, ⟨n.val % 2000, Nat.mod_lt _ (by decide)⟩)
  left_inv bp := by
    obtain ⟨b, p⟩ := bp
    have := p.isLt
    refine Prod.ext (Fin.ext ?_) (Fin.ext ?_)
    · show (b.val * 2000 + p.val) / 2000 = b.val; omega
    · show (b.val * 2000 + p.val) % 2000 = p.val; omega
  right_inv n := by
    refine Fin.ext ?_
    show n.val / 2000 * 2000 + n.val % 2000 = n.val; omega

/-- The sum over the 10000 nodes is the sum over the 5 blocks of the sums over each block's 2000 nodes. -/
theorem sum_blocks (f : Fin 10000 → EReal) :
    ∑ n : Fin 10000, f n = ∑ b : Fin 5, ∑ p : Fin 2000, f (blockEquiv (b, p)) := by
  rw [← Equiv.sum_comp blockEquiv f, Fintype.sum_prod_type]

/-! ## The windows' blocks, read where the arrays' indices say -/

/-- The printed index maps, decided over the grid: the incidence block and the degrees' block move with the point along
    the node axis; every other window stays at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blkA_apply (c : Dev nD) (t : Fin cfg1.N) (p e : Fin 2000) :
    iblk1 V c 0 t (ix2 p e) = incA V c (row t p) e := by
  obtain ⟨e0, e1, -⟩ := idx_facts1 t
  show V c main_v0 (((cfg1.win 0).blk t).view.emb (ix2 p e)) = V c main_v0 (ix2 (row t p) e)
  refine congrArg (V c main_v0) (funext fun a => Fin.ext ?_)
  match a with
  | ⟨0, _⟩ => show win1_0.index t (0 : Fin 2) * 2000 + 1 * p.val = t.val * 2000 + p.val; omega
  | ⟨1, _⟩ => show win1_0.index t (1 : Fin 2) * 2000 + 1 * e.val = e.val; omega

theorem blkM_apply (c : Dev nD) (t : Fin cfg1.N) (e : Fin 2000) (d : Fin 256) :
    iblk1 V c 1 t (ix2 e d) = msgM V c e d := by
  obtain ⟨-, -, e0, e1, -⟩ := idx_facts1 t
  show V c main_v3_0 (((cfg1.win 1).blk t).view.emb (ix2 e d)) = V c main_v3_0 (ix2 e d)
  refine congrArg (V c main_v3_0) (funext fun a => Fin.ext ?_)
  match a with
  | ⟨0, _⟩ => show win1_1.index t (0 : Fin 2) * 2000 + 1 * e.val = e.val; omega
  | ⟨1, _⟩ => show win1_1.index t (1 : Fin 2) * 256 + 1 * d.val = d.val; omega

theorem blkW_apply (c : Dev nD) (t : Fin cfg1.N) (k j : Fin 256) :
    iblk1 V c 2 t (ix2 k j) = wgtW V c k j := by
  obtain ⟨-, -, -, -, e0, e1, -⟩ := idx_facts1 t
  show V c main_v1 (((cfg1.win 2).blk t).view.emb (ix2 k j)) = V c main_v1 (ix2 k j)
  refine congrArg (V c main_v1) (funext fun a => Fin.ext ?_)
  match a with
  | ⟨0, _⟩ => show win1_2.index t (0 : Fin 2) * 256 + 1 * k.val = k.val; omega
  | ⟨1, _⟩ => show win1_2.index t (1 : Fin 2) * 256 + 1 * j.val = j.val; omega

theorem blkN_apply (c : Dev nD) (t : Fin cfg1.N) (e : Fin 2000) :
    iblk1 V c 3 t (ix2 (0 : Fin 1) e) = V c main_v3_1 (ix2 (0 : Fin 1) e) := by
  obtain ⟨-, -, -, -, -, -, e0, e1, -⟩ := idx_facts1 t
  show V c main_v3_1 (((cfg1.win 3).blk t).view.emb (ix2 (0 : Fin 1) e)) = V c main_v3_1 (ix2 (0 : Fin 1) e)
  refine congrArg (V c main_v3_1) (funext fun a => Fin.ext ?_)
  match a with
  | ⟨0, _⟩ => show win1_3.index t (0 : Fin 2) * 1 + 1 * 0 = 0; omega
  | ⟨1, _⟩ => show win1_3.index t (1 : Fin 2) * 2000 + 1 * e.val = e.val; omega

/-! ## The block's quantities are the specification's, at the block's nodes -/

theorem degB_blk (c : Dev nD) (t : Fin cfg1.N) (p : Fin 2000) :
    degB (iblk1 V c 0 t) p = Cert.Spec.deg (incA V c) (row t p) := by
  unfold degB Cert.Spec.deg
  exact Finset.sum_congr rfl fun e _ => blkA_apply V c t p e

theorem inveB_blk (c : Dev nD) (t : Fin cfg1.N) (p : Fin 2000) :
    inveB (iblk1 V c 0 t) p = Cert.Spec.invE (incA V c) (row t p) := by
  unfold inveB Cert.Spec.invE
  rw [degB_blk]

theorem rootB_blk (c : Dev nD) (t : Fin cfg1.N) (p : Fin 2000) (k : Fin 256) :
    rootB (iblk1 V c 0 t) (iblk1 V c 1 t) p k = Cert.Spec.nodeRoot (incA V c) (msgM V c) (row t p) k := by
  unfold rootB Cert.Spec.nodeRoot
  rw [inveB_blk]
  refine congrArg (fun s => Ideal.sqrt (s * _)) (Finset.sum_congr rfl fun e _ => ?_)
  rw [blkA_apply, blkM_apply]

theorem outB_blk (c : Dev nD) (t : Fin cfg1.N) (p : Fin 2000) (j : Fin 256) :
    outB (iblk1 V c 0 t) (iblk1 V c 1 t) (iblk1 V c 2 t) p j = Cert.Spec.layerOut (incA V c) (msgM V c) (wgtW V c) (row t p) j := by
  unfold outB Cert.Spec.layerOut
  refine congrArg (max · 0) (Finset.sum_congr rfl fun k _ => ?_)
  rw [rootB_blk, blkW_apply]

theorem partB_blk (c : Dev nD) (t : Fin cfg1.N) (d : Fin 256) (e : Fin 2000) :
    partB (iblk1 V c 0 t) (iblk1 V c 1 t) (iblk1 V c 2 t) d e
      = ∑ p : Fin 2000, (Cert.Spec.layerOut (incA V c) (msgM V c) (wgtW V c) (row t p) d * Cert.Spec.layerOut (incA V c) (msgM V c) (wgtW V c) (row t p) d) * incA V c (row t p) e := by
  unfold partB
  exact Finset.sum_congr rfl fun p _ => by rw [outB_blk, blkA_apply]

/-! ## What the stores leave, at an index -/

theorem hz1 : (![0, 0] : Fin 2 → Nat) = fun _ => 0 := funext fun a => by fin_cases a <;> rfl

/-- The degrees' buffer after a point: the block's clamped reciprocal degrees. -/
theorem inveOf1_apply (x0 : FVec Ideal S2000x2000 .bf16) (x1 : FVec Ideal S2000x256 .bf16) (p : Fin 2000) :
    inveOf1 (F := Ideal) x0 x1 (ix2 p (0 : Fin 1)) = inveB x0 p := by
  unfold inveOf1
  rw [View.canon_unit_zero hz1]
  simp only [View.ld_unit_zero (S := S2000x2000) hz1, View.ld_unit_zero (S := S2000x256) hz1]
  exact pay4_apply x0 x1 p

/-- The accumulator after the first point: the first block's contribution. -/
theorem accFirst1_apply (x0 : FVec Ideal S2000x2000 .bf16) (x1 : FVec Ideal S2000x256 .bf16) (x2 : FVec Ideal S256x256 .bf16) (d : Fin 256) (e : Fin 2000) :
    accFirst1 (F := Ideal) x0 x1 x2 (ix2 d e) = partB x0 x1 x2 d e := by
  unfold accFirst1
  rw [View.canon_unit_zero hz1]
  simp only [View.ld_unit_zero (S := S2000x2000) hz1, View.ld_unit_zero (S := S2000x256) hz1, View.ld_unit_zero (S := S256x256) hz1]
  exact pay6_apply x0 x1 x2 d e

/-- The accumulator after a later point: what it held plus the block's contribution. -/
theorem accNext1_apply (x0 : FVec Ideal S2000x2000 .bf16) (x1 : FVec Ideal S2000x256 .bf16) (x2 : FVec Ideal S256x256 .bf16) (s : FVec Ideal S256x2000 .f32)
    (d : Fin 256) (e : Fin 2000) :
    accNext1 (F := Ideal) x0 x1 x2 s (ix2 d e) = s (ix2 d e) + partB x0 x1 x2 d e := by
  unfold accNext1
  rw [View.canon_unit_zero hz1]
  simp only [View.ld_unit_zero (S := S2000x2000) hz1, View.ld_unit_zero (S := S2000x256) hz1, View.ld_unit_zero (S := S256x256) hz1,
    View.ld_unit_zero (S := S256x2000) hz1]
  exact pay7_apply x0 x1 x2 s d e

/-- The messages' buffer after the last point: the accumulator scaled by the reciprocal hyperedge sizes, transposed. -/
theorem m2Of1_apply (s : FVec Ideal S256x2000 .f32) (x3 : FVec Ideal S1x2000 .f32) (e : Fin 2000) (d : Fin 256) :
    m2Of1 (F := Ideal) s x3 (ix2 e d) = s (ix2 d e) * x3 (ix2 (0 : Fin 1) e) := by
  unfold m2Of1
  rw [View.canon_unit_zero hz1]
  simp only [View.ld_unit_zero (S := S256x2000) hz1, View.ld_unit_zero (S := S1x2000) hz1]
  exact pay1_apply s x3 e d

/-! ## The accumulator after each point: the sum of the contributions so far -/

/-- Block `b`'s contribution (zero past the grid). -/
def partAt (c : Dev nD) (b : ℕ) (d : Fin 256) (e : Fin 2000) : EReal :=
  if h : b < cfg1.N then partB (iblk1 V c 0 ⟨b, h⟩) (iblk1 V c 1 ⟨b, h⟩) (iblk1 V c 2 ⟨b, h⟩) d e else 0

theorem acc1_apply (c : Dev nD) : ∀ (n : ℕ) (hn : n < cfg1.N) (d : Fin 256) (e : Fin 2000),
    acc1 V c n hn (ix2 d e) = ∑ b ∈ Finset.range (n + 1), partAt V c b d e
  | 0, hn, d, e => by
    rw [Finset.sum_range_one]; unfold partAt; rw [dif_pos hn]
    show accFirst1 (F := Ideal) (iblk1 V c 0 ⟨0, hn⟩) (iblk1 V c 1 ⟨0, hn⟩) (iblk1 V c 2 ⟨0, hn⟩) (ix2 d e) = _
    exact accFirst1_apply _ _ _ d e
  | n + 1, hn, d, e => by
    rw [Finset.sum_range_succ, ← acc1_apply c n (Nat.lt_of_succ_lt hn) d e]
    unfold partAt; rw [dif_pos hn]
    show accNext1 (F := Ideal) (iblk1 V c 0 ⟨n + 1, hn⟩) (iblk1 V c 1 ⟨n + 1, hn⟩) (iblk1 V c 2 ⟨n + 1, hn⟩) (acc1 V c n (Nat.lt_of_succ_lt hn)) (ix2 d e) = _
    exact accNext1_apply _ _ _ _ d e

/-- After the last point the accumulator holds the incidence-weighted sum of the squared layer outputs over ALL nodes. -/
theorem acc1_last (c : Dev nD) (h4 : 4 < cfg1.N) (d : Fin 256) (e : Fin 2000) :
    acc1 V c 4 h4 (ix2 d e)
      = ∑ n : Fin 10000, (Cert.Spec.layerOut (incA V c) (msgM V c) (wgtW V c) n d * Cert.Spec.layerOut (incA V c) (msgM V c) (wgtW V c) n d) * incA V c n e := by
  rw [acc1_apply, sum_blocks]
  show ∑ b ∈ Finset.range 5, partAt V c b d e = _
  rw [Finset.sum_range]
  refine Finset.sum_congr rfl fun b _ => ?_
  have hb : b.val < cfg1.N := by have := b.isLt; have hN : cfg1.N = 5 := N_1; omega
  unfold partAt; rw [dif_pos hb, partB_blk]
  rfl

/-! ## Output window 5: the reciprocal node degrees -/

/-- What the degrees' array ends holding: the specification's clamped reciprocal degree of each node. -/
def G5 (c : Dev nD) : S10000x1.Idx → EReal := fun i => Cert.Spec.invE (incA V c) ⟨(i 0).val, idx2_lt0 i⟩

/-- WHAT POINT `t` WRITES BACK into the degrees' array is block `t` of `G5`. -/
theorem flushed5_eq (c : Dev nD) (t : Fin cfg1.N) :
    (dat1 (F := Ideal) V c).flushed 5 t = ((cfg1.win 5).blk t).view.read (Elt Ideal) (G5 V c) := by
  obtain ⟨-, -, -, -, -, -, -, -, -, -, e0, e1⟩ := idx_facts1 t
  show (cfg1.win 5).cut (grid1.coords t) ((dat1 (F := Ideal) V c).after 5 t) = _
  rw [after1_5]
  funext y
  obtain ⟨p, z, rfl⟩ : ∃ (p : Fin 2000) (z : Fin 1), y = ix2 p z := ⟨y 0, y 1, eq_ix2 y⟩
  obtain rfl : z = 0 := Subsingleton.elim _ _
  show inveOf1 (F := Ideal) (iblk1 V c 0 t) (iblk1 V c 1 t) (ix2 p (0 : Fin 1)) = G5 V c (((cfg1.win 5).blk t).view.emb (ix2 p (0 : Fin 1)))
  have hemb : ((cfg1.win 5).blk t).view.emb (ix2 p (0 : Fin 1)) = ix2 (row t p) (0 : Fin 1) := funext fun a => Fin.ext (by
    match a with
    | ⟨0, _⟩ => show win1_5.index t (0 : Fin 2) * 2000 + 1 * p.val = t.val * 2000 + p.val; omega
    | ⟨1, _⟩ => show win1_5.index t (1 : Fin 2) * 1 + 1 * 0 = 0; omega)
  rw [hemb, inveOf1_apply, inveB_blk]
  rfl

/-- An index of the degrees' array is in point `t`'s block iff each coordinate is in the block's range on its axis. -/
theorem mem_blk5 (t : Fin cfg1.N) (i : S10000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v4_1).slice (win1_5.rect t)).set ↔ _
  rw [View.set_slice_whole, Rect.mem_set_unit]
  exact Iff.rfl

/-- THE DEGREES' ARRAY after the run, index by index. -/
theorem inve_apply (c : Dev nD) (n : Fin 10000) :
    (dat1 (F := Ideal) V c).arrAt 5 cfg1.N (ix2 n (0 : Fin 1)) = Cert.Spec.invE (incA V c) n := by
  have hN : cfg1.N = 5 := N_1
  have hn := n.isLt
  let t : Fin cfg1.N := ⟨n.val / 2000, by omega⟩
  obtain ⟨-, -, -, -, -, -, -, -, -, -, e0, e1⟩ := idx_facts1 t
  have hi : (ix2 n (0 : Fin 1) : S10000x1.Idx) ∈ ((cfg1.win 5).blk t).view.set := by
    rw [mem_blk5]
    intro a
    match a with
    | ⟨0, _⟩ => show win1_5.index t (0 : Fin 2) * 2000 ≤ n.val ∧ n.val < win1_5.index t (0 : Fin 2) * 2000 + 2000; rw [e0]; show n.val / 2000 * 2000 ≤ n.val ∧ n.val < n.val / 2000 * 2000 + 2000; omega
    | ⟨1, _⟩ => show win1_5.index t (1 : Fin 2) * 1 ≤ 0 ∧ 0 < win1_5.index t (1 : Fin 2) * 1 + 1; omega
  exact (dat1 (F := Ideal) V c).arrAt_apply_of_mem 5 (G5 V c) (fun t _ => flushed5_eq V c t) cfg1.N t (ix2 n (0 : Fin 1)) t.isLt (flush1_5 t) hi

/-! ## Output window 4: the second layer's hyperedge messages -/

/-- What the messages' array ends holding: the specification's hyperedge message of the first layer's output. -/
def G4 (c : Dev nD) : S2000x256.Idx → EReal := fun i =>
  Cert.Spec.edgeMean (incA V c) (Cert.Spec.layerOut (incA V c) (msgM V c) (wgtW V c)) ⟨(i 0).val, idx2_lt0 i⟩ ⟨(i 1).val, idx2_lt1 i⟩

/-- WHAT THE LAST POINT WRITES BACK into the messages' array is `G4` — given that the row of reciprocal hyperedge sizes
    the region finds is the specification's. -/
theorem flushed4_eq (c : Dev nD) (hinvn : ∀ e : Fin 2000, V c main_v3_1 (ix2 (0 : Fin 1) e) = Cert.Spec.invN (incA V c) e)
    (t : Fin cfg1.N) (hf : (cfg1.win 4).flush t = true) :
    (dat1 (F := Ideal) V c).flushed 4 t = ((cfg1.win 4).blk t).view.read (Elt Ideal) (G4 V c) := by
  have hN : cfg1.N = 5 := N_1
  have h4 : t.val = 4 := by have := (flush1_4 t).mp hf; have := t.isLt; omega
  obtain ⟨-, -, -, -, -, -, -, -, e0, e1, -⟩ := idx_facts1 t
  show (cfg1.win 4).cut (grid1.coords t) ((dat1 (F := Ideal) V c).after 4 t) = _
  rw [after1_4]
  funext y
  obtain ⟨e, d, rfl⟩ : ∃ (e : Fin 2000) (d : Fin 256), y = ix2 e d := ⟨y 0, y 1, eq_ix2 y⟩
  show m2Of1 (F := Ideal) (acc1 V c t.val t.isLt) (iblk1 V c 3 t) (ix2 e d) = G4 V c (((cfg1.win 4).blk t).view.emb (ix2 e d))
  have hemb : ((cfg1.win 4).blk t).view.emb (ix2 e d) = ix2 e d := funext fun a => Fin.ext (by
    match a with
    | ⟨0, _⟩ => show win1_4.index t (0 : Fin 2) * 2000 + 1 * e.val = e.val; omega
    | ⟨1, _⟩ => show win1_4.index t (1 : Fin 2) * 256 + 1 * d.val = d.val; omega)
  rw [hemb, m2Of1_apply, blkN_apply, hinvn]
  obtain ⟨tv, ht⟩ := t
  obtain rfl : tv = 4 := h4
  rw [acc1_last]
  rfl

theorem mem_blk4 (t : Fin cfg1.N) (i : S2000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v4_0).slice (win1_4.rect t)).set ↔ _
  rw [View.set_slice_whole, Rect.mem_set_unit]
  exact Iff.rfl

/-- THE MESSAGES' ARRAY after the run, index by index. -/
theorem m2_apply (c : Dev nD) (hinvn : ∀ e : Fin 2000, V c main_v3_1 (ix2 (0 : Fin 1) e) = Cert.Spec.invN (incA V c) e)
    (e : Fin 2000) (d : Fin 256) :
    (dat1 (F := Ideal) V c).arrAt 4 cfg1.N (ix2 e d)
      = Cert.Spec.edgeMean (incA V c) (Cert.Spec.layerOut (incA V c) (msgM V c) (wgtW V c)) e d := by
  have hN : cfg1.N = 5 := N_1
  let t : Fin cfg1.N := ⟨4, by omega⟩
  obtain ⟨-, -, -, -, -, -, -, -, e0, e1, -⟩ := idx_facts1 t
  have hf : (cfg1.win 4).flush t = true := (flush1_4 t).mpr rfl
  have hi : (ix2 e d : S2000x256.Idx) ∈ ((cfg1.win 4).blk t).view.set := by
    rw [mem_blk4]
    intro a
    match a with
    | ⟨0, _⟩ => show win1_4.index t (0 : Fin 2) * 2000 ≤ e.val ∧ e.val < win1_4.index t (0 : Fin 2) * 2000 + 2000; have := e.isLt; omega
    | ⟨1, _⟩ => show win1_4.index t (1 : Fin 2) * 256 ≤ d.val ∧ d.val < win1_4.index t (1 : Fin 2) * 256 + 256; have := d.isLt; omega
  exact (dat1 (F := Ideal) V c).arrAt_apply_of_mem 4 (G4 V c) (fun t hf => flushed4_eq V c hinvn t hf) cfg1.N t (ix2 e d) t.isLt hf hi

end Cert.KernelIdeal.Hand.R1

end
-- ==== Proof.KI.Value.lean ====
/-
  What the kernel program's result array holds, index by index: the two-layer network of the specification over the
  argument arrays.  Region 0 leaves the first layer's hyperedge messages and the reciprocal hyperedge sizes; region 1,
  entered with those, leaves the second layer's messages and the reciprocal node degrees; region 2, entered with
  those, leaves the network's output.  The incidence matrix and the weights reach the regions through the host
  stretch's format conversions, which change no value.
-/
import proofs.«115026_g27496380629499_cont_9to1_1988_22_alg».proof.Proof.KI.Boundary
import proofs.«115026_g27496380629499_cont_9to1_1988_22_alg».proof.Proof.KI.Reg0Value
import proofs.«115026_g27496380629499_cont_9to1_1988_22_alg».proof.Proof.KI.Reg2Value
import proofs.«115026_g27496380629499_cont_9to1_1988_22_alg».proof.Proof.KI.Reg1Value
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The incidence matrix, the features and the two weight matrices as the program is launched with them. -/
abbrev inA (c : Dev nD) : Fin 10000 → Fin 2000 → EReal := fun n e => (m ((c : Thread nD τ).loc main_arg1) : S10000x2000.Idx → EReal) (ix2 n e)
abbrev inX (c : Dev nD) : Fin 10000 → Fin 256 → EReal := fun n d => (m ((c : Thread nD τ).loc main_arg0) : S10000x256.Idx → EReal) (ix2 n d)
abbrev inW1 (c : Dev nD) : Fin 256 → Fin 256 → EReal := fun k j => (m ((c : Thread nD τ).loc main_arg2) : S256x256.Idx → EReal) (ix2 k j)
abbrev inW2 (c : Dev nD) : Fin 256 → Fin 256 → EReal := fun k j => (m ((c : Thread nD τ).loc main_arg3) : S256x256.Idx → EReal) (ix2 k j)

/-! ## The converted arrays hold the arguments' values -/

theorem V1_v0_at (c : Dev nD) (i : S10000x2000.Idx) : (V1 m ρ c main_v0 : S10000x2000.Idx → EReal) i = (m ((c : Thread nD τ).loc main_arg1) : S10000x2000.Idx → EReal) i := by
  rw [V1_v0]; rfl
theorem V1_v1_at (c : Dev nD) (i : S256x256.Idx) : (V1 m ρ c main_v1 : S256x256.Idx → EReal) i = (m ((c : Thread nD τ).loc main_arg2) : S256x256.Idx → EReal) i := by
  rw [V1_v1]; rfl
theorem V1_v2_at (c : Dev nD) (i : S256x256.Idx) : (V1 m ρ c main_v2 : S256x256.Idx → EReal) i = (m ((c : Thread nD τ).loc main_arg3) : S256x256.Idx → EReal) i := by
  rw [V1_v2]; rfl

/-! ## Region 0: entered with the incidence matrix and the features -/

theorem incid1_eq (c : Dev nD) : R0.incid (V1 m ρ) c = inA m c := by
  funext n e; unfold R0.incid; exact V1_v0_at m ρ c _
theorem feats1_eq (c : Dev nD) : R0.feats (V1 m ρ) c = inX m c := by
  funext n d; unfold R0.feats; rw [V1_arg0]

/-- It leaves the first layer's hyperedge messages, -/
theorem M1_at (c : Dev nD) (e : Fin 2000) (d : Fin 256) :
    (V2 m ρ c main_v3_0 : S2000x256.Idx → EReal) (ix2 e d) = Cert.Spec.edgeMean (inA m c) (inX m c) e d := by
  rw [V2_v3_0, R0.m1_apply, incid1_eq, feats1_eq]
/-- and the reciprocal hyperedge sizes. -/
theorem invn_at (c : Dev nD) (e : Fin 2000) :
    (V2 m ρ c main_v3_1 : S1x2000.Idx → EReal) (ix2 (0 : Fin 1) e) = Cert.Spec.invN (inA m c) e := by
  rw [V2_v3_1, R0.invn_apply, incid1_eq]
theorem A2_at (c : Dev nD) (n : Fin 10000) (e : Fin 2000) : (V2 m ρ c main_v0 : S10000x2000.Idx → EReal) (ix2 n e) = inA m c n e := by
  rw [V2_v0]; exact V1_v0_at m ρ c _
theorem W1_at (c : Dev nD) (k j : Fin 256) : (V2 m ρ c main_v1 : S256x256.Idx → EReal) (ix2 k j) = inW1 m c k j := by
  rw [V2_v1]; exact V1_v1_at m ρ c _

/-! ## Region 1: entered with the incidence matrix, the first layer's messages, the first weights, the reciprocal sizes -/

theorem incA2_eq (c : Dev nD) : R1.incA (V2 m ρ) c = inA m c := by
  funext n e; unfold R1.incA; exact A2_at m ρ c n e
theorem msgM2_eq (c : Dev nD) : R1.msgM (V2 m ρ) c = Cert.Spec.edgeMean (inA m c) (inX m c) := by
  funext e d; unfold R1.msgM; exact M1_at m ρ c e d
theorem wgtW2_eq (c : Dev nD) : R1.wgtW (V2 m ρ) c = inW1 m c := by
  funext k j; unfold R1.wgtW; exact W1_at m ρ c k j

/-- It leaves the second layer's hyperedge messages, -/
theorem M2_at (c : Dev nD) (e : Fin 2000) (d : Fin 256) :
    (V3 m ρ c main_v4_0 : S2000x256.Idx → EReal) (ix2 e d)
      = Cert.Spec.edgeMean (inA m c) (Cert.Spec.layerOut (inA m c) (Cert.Spec.edgeMean (inA m c) (inX m c)) (inW1 m c)) e d := by
  rw [V3_v4_0, R1.m2_apply (V2 m ρ) c (fun e' => by rw [incA2_eq]; exact invn_at m ρ c e'), incA2_eq, msgM2_eq, wgtW2_eq]
/-- and the reciprocal node degrees. -/
theorem inve_at (c : Dev nD) (n : Fin 10000) :
    (V3 m ρ c main_v4_1 : S10000x1.Idx → EReal) (ix2 n (0 : Fin 1)) = Cert.Spec.invE (inA m c) n := by
  rw [V3_v4_1, R1.inve_apply, incA2_eq]

/-! ## Region 2: entered with the incidence matrix, the second layer's messages, the second weights, the reciprocal degrees -/

theorem incid3_eq (c : Dev nD) : incid (V3 m ρ) c = inA m c := by
  funext n e
  show (V3 m ρ c main_v0 : S10000x2000.Idx → EReal) (ix2 n e) = _
  rw [V3_v0]; exact A2_at m ρ c n e
theorem wgts3_eq (c : Dev nD) : wgts (V3 m ρ) c = inW2 m c := by
  funext k j
  show (V3 m ρ c main_v2 : S256x256.Idx → EReal) (ix2 k j) = _
  rw [V3_v2, V2_v2]; exact V1_v2_at m ρ c _

theorem msgs3_eq (c : Dev nD) : msgs (V3 m ρ) c
    = Cert.Spec.edgeMean (inA m c) (Cert.Spec.layerOut (inA m c) (Cert.Spec.edgeMean (inA m c) (inX m c)) (inW1 m c)) := by
  funext e d
  exact M2_at m ρ c e d
theorem rdeg3_eq (c : Dev nD) (n : Fin 10000) : rdeg (V3 m ρ) c n = Cert.Spec.invE (incid (V3 m ρ) c) n := by
  rw [incid3_eq]; exact inve_at m ρ c n

/-- The result array after region 2 is the network of the arguments. -/
theorem kernel_value (c : Dev nD) (n : Fin 10000) (j : Fin 256) :
    (W4 m ρ c (Proc.devRef .tc main_v5) : S10000x256.Idx → EReal) (ix2 n j)
      = Cert.Spec.net (inA m c) (inX m c) (inW1 m c) (inW2 m c) n j := by
  rw [W4_v5, out_apply (V3 m ρ) c (rdeg3_eq m ρ c) n j, incid3_eq, msgs3_eq, wgts3_eq]
  rfl

end Cert.KernelIdeal.Hand

end
-- ==== Proof.RefSpec.lean ====
/-
  The reference's arithmetic and why it is the specification's.

  The reference writes every square as a power with exponent 2 and every square root as a power with exponent 1/2,
  and it takes the square root of the hyperedge message only to square it again.  On the extended reals, with the
  convention that a negative base to the power 1/2 is junk, these agree with the plain forms exactly where the base
  is nonnegative:
    * x ^ 2 = x · x for every x other than −∞;
    * (v ^ (1/2)) ^ 2 = v and v ^ (1/2) = √v for every v ≥ 0 (+∞ included);
    * x / m = x · (1 / m) whenever m ≥ 1.
  With a nonnegative incidence matrix every base that occurs is a sum of products of nonnegative terms divided by a
  count clamped to at least one, hence nonnegative; and a layer's output is a maximum with zero, hence never −∞.
-/
import proofs.«115026_g27496380629499_cont_9to1_1988_22_alg».proof.Proof.Spec
import Mathlib.Analysis.SpecialFunctions.Pow.Real

noncomputable section

namespace Cert.RefSpec

open Idealize.ShloMosaic Cert.Spec

/-! ## The reference, stage by stage -/

/-- The hyperedge size as the reference sums it: from zero. -/
def rcnt (A : Fin 10000 → Fin 2000 → EReal) (e : Fin 2000) : EReal := 0 + ∑ n, A n e

/-- The incidence-weighted sum of squared features, squares written as powers. -/
def rS (A : Fin 10000 → Fin 2000 → EReal) (Y : Fin 10000 → Fin 256 → EReal) (e : Fin 2000) (d : Fin 256) : EReal :=
  ∑ n, A n e * Ideal.pow (Y n d) ((2 : ℝ) : EReal)

/-- The generalized mean over a hyperedge: the quotient by the clamped size, to the power 1/2. -/
def rintra (A : Fin 10000 → Fin 2000 → EReal) (Y : Fin 10000 → Fin 256 → EReal) (e : Fin 2000) (d : Fin 256) : EReal :=
  Ideal.pow (Ideal.div (rS A Y e d) (max (rcnt A e) 1)) ((1 / 2 : ℝ) : EReal)

/-- The node degree as the reference sums it. -/
def rdeg (A : Fin 10000 → Fin 2000 → EReal) (n : Fin 10000) : EReal := 0 + ∑ e, A n e

/-- The generalized mean over a node's hyperedges. -/
def rinter (A : Fin 10000 → Fin 2000 → EReal) (Y : Fin 10000 → Fin 256 → EReal) (n : Fin 10000) (d : Fin 256) : EReal :=
  Ideal.pow (Ideal.div (∑ e, A n e * Ideal.pow (rintra A Y e d) ((2 : ℝ) : EReal)) (max (rdeg A n) 1)) ((1 / 2 : ℝ) : EReal)

/-- One layer of the reference. -/
def rlayer (A : Fin 10000 → Fin 2000 → EReal) (Y : Fin 10000 → Fin 256 → EReal) (W : Fin 256 → Fin 256 → EReal)
    (n : Fin 10000) (j : Fin 256) : EReal :=
  max (∑ k, rinter A Y n k * W k j) 0

/-- The reference network. -/
def rnet (A : Fin 10000 → Fin 2000 → EReal) (X : Fin 10000 → Fin 256 → EReal) (W1 W2 : Fin 256 → Fin 256 → EReal) :
    Fin 10000 → Fin 256 → EReal :=
  rlayer A (rlayer A X W1) W2

/-! ## The four laws -/

/-- A square written as a power: equal to the product for every base other than −∞. -/
theorem pow_two (x : EReal) (hx : x ≠ ⊥) : Ideal.pow x ((2 : ℝ) : EReal) = x * x := by
  induction x using EReal.rec with
  | bot => exact absurd rfl hx
  | coe r =>
    rw [Ideal.pow_coe_coe, ← EReal.coe_mul]
    exact congrArg _ (by rw [Real.rpow_eq_pow, Real.rpow_two, sq])
  | top =>
    rw [Ideal.pow_top, if_pos (by exact_mod_cast (by norm_num : (0 : ℝ) < 2)), EReal.top_mul_top]

/-- The square of the power 1/2 of a nonnegative base is the base. -/
theorem pow_half_pow_two (v : EReal) (hv : 0 ≤ v) :
    Ideal.pow (Ideal.pow v ((1 / 2 : ℝ) : EReal)) ((2 : ℝ) : EReal) = v := by
  induction v using EReal.rec with
  | bot => exact absurd hv (by simp)
  | coe r =>
    have hr : 0 ≤ r := EReal.coe_nonneg.mp hv
    rw [Ideal.pow_coe_coe, Ideal.pow_coe_coe]
    refine congrArg _ ?_
    rw [Real.rpow_eq_pow, Real.rpow_eq_pow, ← Real.rpow_mul hr]; norm_num
  | top =>
    rw [Ideal.pow_top, if_pos (by exact_mod_cast (by norm_num : (0 : ℝ) < 1 / 2)),
      Ideal.pow_top, if_pos (by exact_mod_cast (by norm_num : (0 : ℝ) < 2))]

/-- The power 1/2 of a nonnegative base is its square root. -/
theorem pow_half (v : EReal) (hv : 0 ≤ v) : Ideal.pow v ((1 / 2 : ℝ) : EReal) = Ideal.sqrt v := by
  induction v using EReal.rec with
  | bot => exact absurd hv (by simp)
  | coe r =>
    have hr : 0 ≤ r := EReal.coe_nonneg.mp hv
    rw [Ideal.pow_coe_coe, Ideal.sqrt_coe, if_neg (not_lt.mpr hr)]
    exact congrArg _ (by rw [Real.rpow_eq_pow, Real.sqrt_eq_rpow])
  | top =>
    rw [Ideal.pow_top, if_pos (by exact_mod_cast (by norm_num : (0 : ℝ) < 1 / 2)), Ideal.sqrt_top]

/-- A quotient by a clamped count is the product with its reciprocal. -/
theorem div_clamped (x s : EReal) : Ideal.div x (max s 1) = x * Ideal.div 1 (max s 1) := by
  have hm : max s 1 ≠ 0 := ne_of_gt (lt_of_lt_of_le zero_lt_one (le_max_right s 1))
  unfold Ideal.div
  rw [if_neg hm, if_neg hm, one_mul]

/-- The reciprocal of a clamped count is nonnegative. -/
theorem div_one_clamped_nonneg (s : EReal) : 0 ≤ Ideal.div 1 (max s 1) := by
  have hm : max s 1 ≠ 0 := ne_of_gt (lt_of_lt_of_le zero_lt_one (le_max_right s 1))
  unfold Ideal.div
  rw [if_neg hm, one_mul]
  exact EReal.inv_nonneg_of_nonneg (le_trans zero_le_one (le_max_right s 1))

/-- A square is nonnegative for every base other than −∞. -/
theorem mul_self_nonneg' (x : EReal) (hx : x ≠ ⊥) : 0 ≤ x * x := by
  induction x using EReal.rec with
  | bot => exact absurd rfl hx
  | coe r => rw [← EReal.coe_mul]; exact EReal.coe_nonneg.mpr (mul_self_nonneg r)
  | top => rw [EReal.top_mul_top]; exact le_top

/-! ## The reference layer is the specification's layer -/

variable (A : Fin 10000 → Fin 2000 → EReal) (hA : ∀ n e, 0 ≤ A n e)

theorem rcnt_eq (e : Fin 2000) : rcnt A e = cnt A e := by unfold rcnt cnt; rw [zero_add]
theorem rdeg_eq (n : Fin 10000) : rdeg A n = deg A n := by unfold rdeg deg; rw [zero_add]

include hA in
/-- The hyperedge message is nonnegative. -/
theorem edgeMean_nonneg (Y : Fin 10000 → Fin 256 → EReal) (hY : ∀ n d, Y n d ≠ ⊥) (e : Fin 2000) (d : Fin 256) :
    0 ≤ edgeMean A Y e d := by
  unfold edgeMean invN
  exact EReal.mul_nonneg (Finset.sum_nonneg fun n _ => EReal.mul_nonneg (mul_self_nonneg' _ (hY n d)) (hA n e))
    (div_one_clamped_nonneg _)

include hA in
/-- Before the power 1/2 the reference holds the hyperedge message. -/
theorem rintra_base (Y : Fin 10000 → Fin 256 → EReal) (hY : ∀ n d, Y n d ≠ ⊥) (e : Fin 2000) (d : Fin 256) :
    Ideal.div (rS A Y e d) (max (rcnt A e) 1) = edgeMean A Y e d := by
  rw [div_clamped, rcnt_eq]
  unfold rS edgeMean invN
  refine congrArg (· * _) (Finset.sum_congr rfl fun n _ => ?_)
  rw [pow_two _ (hY n d), mul_comm]

include hA in
/-- The square of the reference's generalized mean is the hyperedge message. -/
theorem rintra_sq (Y : Fin 10000 → Fin 256 → EReal) (hY : ∀ n d, Y n d ≠ ⊥) (e : Fin 2000) (d : Fin 256) :
    Ideal.pow (rintra A Y e d) ((2 : ℝ) : EReal) = edgeMean A Y e d := by
  unfold rintra
  rw [rintra_base A hA Y hY, pow_half_pow_two _ (edgeMean_nonneg A hA Y hY e d)]

include hA in
/-- The reference's node aggregate is the specification's. -/
theorem rinter_eq (Y : Fin 10000 → Fin 256 → EReal) (hY : ∀ n d, Y n d ≠ ⊥) (n : Fin 10000) (d : Fin 256) :
    rinter A Y n d = nodeRoot A (edgeMean A Y) n d := by
  unfold rinter nodeRoot invE
  have hsum : (∑ e, A n e * Ideal.pow (rintra A Y e d) ((2 : ℝ) : EReal)) = ∑ e, A n e * edgeMean A Y e d :=
    Finset.sum_congr rfl fun e _ => by rw [rintra_sq A hA Y hY]
  rw [hsum, div_clamped, rdeg_eq]
  exact pow_half _ (EReal.mul_nonneg (Finset.sum_nonneg fun e _ => EReal.mul_nonneg (hA n e) (edgeMean_nonneg A hA Y hY e d))
    (div_one_clamped_nonneg _))

include hA in
/-- One layer. -/
theorem rlayer_eq (Y : Fin 10000 → Fin 256 → EReal) (hY : ∀ n d, Y n d ≠ ⊥) (W : Fin 256 → Fin 256 → EReal) :
    rlayer A Y W = layerOut A (edgeMean A Y) W := by
  funext n j
  unfold rlayer layerOut
  exact congrArg (max · 0) (Finset.sum_congr rfl fun k _ => by rw [rinter_eq A hA Y hY])

/-- A layer's output is a maximum with zero: never −∞. -/
theorem layerOut_ne_bot (M : Fin 2000 → Fin 256 → EReal) (W : Fin 256 → Fin 256 → EReal) (n : Fin 10000) (j : Fin 256) :
    layerOut A M W n j ≠ ⊥ :=
  ne_of_gt (lt_of_lt_of_le (EReal.bot_lt_zero) (le_max_right _ _))

include hA in
/-- The reference network is the specification's network. -/
theorem rnet_eq (X : Fin 10000 → Fin 256 → EReal) (hX : ∀ n d, X n d ≠ ⊥) (W1 W2 : Fin 256 → Fin 256 → EReal) :
    rnet A X W1 W2 = net A X W1 W2 := by
  unfold rnet net
  rw [rlayer_eq A hA X hX W1]
  exact rlayer_eq A hA _ (fun n d => layerOut_ne_bot A _ W1 n d) W2

end Cert.RefSpec

end
-- ==== Proof.Consts.lean ====
/-
  The float constants the two programs spell, as the extended reals their patterns denote: zero, one (in both
  formats), two, one half, and +∞.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_one_bf16 : Ideal.ofBits .bf16 0x3F80#16 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inf : Ideal.ofBits .f32 0x7F800000#32 = ⊤ := by
  simp [Ideal.ofBits, Ideal.ieee]

end Cert.Consts

end
-- ==== Proof.RefRead.lean ====
/-
  The reference program's result, read one operation at a time at an index, is the reference network of
  RefSpec over the argument arrays: every stage of a layer — the clamped counts, the incidence-weighted sum of
  squares, the two generalized means, the rectified product with the weights — is read at explicit coordinates,
  the index maps of the transposes, broadcasts and contractions being literal re-arrangements of those coordinates.
-/
import proofs.«115026_g27496380629499_cont_9to1_1988_22_alg».proof.Proof.Gen.ReferenceIdeal.Read
import proofs.«115026_g27496380629499_cont_9to1_1988_22_alg».proof.Proof.RefSpec
import proofs.«115026_g27496380629499_cont_9to1_1988_22_alg».proof.Proof.Consts

noncomputable section

namespace Cert.RefRead

open Cert.ReferenceIdeal Cert.ReferenceIdeal.Gen Cert.ReferenceIdeal.Read Idealize.ShloMosaic Idealize.ShloMosaic.ValueIdx Cert.RefSpec

variable (x0 : (⟨S10000x256, .f32⟩ : BufTy).Contents (Elt Ideal)) (x1 : (⟨S10000x2000, .f32⟩ : BufTy).Contents (Elt Ideal))
  (x2 x3 : (⟨S256x256, .f32⟩ : BufTy).Contents (Elt Ideal))

/-! ## Layer 1 of the reference, stage by stage at an index -/

/-- The clamped hyperedge size. -/
theorem clampN1 (e : Fin 2000) : val_main_v6 (F := Ideal) x1 (ix1 e) = max (rcnt (fun n e => x1 (ix2 n e)) e) 1 := by
  rw [val_main_v6_apply, val_main_v0_apply, val_main_cst_apply, val_main_v5_apply, val_main_cst_1_apply]
  simp only [Ideal.maximumf_def, Ideal.ofBits_def, Consts.ofBits_zero, Consts.ofBits_one]
  unfold rcnt
  refine congrArg (max · 1) (congrArg (0 + ·) (Finset.sum_congr rfl fun k _ => ?_))
  exact congrArg x1 (funext fun a => by match a with | ⟨0, _⟩ => rfl | ⟨1, _⟩ => rfl)

/-- The incidence-weighted sum of squared features. -/
theorem sumSq1 (e : Fin 2000) (d : Fin 256) : val_main_v4 (F := Ideal) x0 x1 (ix2 e d) = rS (fun n e => x1 (ix2 n e)) (fun n d => x0 (ix2 n d)) e d := by
  rw [val_main_v4_apply]; unfold rS
  refine Finset.sum_congr rfl fun k _ => ?_
  rw [val_main_v1_apply, val_main_v3_apply, val_main_v2_apply, val_main_cst_0_apply]
  rw [show idx_main_v1 (lidx_main_v4 (ix2 e d) k) = ix2 k e from funext fun a => by match a with | ⟨0, _⟩ => rfl | ⟨1, _⟩ => rfl,
    show ridx_main_v4 (ix2 e d) k = ix2 k d from funext fun a => by match a with | ⟨0, _⟩ => rfl | ⟨1, _⟩ => rfl]
  simp only [Ideal.hostPowf_def, Ideal.ofBits_def, Consts.ofBits_two]

/-- The hyperedge's generalized mean. -/
theorem intra1 (e : Fin 2000) (d : Fin 256) : val_main_v11 (F := Ideal) x0 x1 (ix2 e d) = rintra (fun n e => x1 (ix2 n e)) (fun n d => x0 (ix2 n d)) e d := by
  rw [val_main_v11_apply, val_main_v9_apply, sumSq1, val_main_v8_apply, val_main_v7_apply, val_main_v10_apply, val_main_cst_2_apply]
  rw [show idx_main_v7 (idx_main_v8 (ix2 e d)) = ix1 e from funext fun a => by match a with | ⟨0, _⟩ => rfl, clampN1]
  simp only [Ideal.hostPowf_def, Ideal.hostDivf_def, Ideal.ofBits_def, Consts.ofBits_half]
  rfl

/-- The clamped node degree. -/
theorem clampE1 (n : Fin 10000) : val_main_v17 (F := Ideal) x1 (ix1 n) = max (rdeg (fun n e => x1 (ix2 n e)) n) 1 := by
  rw [val_main_v17_apply, val_main_v12_apply, val_main_cst_3_apply, val_main_v16_apply, val_main_cst_5_apply]
  simp only [Ideal.maximumf_def, Ideal.ofBits_def, Consts.ofBits_zero, Consts.ofBits_one]
  unfold rdeg
  refine congrArg (max · 1) (congrArg (0 + ·) (Finset.sum_congr rfl fun k _ => ?_))
  exact congrArg x1 (funext fun a => by match a with | ⟨0, _⟩ => rfl | ⟨1, _⟩ => rfl)

/-- The node's generalized mean. -/
theorem inter1 (n : Fin 10000) (d : Fin 256) : val_main_v22 (F := Ideal) x0 x1 (ix2 n d) = rinter (fun n e => x1 (ix2 n e)) (fun n d => x0 (ix2 n d)) n d := by
  rw [val_main_v22_apply, val_main_v20_apply, val_main_v15_apply, val_main_v19_apply, val_main_v18_apply, val_main_v21_apply, val_main_cst_6_apply]
  rw [show idx_main_v18 (idx_main_v19 (ix2 n d)) = ix1 n from funext fun a => by match a with | ⟨0, _⟩ => rfl, clampE1]
  have hsum : (∑ k : Fin 2000, x1 (lidx_main_v15 (ix2 n d) k) * (val_main_v14 (F := Ideal) x0 x1) (ridx_main_v15 (ix2 n d) k))
      = ∑ e, x1 (ix2 n e) * Ideal.pow (rintra (fun n e => x1 (ix2 n e)) (fun n d => x0 (ix2 n d)) e d) ((2 : ℝ) : EReal) :=
    Finset.sum_congr rfl fun k _ => by
      rw [show lidx_main_v15 (ix2 n d) k = ix2 n k from funext fun a => by match a with | ⟨0, _⟩ => rfl | ⟨1, _⟩ => rfl,
        show ridx_main_v15 (ix2 n d) k = ix2 k d from funext fun a => by match a with | ⟨0, _⟩ => rfl | ⟨1, _⟩ => rfl,
        val_main_v14_apply, intra1, val_main_v13_apply, val_main_cst_4_apply]
      simp only [Ideal.hostPowf_def, Ideal.ofBits_def, Consts.ofBits_two]
  rw [hsum]
  simp only [Ideal.hostPowf_def, Ideal.hostDivf_def, Ideal.ofBits_def, Consts.ofBits_half]
  rfl

/-- The layer's output. -/
theorem layer1 (n : Fin 10000) (j : Fin 256) : val_main_v24 (F := Ideal) x0 x1 x2 (ix2 n j) = rlayer (fun n e => x1 (ix2 n e)) (fun n d => x0 (ix2 n d)) (fun k j => x2 (ix2 k j)) n j := by
  rw [val_main_v24_apply, val_main_v23_apply, val_main_call0_v0_apply, val_main_call0_cst_apply]
  have hsum : (∑ k : Fin 256, (val_main_v22 (F := Ideal) x0 x1) (lidx_main_v23 (ix2 n j) k) * x2 (ridx_main_v23 (ix2 n j) k))
      = ∑ k, rinter (fun n e => x1 (ix2 n e)) (fun n d => x0 (ix2 n d)) n k * x2 (ix2 k j) :=
    Finset.sum_congr rfl fun k _ => by
      rw [show lidx_main_v23 (ix2 n j) k = ix2 n k from funext fun a => by match a with | ⟨0, _⟩ => rfl | ⟨1, _⟩ => rfl,
        show ridx_main_v23 (ix2 n j) k = ix2 k j from funext fun a => by match a with | ⟨0, _⟩ => rfl | ⟨1, _⟩ => rfl, inter1]
  rw [hsum]
  simp only [Ideal.maximumf_def, Ideal.ofBits_def, Consts.ofBits_zero]
  rfl

/-! ## Layer 2 of the reference, stage by stage at an index -/

/-- The clamped hyperedge size. -/
theorem clampN2 (e : Fin 2000) : val_main_v31 (F := Ideal) x1 (ix1 e) = max (rcnt (fun n e => x1 (ix2 n e)) e) 1 := by
  rw [val_main_v31_apply, val_main_v25_apply, val_main_cst_7_apply, val_main_v30_apply, val_main_cst_9_apply]
  simp only [Ideal.maximumf_def, Ideal.ofBits_def, Consts.ofBits_zero, Consts.ofBits_one]
  unfold rcnt
  refine congrArg (max · 1) (congrArg (0 + ·) (Finset.sum_congr rfl fun k _ => ?_))
  exact congrArg x1 (funext fun a => by match a with | ⟨0, _⟩ => rfl | ⟨1, _⟩ => rfl)

/-- The incidence-weighted sum of squared features. -/
theorem sumSq2 (e : Fin 2000) (d : Fin 256) : val_main_v29 (F := Ideal) x0 x1 x2 (ix2 e d) = rS (fun n e => x1 (ix2 n e)) (fun n d => val_main_v24 (F := Ideal) x0 x1 x2 (ix2 n d)) e d := by
  rw [val_main_v29_apply]; unfold rS
  refine Finset.sum_congr rfl fun k _ => ?_
  rw [val_main_v26_apply, val_main_v28_apply, val_main_v27_apply, val_main_cst_8_apply]
  rw [show idx_main_v26 (lidx_main_v29 (ix2 e d) k) = ix2 k e from funext fun a => by match a with | ⟨0, _⟩ => rfl | ⟨1, _⟩ => rfl,
    show ridx_main_v29 (ix2 e d) k = ix2 k d from funext fun a => by match a with | ⟨0, _⟩ => rfl | ⟨1, _⟩ => rfl]
  simp only [Ideal.hostPowf_def, Ideal.ofBits_def, Consts.ofBits_two]

/-- The hyperedge's generalized mean. -/
theorem intra2 (e : Fin 2000) (d : Fin 256) : val_main_v36 (F := Ideal) x0 x1 x2 (ix2 e d) = rintra (fun n e => x1 (ix2 n e)) (fun n d => val_main_v24 (F := Ideal) x0 x1 x2 (ix2 n d)) e d := by
  rw [val_main_v36_apply, val_main_v34_apply, sumSq2, val_main_v33_apply, val_main_v32_apply, val_main_v35_apply, val_main_cst_10_apply]
  rw [show idx_main_v32 (idx_main_v33 (ix2 e d)) = ix1 e from funext fun a => by match a with | ⟨0, _⟩ => rfl, clampN2]
  simp only [Ideal.hostPowf_def, Ideal.hostDivf_def, Ideal.ofBits_def, Consts.ofBits_half]
  rfl

/-- The clamped node degree. -/
theorem clampE2 (n : Fin 10000) : val_main_v42 (F := Ideal) x1 (ix1 n) = max (rdeg (fun n e => x1 (ix2 n e)) n) 1 := by
  rw [val_main_v42_apply, val_main_v37_apply, val_main_cst_11_apply, val_main_v41_apply, val_main_cst_13_apply]
  simp only [Ideal.maximumf_def, Ideal.ofBits_def, Consts.ofBits_zero, Consts.ofBits_one]
  unfold rdeg
  refine congrArg (max · 1) (congrArg (0 + ·) (Finset.sum_congr rfl fun k _ => ?_))
  exact congrArg x1 (funext fun a => by match a with | ⟨0, _⟩ => rfl | ⟨1, _⟩ => rfl)

/-- The node's generalized mean. -/
theorem inter2 (n : Fin 10000) (d : Fin 256) : val_main_v47 (F := Ideal) x0 x1 x2 (ix2 n d) = rinter (fun n e => x1 (ix2 n e)) (fun n d => val_main_v24 (F := Ideal) x0 x1 x2 (ix2 n d)) n d := by
  rw [val_main_v47_apply, val_main_v45_apply, val_main_v40_apply, val_main_v44_apply, val_main_v43_apply, val_main_v46_apply, val_main_cst_14_apply]
  rw [show idx_main_v43 (idx_main_v44 (ix2 n d)) = ix1 n from funext fun a => by match a with | ⟨0, _⟩ => rfl, clampE2]
  have hsum : (∑ k : Fin 2000, x1 (lidx_main_v40 (ix2 n d) k) * (val_main_v39 (F := Ideal) x0 x1 x2) (ridx_main_v40 (ix2 n d) k))
      = ∑ e, x1 (ix2 n e) * Ideal.pow (rintra (fun n e => x1 (ix2 n e)) (fun n d => val_main_v24 (F := Ideal) x0 x1 x2 (ix2 n d)) e d) ((2 : ℝ) : EReal) :=
    Finset.sum_congr rfl fun k _ => by
      rw [show lidx_main_v40 (ix2 n d) k = ix2 n k from funext fun a => by match a with | ⟨0, _⟩ => rfl | ⟨1, _⟩ => rfl,
        show ridx_main_v40 (ix2 n d) k = ix2 k d from funext fun a => by match a with | ⟨0, _⟩ => rfl | ⟨1, _⟩ => rfl,
        val_main_v39_apply, intra2, val_main_v38_apply, val_main_cst_12_apply]
      simp only [Ideal.hostPowf_def, Ideal.ofBits_def, Consts.ofBits_two]
  rw [hsum]
  simp only [Ideal.hostPowf_def, Ideal.hostDivf_def, Ideal.ofBits_def, Consts.ofBits_half]
  rfl

/-- The layer's output. -/
theorem layer2 (n : Fin 10000) (j : Fin 256) : val_main_v49 (F := Ideal) x0 x1 x2 x3 (ix2 n j) = rlayer (fun n e => x1 (ix2 n e)) (fun n d => val_main_v24 (F := Ideal) x0 x1 x2 (ix2 n d)) (fun k j => x3 (ix2 k j)) n j := by
  rw [val_main_v49_apply, val_main_v48_apply, val_main_call1_v0_apply, val_main_call1_cst_apply]
  have hsum : (∑ k : Fin 256, (val_main_v47 (F := Ideal) x0 x1 x2) (lidx_main_v48 (ix2 n j) k) * x3 (ridx_main_v48 (ix2 n j) k))
      = ∑ k, rinter (fun n e => x1 (ix2 n e)) (fun n d => val_main_v24 (F := Ideal) x0 x1 x2 (ix2 n d)) n k * x3 (ix2 k j) :=
    Finset.sum_congr rfl fun k _ => by
      rw [show lidx_main_v48 (ix2 n j) k = ix2 n k from funext fun a => by match a with | ⟨0, _⟩ => rfl | ⟨1, _⟩ => rfl,
        show ridx_main_v48 (ix2 n j) k = ix2 k j from funext fun a => by match a with | ⟨0, _⟩ => rfl | ⟨1, _⟩ => rfl, inter2]
  rw [hsum]
  simp only [Ideal.maximumf_def, Ideal.ofBits_def, Consts.ofBits_zero]
  rfl

/-- The reference's result array, index by index, is the reference network of its arguments. -/
theorem result_apply (n : Fin 10000) (j : Fin 256) :
    val_main_v49 (F := Ideal) x0 x1 x2 x3 (ix2 n j)
      = rnet (fun n e => x1 (ix2 n e)) (fun n d => x0 (ix2 n d)) (fun k j => x2 (ix2 k j)) (fun k j => x3 (ix2 k j)) n j := by
  rw [layer2]
  unfold rnet
  refine congrFun (congrFun (congrArg (fun Y => rlayer _ Y _) (funext fun n' => funext fun d' => ?_)) n) j
  exact layer1 x0 x1 x2 n' d'

end Cert.RefRead

end
-- ==== Proof.PreDecode.lean ====
/-
  What the precondition gives: it is the conjunction of five whole-array tests, each an "all" over an array of
  one-bit comparisons.  Read back, every feature entry has absolute value below +∞ — in particular it is not −∞ —
  and every incidence entry is at least zero.
-/
import proofs.«115026_g27496380629499_cont_9to1_1988_22_alg».proof.Pre_finite_inputs
import proofs.«115026_g27496380629499_cont_9to1_1988_22_alg».proof.Proof.Consts
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.PreDecode

open Cert.Pre_finite_inputs Idealize.ShloMosaic

variable [hF : Cert.Pre_finite_inputs.Facts]

instance : Subsingleton S_.Idx := ⟨fun a b => funext fun d => d.elim0⟩

theorem decode (x0 : FVec Ideal S10000x256 .f32) (x1 : FVec Ideal S10000x2000 .f32) (x2 x3 : FVec Ideal S256x256 .f32)
    (h : fn (F := Ideal) x0 x1 x2 x3 = fun _ => 1#1) :
    (∀ i, x0 i ≠ ⊥) ∧ (∀ i, (0 : EReal) ≤ x1 i) := by
  have h0 := congrFun h ValueIdx.ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  refine ⟨fun i => ?_, fun i => ?_⟩
  · -- |x| < +∞ fails at x = −∞, whose absolute value is +∞
    have e := Host.reduce_andi_all _ _ _ _ _ h1 i
    rw [ValueIdx.cmpf_apply] at e
    generalize hY : (broadcastInDim S10000x256 ![] hF.bcast_S_S10000x256 (constant (F := Ideal) S_ .f32 0x7F800000#32)) i = Y at e
    have e2 : Ideal.cmp .olt (max (x0 i) (-(x0 i))) Y = 1#1 := e
    unfold Ideal.cmp at e2
    intro hb
    rw [hb, EReal.neg_bot, max_eq_right bot_le] at e2
    simp at e2
  · -- 0 ≤ a, read off the comparison with the zero constant
    have e := Host.reduce_andi_all _ _ _ _ _ h5 i
    rw [ValueIdx.cmpf_apply] at e
    have hY : (broadcastInDim S10000x2000 ![] hF.bcast_S_S10000x2000 (constant (F := Ideal) S_ .f32 0x00000000#32)) i = (0 : EReal) :=
      (broadcastInDim_apply _ hF.bcast_S_S10000x2000 _ i ValueIdx.ix0 (fun a => a.elim0)).trans Consts.ofBits_zero
    have e2 : Ideal.cmp .oge (x1 i) ((broadcastInDim S10000x2000 ![] hF.bcast_S_S10000x2000 (constant (F := Ideal) S_ .f32 0x00000000#32)) i) = 1#1 := e
    rw [hY] at e2
    unfold Ideal.cmp at e2
    by_contra hn
    simp [hn] at e2

end Cert.PreDecode

end
-- ==== Proof.Final.lean ====
/-
  The two idealized programs compute one array.  The reference's result, read index by index, is the reference
  network of the arguments; under the precondition — no feature is −∞, every incidence entry is at least zero — that is
  the specification's network; and the kernel program's result array holds the specification's network of the same
  arguments.
-/
import proofs.«115026_g27496380629499_cont_9to1_1988_22_alg».proof.Proof.KI.Value
import proofs.«115026_g27496380629499_cont_9to1_1988_22_alg».proof.Proof.RefRead
import proofs.«115026_g27496380629499_cont_9to1_1988_22_alg».proof.Proof.PreDecode
import proofs.«115026_g27496380629499_cont_9to1_1988_22_alg».proof.Proof.Gen.Pre_finite_inputs
import proofs.«115026_g27496380629499_cont_9to1_1988_22_alg».proof.Defs

noncomputable section

namespace Cert.Final

open Idealize.ShloMosaic Idealize.ShloMosaic.TcCoe Idealize.ShloMosaic.ValueIdx Idealize.SL.Sem

/-- The reference's result term of the kernel program's argument arrays is the kernel program's result array. -/
theorem result_eq [hP : Cert.Pre_finite_inputs.Facts] (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = (fun _ => 1#1)) :
    Cert.ReferenceIdeal.Read.val_main_v49 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
    = Cert.KernelIdeal.Hand.W4 (F := Ideal) m ρ c (Proc.devRef .tc Cert.KernelIdeal.main_v5) := by
  obtain ⟨hX, hA⟩ := Cert.PreDecode.decode _ _ _ _ hpre
  funext i
  rw [eq_ix2 i]
  refine (Cert.RefRead.result_apply _ _ _ _ (i 0) (i 1)).trans ?_
  refine (congrFun (congrFun (Cert.RefSpec.rnet_eq _ (fun n e => hA (ix2 n e)) _ (fun n d => hX (ix2 n d)) _ _) (i 0)) (i 1)).trans ?_
  exact (Cert.KernelIdeal.Hand.kernel_value m ρ c (i 0) (i 1)).symm

end Cert.Final

end
-- ==== Proof.lean ====
/-
  The certificate: the three frames, the (empty) idealization ledger, and the equality of the two idealized
  programs' results.

  Both kernel programs run to the end with their arguments unchanged because the program is a stretch of host
  conversions followed by three pipelined kernel regions, each of which terminates at every grid point, keeps its
  scratch accumulator from point to point, and writes only its own output arrays; the reference is a straight line
  of host operations.  The results agree because, under the precondition, the reference's powers with exponents 2
  and 1/2 are the squares and square roots the kernel computes, and the square-root-then-square pair the kernel
  omits is the identity on a nonnegative message.
-/
import proofs.«115026_g27496380629499_cont_9to1_1988_22_alg».proof.Defs
import proofs.«115026_g27496380629499_cont_9to1_1988_22_alg».proof.Proof.Gen.Kernel
import proofs.«115026_g27496380629499_cont_9to1_1988_22_alg».proof.Proof.Gen.KernelIdeal
import proofs.«115026_g27496380629499_cont_9to1_1988_22_alg».proof.Proof.Gen.ReferenceIdeal
import proofs.«115026_g27496380629499_cont_9to1_1988_22_alg».proof.Proof.Gen.Pre_finite_inputs
import proofs.«115026_g27496380629499_cont_9to1_1988_22_alg».proof.Proof.Gen.ReferenceIdeal.Run
import proofs.«115026_g27496380629499_cont_9to1_1988_22_alg».proof.Proof.Gen.ReferenceIdeal.Read
import proofs.«115026_g27496380629499_cont_9to1_1988_22_alg».proof.Proof.K.Run
import proofs.«115026_g27496380629499_cont_9to1_1988_22_alg».proof.Proof.KI.Run
import proofs.«115026_g27496380629499_cont_9to1_1988_22_alg».proof.Proof.Final
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs run, and end with one result array: the kernel program's run names it, and the
    reference's result term of the agreeing arguments is that array. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v5),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2]
  exact Cert.Final.result_eq m ρ c (hpre c)

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
